-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S47x128 : S_.BroadcastsInDim S47x128 (![] : Fin 0 → Fin S47x128.rank)
  reducesTo_S47x128_S_d0_1 : S47x128.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg8 : FVec F S47 .f32) (main_arg9 : FVec F S47x128 .f32) (main_v33 : IVec S_ 1) : IVec S_ 1 :=
  let main_v34 : FVec F S47 .f32 := Host.absf main_arg8
  let main_cst_12 : FVec F S_ .f32 := constant S_ .f32 0x7F800000#32
  let main_v35 : FVec F S47 .f32 := broadcastInDim S47 ![] bcast_S_S47 main_cst_12
  let main_v36 : IVec S47 1 := cmpf .olt main_v34 main_v35
  let main_c_13 : IVec S_ 1 := constantI S_ 1 1#1
  let main_v37 : IVec S_ 1 := (fun x v => Host.reduce IntOp.andi x v reducesTo_S47_S_d0 h_S_) main_v36 main_c_13
  let main_v38 : IVec S_ 1 := andi main_v33 main_v37
  let main_v39 : FVec F S47x128 .f32 := Host.absf main_arg9
  let main_cst_14 : FVec F S_ .f32 := constant S_ .f32 0x7F800000#32
  let main_v40 : FVec F S47x128 .f32 := broadcastInDim S47x128 ![] bcast_S_S47x128 main_cst_14
  let main_v41 : IVec S47x128 1 := cmpf .olt main_v39 main_v40
  let main_c_15 : IVec S_ 1 := constantI S_ 1 1#1
  let main_v42 : IVec S_ 1 := (fun x v => Host.reduce IntOp.andi x v reducesTo_S47x128_S_d0_1 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S47x128 .f32) (main_arg8 : FVec F S47 .f32) (main_arg9 : FVec F S47x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S47x128 .f32 := Host.absf main_arg7
  let main_cst_10 : FVec F S_ .f32 := constant S_ .f32 0x7F800000#32
  let main_v30 : FVec F S47x128 .f32 := broadcastInDim S47x128 ![] bcast_S_S47x128 main_cst_10
  let main_v31 : IVec S47x128 1 := cmpf .olt main_v29 main_v30
  let main_c_11 : IVec S_ 1 := constantI S_ 1 1#1
  let main_v32 : IVec S_ 1 := (fun x v => Host.reduce IntOp.andi x v reducesTo_S47x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S47x128 .f32) (main_arg8 : FVec F S47 .f32) (main_arg9 : FVec F S47x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S1 : Shape := ⟨1, ![1]⟩
abbrev S50000x47 : Shape := ⟨2, ![50000, 47]⟩

abbrev nBuf : Space → Nat
  | .hbm => 83
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S47x128, .f32⟩
  | .hbm, ⟨8, _⟩ => ⟨S47, .f32⟩
  | .hbm, ⟨9, _⟩ => ⟨S47x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S128x128, .f32⟩
  | .hbm, ⟨41, _⟩ => ⟨S1x128, .f32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S128x128, .f32⟩
  | .hbm, ⟨65, _⟩ => ⟨S_, .i32⟩
  | .hbm, ⟨66, _⟩ => ⟨S1, .i32⟩
  | .hbm, ⟨67, _⟩ => ⟨S128x128, .f32⟩
  | .hbm, ⟨68, _⟩ => ⟨S_, .f32⟩
  | .hbm, ⟨69, _⟩ => ⟨S128x128, .f32⟩
  | .hbm, ⟨70, _⟩ => ⟨S_, .i32⟩
  | .hbm, ⟨71, _⟩ => ⟨S1, .i32⟩
  | .hbm, ⟨72, _⟩ => ⟨S128x128, .f32⟩
  | .hbm, ⟨73, _⟩ => ⟨S_, .f32⟩
  | .hbm, ⟨74, _⟩ => ⟨S128, .f32⟩
  | .hbm, ⟨75, _⟩ => ⟨S_, .i32⟩
  | .hbm, ⟨76, _⟩ => ⟨S1, .i32⟩
  | .hbm, ⟨77, _⟩ => ⟨S128, .f32⟩
  | .hbm, ⟨78, _⟩ => ⟨S1x128, .f32⟩
  | .hbm, ⟨79, _⟩ => ⟨S128x128, .f32⟩
  | .hbm, ⟨80, _⟩ => ⟨S128x128, .f32⟩
  | .hbm, ⟨81, _⟩ => ⟨S50000x128, .f32⟩
  | .hbm, ⟨82, _⟩ => ⟨S50000x47, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev main_v26_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v37 : BitVec 1 := Scalar.cmpi .eq arg0 c9_i32
  let v38 : BitVec 32 := Scalar.extui v37
  let c0_i32_23 : BitVec 32 := 0#32
  let v39 : BitVec 1 := Scalar.cmpi .ne v38 c0_i32_23
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  slices_S50000x128_S50000x47_0_0 : S50000x128.Slices ![0, 0] S50000x47
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S128x128_S1_S47x128_01_n_0_0_wf : ScatterDims.WF S128x128 S1 S47x128 [0, 1] [] [0] 0
  scatter_S128_S1_S47_0_n_0_0_wf : ScatterDims.WF S128 S1 S47 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S1_S47x128_01_n_0_0 : ScatterDims S128x128 S1 S47x128 where
  updateWindowDims := [0, 1]
  insertedWindowDims := []
  scatterDimsToOperandDims := [0]
  indexVectorDim := 0
  wf := scatter_S128x128_S1_S47x128_01_n_0_0_wf
def scatter_S128_S1_S47_0_n_0_0 : ScatterDims S128 S1 S47 where
  updateWindowDims := [0]
  insertedWindowDims := []
  scatterDimsToOperandDims := [0]
  indexVectorDim := 0
  wf := scatter_S128_S1_S47_0_n_0_0_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v26_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_1) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26_2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x47 : Shape := ⟨2, ![128, 47]⟩
abbrev S50000x47 : Shape := ⟨2, ![50000, 47]⟩
abbrev S1x47 : Shape := ⟨2, ![1, 47]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S47x128, .f32⟩
  | .hbm, ⟨8, _⟩ => ⟨S47, .f32⟩
  | .hbm, ⟨9, _⟩ => ⟨S47x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S_, .f32⟩
  | .hbm, ⟨94, _⟩ => ⟨S800000, .f32⟩
  | .hbm, ⟨95, _⟩ => ⟨S_, .f32⟩
  | .hbm, ⟨96, _⟩ => ⟨S50000, .f32⟩
  | .hbm, ⟨97, _⟩ => ⟨S800000x1, .i32⟩
  | .hbm, ⟨98, _⟩ => ⟨S50000, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S128x47, .f32⟩
  | .hbm, ⟨106, _⟩ => ⟨S50000x47, .f32⟩
  | .hbm, ⟨107, _⟩ => ⟨S1x47, .f32⟩
  | .hbm, ⟨108, _⟩ => ⟨S50000x47, .f32⟩
  | .hbm, ⟨109, _⟩ => ⟨S50000x47, .f32⟩
  | .hbm, ⟨110, _⟩ => ⟨S128x47, .f32⟩
  | .hbm, ⟨111, _⟩ => ⟨S50000x47, .f32⟩
  | .hbm, ⟨112, _⟩ => ⟨S50000x47, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call0_cst : Ref sig .tc := ⟨.hbm, 77, rfl⟩
abbrev main_call0_v0 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_11 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_12 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  transposes_S47x128_S128x47_1_0 : S47x128.Transposes [1, 0] S128x47
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.K.StatsKit.lean ====
import proofs.«120895_j33182917328949_1_alg».proof.Proof.Gen.Kernel.Launch
import proofs.«120895_j33182917328949_1_alg».proof.Proof.Gen.Kernel.Skeleton
import proofs.«120895_j33182917328949_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first linear layer with running statistics (the first pallas_call)

Ten row blocks of 5000 rows, walked in order. At each block the body writes the block of pre-activations
(aggregated rows times one matrix, root rows times another, plus the bias row) and adds the block's column sums
and column sums of squares to two one-row accumulators it keeps in scratch memory between blocks; it clears the
accumulators at the first block and, at the last, divides them by the row count and writes the mean and the
mean of squares minus the squared mean. Stated at a parameter `V`: the buffers' contents when the call is entered. -/

variable (V : (c : Dev nD) → (b : Ref sig .tc) → Buf (Elt F) ((c : Thread nD τ).loc b))

/-- Operand `w`'s block at grid point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's staging buffer holds its block at every point, whether the point fetched it or the block index
has not moved since it was fetched. -/
theorem held_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem held_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem held_2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem held_3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem held_4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The body's two branches, decided over the ten points -/

/-- "This is the first block": the body's test of the grid coordinate against zero, as it computes it. -/
abbrev first (i : grid0.Coords) : Prop := (Scalar.cmpi .ne (Scalar.extui (Scalar.cmpi .eq (BitVec.ofNat 32 (i 0).val) 0#32)) 0#32) = 1#1
theorem first_iff : ∀ t : Fin cfg0.N, first (grid0.coords t) ↔ t.val % 10 = 0 :=
  (by decide +kernel : ∀ t : Fin grid0.N, first (grid0.coords t) ↔ t.val % 10 = 0)

/-- "This is the last block": the body's test of the grid coordinate against nine. -/
abbrev last (i : grid0.Coords) : Prop := k0_cond2 i = 1#1
theorem last_iff : ∀ t : Fin cfg0.N, last (grid0.coords t) ↔ t.val % 10 = 9 :=
  (by decide +kernel : ∀ t : Fin grid0.N, last (grid0.coords t) ↔ t.val % 10 = 9)

/-! Where the operands are idle: the inputs and the pre-activation block never; the mean and variance rows at every
point but the last, where alone the body stores into them and the pipeline writes them back. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem idle_6 : ∀ t : Fin cfg0.N, ¬last (grid0.coords t) → cfg0.idle 6 (grid0.coords t) = true := by decide +kernel
theorem idle_7 : ∀ t : Fin cfg0.N, ¬last (grid0.coords t) → cfg0.idle 7 (grid0.coords t) = true := by decide +kernel
theorem noFlush_6 : ∀ t : Fin cfg0.N, ¬last (grid0.coords t) → (cfg0.win 6).flush t = false := by decide +kernel
theorem noFlush_7 : ∀ t : Fin cfg0.N, ¬last (grid0.coords t) → (cfg0.win 7).flush t = false := by decide +kernel
theorem live_6 : ∀ t : Fin cfg0.N, last (grid0.coords t) → cfg0.idle 6 (grid0.coords t) = false := by decide +kernel
theorem live_7 : ∀ t : Fin cfg0.N, last (grid0.coords t) → cfg0.idle 7 (grid0.coords t) = false := by decide +kernel

/-! ## The buffers the body is run on -/

/-- One staging buffer of each output, through which its contents are stated. -/
abbrev VO5 : View sig .tc .vmem S5000x128 .f32 := (Memref.whole cc0_stg5_0 : Memref sig .tc .vmem S5000x128 .f32).view
abbrev VO6 : View sig .tc .vmem S1x128 .f32 := (Memref.whole cc0_stg6_0 : Memref sig .tc .vmem S1x128 .f32).view
abbrev VO7 : View sig .tc .vmem S1x128 .f32 := (Memref.whole cc0_stg7_0 : Memref sig .tc .vmem S1x128 .f32).view
/-- The two accumulators: whole scratch buffers of the kernel's own. -/
abbrev accS : Memref sig .tc .vmem S1x128 .f32 := Memref.whole cc0_scratch0
abbrev accQ : Memref sig .tc .vmem S1x128 .f32 := Memref.whole cc0_scratch1
abbrev VS : View sig .tc .vmem S1x128 .f32 := accS.view
abbrev VQ : View sig .tc .vmem S1x128 .f32 := accQ.view

/-- The other pallas_calls' staging buffers, each whole at some contents: this call never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- The class's invariant with the two accumulators as buffers owned at some contents. -/
theorem PhiA_eq (c : Dev nD) :
    (Pipeline.ΦA spec0 c : sProp 𝕄)
      = iprop(iprop((∃ d, owns (c : Thread nD τ) accS fullShare d) ∗ (∃ d, owns (c : Thread nD τ) accQ fullShare d) ∗ others (F := F) c) ∗ (∃ r, prngReg c r)) := by
  unfold Pipeline.ΦA others; rw [scopedRest0_eq]; simp only [accS, accQ, owns_whole]; try rfl

end Cert.Kernel.Stats

end
-- ==== Proof.K.StatsFirst.lean ====
import proofs.«120895_j33182917328949_1_alg».proof.Proof.Gen.Kernel.Launch
import proofs.«120895_j33182917328949_1_alg».proof.Proof.Gen.Kernel.Skeleton
import proofs.«120895_j33182917328949_1_alg».proof.Proof.Gen.Kernel.Points
import proofs.«120895_j33182917328949_1_alg».proof.Proof.K.StatsKit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- THE FIRST BLOCK. What the body's stores leave, as lists of pieces (last first) — in the pre-activation
    block's buffer, in the sum accumulator and in the sum-of-squares accumulator — WITH the proof that, on whole
    buffers (the five inputs at their contents, the mean and variance rows at contents handed back untouched, the
    rest at anything), the body runs to its return leaving exactly those pieces written. The pieces are found by
    running the body symbolically. -/
noncomputable def runFirst (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) :
    Σ' (L5 : List (View.Piece (Elt F) S5000x128 .f32)) (LS : List (View.Piece (Elt F) S1x128 .f32)), { LQ : List (View.Piece (Elt F) S1x128 .f32) //
      ∀ (xi6 xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS) ∗ (∃ f, arg10.view.loc (c : Thread nD τ) ↦[arg10.view.set]{fullShare} arg10.view.writes (Elt F) f LQ)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__linear_stats_kernel_eq_skeleton]; unfold cc0__linear_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS⟩, ⟨%ds1, %fs1, -, HQ⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS]; · iexists _; iexact HS
    iexists _; iexact HQ

end Cert.Kernel.Stats

end
-- ==== Proof.K.StatsMid.lean ====
import proofs.«120895_j33182917328949_1_alg».proof.Proof.Gen.Kernel.Launch
import proofs.«120895_j33182917328949_1_alg».proof.Proof.Gen.Kernel.Skeleton
import proofs.«120895_j33182917328949_1_alg».proof.Proof.Gen.Kernel.Points
import proofs.«120895_j33182917328949_1_alg».proof.Proof.K.StatsKit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A MIDDLE BLOCK. As for the first block, but neither branch is taken: the accumulators come in at the contents
    `xs`, `xq` the block before left in them. -/
noncomputable def runMid (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) :
    Σ' (L5 : List (View.Piece (Elt F) S5000x128 .f32)) (LS : List (View.Piece (Elt F) S1x128 .f32)), { LQ : List (View.Piece (Elt F) S1x128 .f32) //
      ∀ (xi6 xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs ∗ owns (c : Thread nD τ) arg10 fullShare xq
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS) ∗ (∃ f, arg10.view.loc (c : Thread nD τ) ↦[arg10.view.set]{fullShare} arg10.view.writes (Elt F) f LQ)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__linear_stats_kernel_eq_skeleton]; unfold cc0__linear_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS⟩, ⟨%fs1, %hfs1, HQ⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS]; · iexists _; iexact HS
    iexists _; iexact HQ

end Cert.Kernel.Stats

end
-- ==== Proof.K.StatsLast.lean ====
import proofs.«120895_j33182917328949_1_alg».proof.Proof.Gen.Kernel.Launch
import proofs.«120895_j33182917328949_1_alg».proof.Proof.Gen.Kernel.Skeleton
import proofs.«120895_j33182917328949_1_alg».proof.Proof.Gen.Kernel.Points
import proofs.«120895_j33182917328949_1_alg».proof.Proof.K.StatsKit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- THE LAST BLOCK. As for a middle block, and the closing branch is taken: the mean and variance rows' buffers,
    at anything on entry, end with the pieces `L6`, `L7` written. -/
noncomputable def runLast (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) :
    Σ' (L5 : List (View.Piece (Elt F) S5000x128 .f32)) (L6 : List (View.Piece (Elt F) S1x128 .f32)) (L7 : List (View.Piece (Elt F) S1x128 .f32)) (LS : List (View.Piece (Elt F) S1x128 .f32)), { LQ : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs ∗ owns (c : Thread nD τ) arg10 fullShare xq
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS) ∗ (∃ f, arg10.view.loc (c : Thread nD τ) ↦[arg10.view.set]{fullShare} arg10.view.writes (Elt F) f LQ)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__linear_stats_kernel_eq_skeleton]; unfold cc0__linear_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS⟩, ⟨%fs1, %hfs1, HQ⟩, Hk⟩
    obtain rfl := harg1.eq_unread hf0; obtain rfl := harg2.eq_unread hf1; obtain rfl := harg3.eq_unread hf2; obtain rfl := harg4.eq_unread hf3; obtain rfl := harg5.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS]; · iexists _; iexact HS
    iexists _; iexact HQ

end Cert.Kernel.Stats

end
-- ==== Proof.K.StatsData.lean ====
import proofs.«120895_j33182917328949_1_alg».proof.Proof.Gen.Kernel.Launch
import proofs.«120895_j33182917328949_1_alg».proof.Proof.Gen.Kernel.Skeleton
import proofs.«120895_j33182917328949_1_alg».proof.Proof.Gen.Kernel.Points
import proofs.«120895_j33182917328949_1_alg».proof.Proof.K.StatsFirst
import proofs.«120895_j33182917328949_1_alg».proof.Proof.K.StatsMid
import proofs.«120895_j33182917328949_1_alg».proof.Proof.K.StatsLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call, block after block: what its buffers hold after each of the ten blocks -/

variable (V : (c : Dev nD) → (b : Ref sig .tc) → Buf (Elt F) ((c : Thread nD τ).loc b))

/-! ## What each kind of block leaves -/

/-- What the first block leaves in the pre-activation block's buffer: its pieces read back. -/
def preFirst (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) : Vec F S5000x128 .f32 :=
  VO5.read (Elt F) (VO5.writes (Elt F) VO5.junk (runFirst c i arg1 harg1 arg2 harg2 arg3 harg3 arg4 harg4 arg5 harg5 arg6 harg6 arg7 harg7 arg8 harg8 arg9 harg9 arg10 harg10 hc0 hc1 x0 x1 x2 x3 x4).1)
theorem preFirst_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) (y : S5000x128.Idx) :
    ∃ pc ∈ (runFirst c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL _ S5000x128.size (by sl_kernel_rfl) y

/-- What the first block leaves in the sum accumulator. -/
def sumFirst (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) : Vec F S1x128 .f32 :=
  VS.read (Elt F) (VS.writes (Elt F) VS.junk (runFirst c i arg1 harg1 arg2 harg2 arg3 harg3 arg4 harg4 arg5 harg5 arg6 harg6 arg7 harg7 arg8 harg8 arg9 harg9 arg10 harg10 hc0 hc1 x0 x1 x2 x3 x4).2.1)
theorem sumFirst_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) (y : S1x128.Idx) :
    ∃ pc ∈ (runFirst c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL _ S1x128.size (by sl_kernel_rfl) y

/-- What the first block leaves in the sum-of-squares accumulator. -/
def sqFirst (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) : Vec F S1x128 .f32 :=
  VQ.read (Elt F) (VQ.writes (Elt F) VQ.junk (runFirst c i arg1 harg1 arg2 harg2 arg3 harg3 arg4 harg4 arg5 harg5 arg6 harg6 arg7 harg7 arg8 harg8 arg9 harg9 arg10 harg10 hc0 hc1 x0 x1 x2 x3 x4).2.2.1)
theorem sqFirst_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) (y : S1x128.Idx) :
    ∃ pc ∈ (runFirst c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL _ S1x128.size (by sl_kernel_rfl) y

/-- What a middle block leaves in the pre-activation block's buffer. -/
def preMid (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) : Vec F S5000x128 .f32 :=
  VO5.read (Elt F) (VO5.writes (Elt F) VO5.junk (runMid c i arg1 harg1 arg2 harg2 arg3 harg3 arg4 harg4 arg5 harg5 arg6 harg6 arg7 harg7 arg8 harg8 arg9 harg9 arg10 harg10 hc0 hc1 x0 x1 x2 x3 x4 xs xq).1)
theorem preMid_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) (y : S5000x128.Idx) :
    ∃ pc ∈ (runMid c i arg1 harg1 arg2 harg2 arg3 harg3 arg4 harg4 arg5 harg5 arg6 harg6 arg7 harg7 arg8 harg8 arg9 harg9 arg10 harg10 hc0 hc1 x0 x1 x2 x3 x4 xs xq).1, y ∈ pc.1.set :=
  View.cover_of_tiledL _ S5000x128.size (by sl_kernel_rfl) y

/-- What a middle block leaves in the sum accumulator, from what the block before left (`xs`). -/
def sumMid (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) : Vec F S1x128 .f32 :=
  VS.read (Elt F) (VS.writes (Elt F) VS.junk (runMid c i arg1 harg1 arg2 harg2 arg3 harg3 arg4 harg4 arg5 harg5 arg6 harg6 arg7 harg7 arg8 harg8 arg9 harg9 arg10 harg10 hc0 hc1 x0 x1 x2 x3 x4 xs xq).2.1)
theorem sumMid_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) (y : S1x128.Idx) :
    ∃ pc ∈ (runMid c i arg1 harg1 arg2 harg2 arg3 harg3 arg4 harg4 arg5 harg5 arg6 harg6 arg7 harg7 arg8 harg8 arg9 harg9 arg10 harg10 hc0 hc1 x0 x1 x2 x3 x4 xs xq).2.1, y ∈ pc.1.set :=
  View.cover_of_tiledL _ S1x128.size (by sl_kernel_rfl) y

/-- What a middle block leaves in the sum-of-squares accumulator, from what the block before left (`xq`). -/
def sqMid (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) : Vec F S1x128 .f32 :=
  VQ.read (Elt F) (VQ.writes (Elt F) VQ.junk (runMid c i arg1 harg1 arg2 harg2 arg3 harg3 arg4 harg4 arg5 harg5 arg6 harg6 arg7 harg7 arg8 harg8 arg9 harg9 arg10 harg10 hc0 hc1 x0 x1 x2 x3 x4 xs xq).2.2.1)
theorem sqMid_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) (y : S1x128.Idx) :
    ∃ pc ∈ (runMid c i arg1 harg1 arg2 harg2 arg3 harg3 arg4 harg4 arg5 harg5 arg6 harg6 arg7 harg7 arg8 harg8 arg9 harg9 arg10 harg10 hc0 hc1 x0 x1 x2 x3 x4 xs xq).2.2.1, y ∈ pc.1.set :=
  View.cover_of_tiledL _ S1x128.size (by sl_kernel_rfl) y

/-- What the last block leaves in the pre-activation block's buffer. -/
def preLast (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) : Vec F S5000x128 .f32 :=
  VO5.read (Elt F) (VO5.writes (Elt F) VO5.junk (runLast c i arg1 harg1 arg2 harg2 arg3 harg3 arg4 harg4 arg5 harg5 arg6 harg6 arg7 harg7 arg8 harg8 arg9 harg9 arg10 harg10 hc0 hc1 x0 x1 x2 x3 x4 xs xq).1)
theorem preLast_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) (y : S5000x128.Idx) :
    ∃ pc ∈ (runLast c i arg1 harg1 arg2 harg2 arg3 harg3 arg4 harg4 arg5 harg5 arg6 harg6 arg7 harg7 arg8 harg8 arg9 harg9 arg10 harg10 hc0 hc1 x0 x1 x2 x3 x4 xs xq).1, y ∈ pc.1.set :=
  View.cover_of_tiledL _ S5000x128.size (by sl_kernel_rfl) y

/-- What the last block leaves in the mean row's buffer. -/
def meanLast (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) : Vec F S1x128 .f32 :=
  VO6.read (Elt F) (VO6.writes (Elt F) VO6.junk (runLast c i arg1 harg1 arg2 harg2 arg3 harg3 arg4 harg4 arg5 harg5 arg6 harg6 arg7 harg7 arg8 harg8 arg9 harg9 arg10 harg10 hc0 hc1 x0 x1 x2 x3 x4 xs xq).2.1)
theorem meanLast_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) (y : S1x128.Idx) :
    ∃ pc ∈ (runLast c i arg1 harg1 arg2 harg2 arg3 harg3 arg4 harg4 arg5 harg5 arg6 harg6 arg7 harg7 arg8 harg8 arg9 harg9 arg10 harg10 hc0 hc1 x0 x1 x2 x3 x4 xs xq).2.1, y ∈ pc.1.set :=
  View.cover_of_tiledL _ S1x128.size (by sl_kernel_rfl) y

/-- What the last block leaves in the variance row's buffer. -/
def varLast (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) : Vec F S1x128 .f32 :=
  VO7.read (Elt F) (VO7.writes (Elt F) VO7.junk (runLast c i arg1 harg1 arg2 harg2 arg3 harg3 arg4 harg4 arg5 harg5 arg6 harg6 arg7 harg7 arg8 harg8 arg9 harg9 arg10 harg10 hc0 hc1 x0 x1 x2 x3 x4 xs xq).2.2.1)
theorem varLast_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) (y : S1x128.Idx) :
    ∃ pc ∈ (runLast c i arg1 harg1 arg2 harg2 arg3 harg3 arg4 harg4 arg5 harg5 arg6 harg6 arg7 harg7 arg8 harg8 arg9 harg9 arg10 harg10 hc0 hc1 x0 x1 x2 x3 x4 xs xq).2.2.1, y ∈ pc.1.set :=
  View.cover_of_tiledL _ S1x128.size (by sl_kernel_rfl) y

/-- What the last block leaves in the sum accumulator. -/
def sumLast (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) : Vec F S1x128 .f32 :=
  VS.read (Elt F) (VS.writes (Elt F) VS.junk (runLast c i arg1 harg1 arg2 harg2 arg3 harg3 arg4 harg4 arg5 harg5 arg6 harg6 arg7 harg7 arg8 harg8 arg9 harg9 arg10 harg10 hc0 hc1 x0 x1 x2 x3 x4 xs xq).2.2.2.1)
theorem sumLast_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) (y : S1x128.Idx) :
    ∃ pc ∈ (runLast c i arg1 harg1 arg2 harg2 arg3 harg3 arg4 harg4 arg5 harg5 arg6 harg6 arg7 harg7 arg8 harg8 arg9 harg9 arg10 harg10 hc0 hc1 x0 x1 x2 x3 x4 xs xq).2.2.2.1, y ∈ pc.1.set :=
  View.cover_of_tiledL _ S1x128.size (by sl_kernel_rfl) y

/-- What the last block leaves in the sum-of-squares accumulator. -/
def sqLast (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) : Vec F S1x128 .f32 :=
  VQ.read (Elt F) (VQ.writes (Elt F) VQ.junk (runLast c i arg1 harg1 arg2 harg2 arg3 harg3 arg4 harg4 arg5 harg5 arg6 harg6 arg7 harg7 arg8 harg8 arg9 harg9 arg10 harg10 hc0 hc1 x0 x1 x2 x3 x4 xs xq).2.2.2.2.1)
theorem sqLast_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) (y : S1x128.Idx) :
    ∃ pc ∈ (runLast c i arg1 harg1 arg2 harg2 arg3 harg3 arg4 harg4 arg5 harg5 arg6 harg6 arg7 harg7 arg8 harg8 arg9 harg9 arg10 harg10 hc0 hc1 x0 x1 x2 x3 x4 xs xq).2.2.2.2.1, y ∈ pc.1.set :=
  View.cover_of_tiledL _ S1x128.size (by sl_kernel_rfl) y

/-- The contents stated for the mean and variance rows' buffers at the blocks that do not touch them: nothing
    consults it (the buffers are neither written back there nor read at the next block). -/
def idleRow : Vec F S1x128 .f32 := VO6.read (Elt F) VO6.junk

/-! ## The buffers the pipeline passes the body at point `t` -/
abbrev ms_0 (t : Fin cfg0.N) : Memref sig .tc .vmem S5000x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S5000x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S5000x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x128 .f32 := win0_7.stage (cfg0.slots t 7)
abbrev hs_7 (t : Fin cfg0.N) : (ms_7 t).IsWhole := hstage0_7 ((cfg0.slots t 7).cast nbuf0_7)

/-! ## The accumulation -/

/-- What the three outputs' buffers and the two accumulators hold after the body at block `n` (pre-activations,
    mean row, variance row, running sum, running sum of squares): the first block from scratch, every later one
    from the accumulators as the block before left them; the last also writes the mean and variance rows. -/
def outsAt (c : Dev nD) : (n : ℕ) → n < cfg0.N → Vec F S5000x128 .f32 × Vec F S1x128 .f32 × Vec F S1x128 .f32 × Vec F S1x128 .f32 × Vec F S1x128 .f32
  | 0, hn => (preFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) accS (Memref.isWhole_whole _) accQ (Memref.isWhole_whole _) ((first_iff ⟨0, hn⟩).mpr (Nat.zero_mod _)) (fun h => by have h' := (last_iff ⟨0, hn⟩).mp h; dsimp only at h'; omega) (blk V c 0 ⟨0, hn⟩) (blk V c 1 ⟨0, hn⟩) (blk V c 2 ⟨0, hn⟩) (blk V c 3 ⟨0, hn⟩) (blk V c 4 ⟨0, hn⟩), idleRow, idleRow, sumFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) accS (Memref.isWhole_whole _) accQ (Memref.isWhole_whole _) ((first_iff ⟨0, hn⟩).mpr (Nat.zero_mod _)) (fun h => by have h' := (last_iff ⟨0, hn⟩).mp h; dsimp only at h'; omega) (blk V c 0 ⟨0, hn⟩) (blk V c 1 ⟨0, hn⟩) (blk V c 2 ⟨0, hn⟩) (blk V c 3 ⟨0, hn⟩) (blk V c 4 ⟨0, hn⟩), sqFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) accS (Memref.isWhole_whole _) accQ (Memref.isWhole_whole _) ((first_iff ⟨0, hn⟩).mpr (Nat.zero_mod _)) (fun h => by have h' := (last_iff ⟨0, hn⟩).mp h; dsimp only at h'; omega) (blk V c 0 ⟨0, hn⟩) (blk V c 1 ⟨0, hn⟩) (blk V c 2 ⟨0, hn⟩) (blk V c 3 ⟨0, hn⟩) (blk V c 4 ⟨0, hn⟩))
  | n + 1, hn =>
    if h1 : (n + 1) % 10 = 9 then
      (preLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) ((last_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2, meanLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) ((last_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2, varLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) ((last_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2, sumLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) ((last_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2, sqLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) ((last_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2)
    else
      (preMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) (fun h => h1 ((last_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2, idleRow, idleRow, sumMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) (fun h => h1 ((last_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2, sqMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) (fun h => h1 ((last_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2)

theorem outsAt_first (c : Dev nD) (t : Fin cfg0.N) (h0 : t.val % 10 = 0) (h1 : ¬t.val % 10 = 9) :
    outsAt V c t.val t.isLt = (preFirst c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) ((first_iff t).mpr h0) (fun h => h1 ((last_iff t).mp h)) (blk V c 0 t) (blk V c 1 t) (blk V c 2 t) (blk V c 3 t) (blk V c 4 t), idleRow, idleRow, sumFirst c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) ((first_iff t).mpr h0) (fun h => h1 ((last_iff t).mp h)) (blk V c 0 t) (blk V c 1 t) (blk V c 2 t) (blk V c 3 t) (blk V c 4 t), sqFirst c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) ((first_iff t).mpr h0) (fun h => h1 ((last_iff t).mp h)) (blk V c 0 t) (blk V c 1 t) (blk V c 2 t) (blk V c 3 t) (blk V c 4 t)) := by
  obtain ⟨n, hn⟩ := t
  cases n with
  | zero => exact rfl
  | succ n => exact (by exfalso; have hN : n + 1 < 10 := lt_of_lt_of_eq hn (show cfg0.N = 10 from N_0); dsimp only at h0; omega)

theorem outsAt_mid (c : Dev nD) (t : Fin cfg0.N) (h0 : ¬t.val % 10 = 0) (h1 : ¬t.val % 10 = 9) :
    outsAt V c t.val t.isLt = (preMid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) (fun h => h1 ((last_iff t).mp h)) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, idleRow, idleRow, sumMid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) (fun h => h1 ((last_iff t).mp h)) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, sqMid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) (fun h => h1 ((last_iff t).mp h)) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2) := by
  obtain ⟨n, hn⟩ := t
  cases n with
  | zero => exact (by exfalso; exact absurd (Nat.zero_mod _) h0)
  | succ n => exact (dif_neg h1).trans rfl

theorem outsAt_last (c : Dev nD) (t : Fin cfg0.N) (h0 : ¬t.val % 10 = 0) (h1 : t.val % 10 = 9) :
    outsAt V c t.val t.isLt = (preLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) ((last_iff t).mpr h1) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, meanLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) ((last_iff t).mpr h1) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, varLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) ((last_iff t).mpr h1) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, sumLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) ((last_iff t).mpr h1) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, sqLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) ((last_iff t).mpr h1) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2) := by
  obtain ⟨n, hn⟩ := t
  cases n with
  | zero => exact (by exfalso; exact absurd (Nat.zero_mod _) h0)
  | succ n => exact (dif_pos h1).trans rfl

/-- The invariant before block `n`: before the first, the class's (every scratch buffer at anything); afterwards
    the two accumulators at what the block before left in them, the other calls' buffers at anything, the
    generator register at some state. -/
def PhiS (c : Dev nD) : (n : ℕ) → n ≤ cfg0.N → sProp 𝕄
  | 0, _ => Pipeline.ΦA spec0 c
  | n + 1, hn => iprop(iprop(owns (c : Thread nD τ) accS fullShare ((outsAt V c n hn).2.2.2.1) ∗ owns (c : Thread nD τ) accQ fullShare ((outsAt V c n hn).2.2.2.2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accS fullShare ((outsAt V c n hn).2.2.2.1) ∗ owns (c : Thread nD τ) accQ fullShare ((outsAt V c n hn).2.2.2.2) ∗ others (F := F) c) ∗ (∃ r, prngReg c r)) := rfl

theorem PhiS_pos (c : Dev nD) (n : ℕ) (h : n ≤ cfg0.N) (hz : n ≠ 0) :
    PhiS V c n h = iprop(iprop(owns (c : Thread nD τ) accS fullShare ((outsAt V c (n - 1) (by omega)).2.2.2.1) ∗ owns (c : Thread nD τ) accQ fullShare ((outsAt V c (n - 1) (by omega)).2.2.2.2) ∗ others (F := F) c) ∗ (∃ r, prngReg c r)) := by
  cases n with
  | zero => exact absurd rfl hz
  | succ n => rfl

/-! ## The call's proof data -/

/-- After the body at block `t` each input's buffer still holds its block, the outputs' hold `outsAt`'s
    components; between blocks the invariant is `PhiS`; nothing is owed to another core. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (outsAt V c t.val t.isLt).1
    | ⟨6, _⟩ => (outsAt V c t.val t.isLt).2.1
    | ⟨7, _⟩ => (outsAt V c t.val t.isLt).2.2.1
  Φ t := PhiS V c t.val (Nat.le_of_lt_succ t.isLt)
  q _ := fullShare
  owed _ := 0

theorem dat_A (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = (outsAt V c t.val t.isLt).1 := by dsimp only [dat]
theorem after_6 (c : Dev nD) (t : Fin cfg0.N) : (dat V c).after 6 t = (outsAt V c t.val t.isLt).2.1 := by dsimp only [dat]
theorem after_7 (c : Dev nD) (t : Fin cfg0.N) : (dat V c).after 7 t = (outsAt V c t.val t.isLt).2.2.1 := by dsimp only [dat]

theorem before_0 (c : Dev nD) (t : Fin cfg0.N) (d) : (dat V c).before 0 t d = blk V c 0 t :=
  held_0 V (dat V c) (dat_A V c 0) (after_0 V c) t d
theorem before_1 (c : Dev nD) (t : Fin cfg0.N) (d) : (dat V c).before 1 t d = blk V c 1 t :=
  held_1 V (dat V c) (dat_A V c 1) (after_1 V c) t d
theorem before_2 (c : Dev nD) (t : Fin cfg0.N) (d) : (dat V c).before 2 t d = blk V c 2 t :=
  held_2 V (dat V c) (dat_A V c 2) (after_2 V c) t d
theorem before_3 (c : Dev nD) (t : Fin cfg0.N) (d) : (dat V c).before 3 t d = blk V c 3 t :=
  held_3 V (dat V c) (dat_A V c 3) (after_3 V c) t d
theorem before_4 (c : Dev nD) (t : Fin cfg0.N) (d) : (dat V c).before 4 t d = blk V c 4 t :=
  held_4 V (dat V c) (dat_A V c 4) (after_4 V c) t d

end Cert.Kernel.Stats

end
-- ==== Proof.K.StatsBody.lean ====
import proofs.«120895_j33182917328949_1_alg».proof.Proof.Gen.Kernel.Launch
import proofs.«120895_j33182917328949_1_alg».proof.Proof.Gen.Kernel.Skeleton
import proofs.«120895_j33182917328949_1_alg».proof.Proof.Gen.Kernel.Points
import proofs.«120895_j33182917328949_1_alg».proof.Proof.K.StatsData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call: the body at every block meets the pipeline's obligation -/

variable (V : (c : Dev nD) → (b : Ref sig .tc) → Buf (Elt F) ((c : Thread nD τ).loc b))

/-- What the body is called with at block `t`, the operands one by one, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
/-- The body at any block. The inputs' buffers hold their blocks; the block's place among the ten decides which
    run applies; the invariant hands the body the two accumulators at what the block before left (at anything
    before the first block) and takes them back at this block's contents; the mean and variance rows' buffers
    pass through untouched except at the last block; the core owes nothing throughout. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 10 := lt_of_lt_of_eq t.isLt (show cfg0.N = 10 from N_0)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  rw [show (dat V c).leavesExact 3 t = owns (c : Thread nD τ) (ms_3 t) fullShare ((dat V c).after 3 t) from by
    unfold Dat.leavesExact; rw [live_3 t], after_3]
  rw [show (dat V c).leavesExact 4 t = owns (c : Thread nD τ) (ms_4 t) fullShare ((dat V c).after 4 t) from by
    unfold Dat.leavesExact; rw [live_4 t], after_4]
  rw [show (dat V c).leavesExact 5 t = owns (c : Thread nD τ) (ms_5 t) fullShare ((dat V c).after 5 t) from by
    unfold Dat.leavesExact; rw [live_5 t], after_5]
  by_cases h1 : t.val % 10 = 9
  · have h0 : ¬t.val % 10 = 0 := by omega
    have hz : t.val ≠ 0 := by omega
    rw [show (dat V c).leavesExact 6 t = owns (c : Thread nD τ) (ms_6 t) fullShare ((dat V c).after 6 t) from by
      unfold Dat.leavesExact; rw [live_6 t ((last_iff t).mpr h1)], after_6]
    rw [show (dat V c).leavesExact 7 t = owns (c : Thread nD τ) (ms_7 t) fullShare ((dat V c).after 7 t) from by
      unfold Dat.leavesExact; rw [live_7 t ((last_iff t).mpr h1)], after_7]
    rw [outsAt_last V c t h0 h1]
    unfold preLast meanLast varLast sumLast sqLast; (try dsimp only)
    rw [PhiS_castSucc V c t, PhiS_pos V c _ _ hz]
    iintro ⟨⟨⟨HS, HQ, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLast c (grid0.coords t) _ _ _ _ _ _ _ _ _ _ _ _ _ _ _ _ _ _ _ _ (fun h => h0 ((first_iff t).mp h)) ((last_iff t).mpr h1) (blk V c 0 t) (blk V c 1 t) (blk V c 2 t) (blk V c 3 t) (blk V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    isplitl [HQ]; · iexact HQ
    iintro ⟨H0, H1, H2, H3, H4, ⟨%e5, H5⟩, ⟨%e6, H6⟩, ⟨%e7, H7⟩, ⟨%es, HS⟩, ⟨%eq, HQ⟩⟩
    isplitl [HS HQ Hoth Hg]
    · isplitl [HS HQ Hoth]
      · isplitl [HS]
        · unfold owns; iexists _; isplitr
          swap; · iexact HS
          ipureintro; exact View.read_writes_of_cover _ _ _ _ _ (sumLast_cover c _ _ _ _ _ _ _ _ _ _ _ _ _ _ _ _ _ _ _ _ _ _ _ _ _ _ _ _ _ _)
        isplitl [HQ]
        · unfold owns; iexists _; isplitr
          swap; · iexact HQ
          ipureintro; exact View.read_writes_of_cover _ _ _ _ _ (sqLast_cover c _ _ _ _ _ _ _ _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (preLast_cover c _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (meanLast_cover c _ _ _ _ _ _ _ _ _ _ _ _ _ _ _ _ _ _ _ _ _ _ _ _ _ _ _ _ _ _)
    unfold owns; iexists _; isplitr
    swap; · iexact H7
    ipureintro; exact View.read_writes_of_cover _ _ _ _ _ (varLast_cover c _ _ _ _ _ _ _ _ _ _ _ _ _ _ _ _ _ _ _ _ _ _ _ _ _ _ _ _ _ _)
  · by_cases h0 : t.val % 10 = 0
    · have hz : t.val = 0 := by omega
      rw [Dat.leavesExact_idle (dat V c) 6 t (idle_6 t (fun h => h1 ((last_iff t).mp h))) (noFlush_6 t (fun h => h1 ((last_iff t).mp h)))]
      rw [Dat.leavesExact_idle (dat V c) 7 t (idle_7 t (fun h => h1 ((last_iff t).mp h))) (noFlush_7 t (fun h => h1 ((last_iff t).mp h)))]
      rw [outsAt_first V c t h0 h1]
      unfold preFirst sumFirst sqFirst; (try dsimp only)
      rw [PhiS_castSucc V c t, PhiS_zero V c _ _ hz, PhiA_eq]
      iintro ⟨⟨⟨HS, HQ, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) _ _ _ _ _ _ _ _ _ _ _ _ _ _ _ _ _ _ _ _ ((first_iff t).mpr h0) (fun h => h1 ((last_iff t).mp h)) (blk V c 0 t) (blk V c 1 t) (blk V c 2 t) (blk V c 3 t) (blk V c 4 t)).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      isplitl [HQ]; · iexact HQ
      iintro ⟨H0, H1, H2, H3, H4, ⟨%e5, H5⟩, H6, H7, ⟨%es, HS⟩, ⟨%eq, HQ⟩⟩
      isplitl [HS HQ Hoth Hg]
      · isplitl [HS HQ Hoth]
        · isplitl [HS]
          · unfold owns; iexists _; isplitr
            swap; · iexact HS
            ipureintro; exact View.read_writes_of_cover _ _ _ _ _ (sumFirst_cover c _ _ _ _ _ _ _ _ _ _ _ _ _ _ _ _ _ _ _ _ _ _ _ _ _ _ _ _)
          isplitl [HQ]
          · unfold owns; iexists _; isplitr
            swap; · iexact HQ
            ipureintro; exact View.read_writes_of_cover _ _ _ _ _ (sqFirst_cover c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (preFirst_cover c _ _ _ _ _ _ _ _ _ _ _ _ _ _ _ _ _ _ _ _ _ _ _ _ _ _ _ _)
      isplitl [H6]; · iexists _; iexact H6
      iexists _; iexact H7
    · have hz : t.val ≠ 0 := by omega
      rw [Dat.leavesExact_idle (dat V c) 6 t (idle_6 t (fun h => h1 ((last_iff t).mp h))) (noFlush_6 t (fun h => h1 ((last_iff t).mp h)))]
      rw [Dat.leavesExact_idle (dat V c) 7 t (idle_7 t (fun h => h1 ((last_iff t).mp h))) (noFlush_7 t (fun h => h1 ((last_iff t).mp h)))]
      rw [outsAt_mid V c t h0 h1]
      unfold preMid sumMid sqMid; (try dsimp only)
      rw [PhiS_castSucc V c t, PhiS_pos V c _ _ hz]
      iintro ⟨⟨⟨HS, HQ, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid0.coords t) _ _ _ _ _ _ _ _ _ _ _ _ _ _ _ _ _ _ _ _ (fun h => h0 ((first_iff t).mp h)) (fun h => h1 ((last_iff t).mp h)) (blk V c 0 t) (blk V c 1 t) (blk V c 2 t) (blk V c 3 t) (blk V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      isplitl [HQ]; · iexact HQ
      iintro ⟨H0, H1, H2, H3, H4, ⟨%e5, H5⟩, H6, H7, ⟨%es, HS⟩, ⟨%eq, HQ⟩⟩
      isplitl [HS HQ Hoth Hg]
      · isplitl [HS HQ Hoth]
        · isplitl [HS]
          · unfold owns; iexists _; isplitr
            swap; · iexact HS
            ipureintro; exact View.read_writes_of_cover _ _ _ _ _ (sumMid_cover c _ _ _ _ _ _ _ _ _ _ _ _ _ _ _ _ _ _ _ _ _ _ _ _ _ _ _ _ _ _)
          isplitl [HQ]
          · unfold owns; iexists _; isplitr
            swap; · iexact HQ
            ipureintro; exact View.read_writes_of_cover _ _ _ _ _ (sqMid_cover c _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (preMid_cover c _ _ _ _ _ _ _ _ _ _ _ _ _ _ _ _ _ _ _ _ _ _ _ _ _ _ _ _ _ _)
      isplitl [H6]; · iexists _; iexact H6
      iexists _; iexact H7

/-- The library's body obligation, at every block. -/
theorem body_obligation (c : Dev nD) : BodyObligation (dat (F := F) V c) (defs₀ (F := F)) Variants.none () Set.univ := fun t => by
  rw [bigSep_W0, bigSep_W0]
  exact body_at V c t

/-- What the launch hands the call (the class's invariant) is the invariant before the first block. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any block the invariant gives the class's back: the accumulators' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HQ, Hoth⟩, Hg⟩
  isplitl [HS HQ Hoth]
  · isplitl [HS]; · iexists _; iexact HS
    isplitl [HQ]; · iexists _; iexact HQ
    iexact Hoth
  iexact Hg

theorem hout (c : Dev nD) : (dat V c).Φ (Fin.last cfg0.N) ⊢ Pipeline.ΦA spec0 c :=
  Phi_out V c _ (by rw [Fin.val_last]; have : cfg0.N = 10 := N_0; omega)

end Cert.Kernel.Stats

end
-- ==== Proof.K.Norm.lean ====
import proofs.«120895_j33182917328949_1_alg».proof.Proof.Gen.Kernel.Launch
import proofs.«120895_j33182917328949_1_alg».proof.Proof.Gen.Kernel.Skeleton
import proofs.«120895_j33182917328949_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Norm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The normalisation kernel (the second pallas_call): batch-norm with given mean and variance, then ReLU

Everything here is stated at a parameter `V`: what the TensorCore's buffers hold when the call is entered.
The call walks ten row blocks of 5000 rows; at each it reads the block of pre-activations and the four
one-row operands (mean, variance, scale, shift) and writes the block of activations. -/

variable (V : (c : Dev nD) → (b : Ref sig .tc) → Buf (Elt F) ((c : Thread nD τ).loc b))

/-- Operand `w`'s block at grid point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's staging buffer holds its block at every point, whether the point fetched it or the block index
has not moved since it was fetched. -/
theorem held_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem held_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem held_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem held_3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem held_4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The whole-block rectangle of a 5000×128 buffer, and of a one-row buffer. -/
abbrev rBig : Rect S5000x128 := Rect.unit (s := S5000x128) ![0, 0] S5000x128.size inb_S5000x128_S5000x128_0_0
abbrev rRow : Rect S1x128 := Rect.unit (s := S1x128) ![0, 0] S1x128.size inb_S1x128_S1x128_0_0

/-- What the body leaves in the output's staging buffer: its one store, of the activations computed from the
    loaded block `x0` and the loaded rows (mean `x1`, variance `x2`, scale `x3`, shift `x4`). -/
def out (x0 : Vec F S5000x128 .f32) (x1 x2 x3 x4 : Vec F S1x128 .f32) : Vec F S5000x128 .f32 :=
  View.canon [⟨rBig, k1_pay1 (View.ld x0 rBig) (View.ld x2 rRow) (View.ld x1 rRow) (View.ld x3 rRow) (View.ld x4 rRow)⟩]

/-- The one store covers the buffer. -/
theorem out_cover (p0 : Vec F S5000x128 .f32) (y : S5000x128.Idx) :
    ∃ pc ∈ ([⟨rBig, p0⟩] : List (View.Piece (Elt F) S5000x128 .f32)), y ∈ pc.1.set :=
  View.cover_of_tiled [⟨rBig, p0⟩] S5000x128.size (by rfl) y

set_option maxHeartbeats 4000000 in
/-- The body on whole staging buffers, the inputs' at given contents and the output's at anything, runs to its
    return with the inputs' as they were and the output's at `out` of the inputs'. -/
theorem body_run (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (out_cover _)

/-! ## The call's proof data -/

/-- After the body at point `t` each input's buffer still holds its block and the output's holds `out` of the
    input blocks; between points nothing but the class's invariant (the scoped rest and the generator register)
    is kept; nothing is owed to another core. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec1 c
  q _ := fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) :
    (dat V c).after 5 t = out (blk V c 0 t) (blk V c 1 t) (blk V c 2 t) (blk V c 3 t) (blk V c 4 t) := by dsimp only [dat]

theorem before_0 (c : Dev nD) (t : Fin cfg1.N) (d) : (dat V c).before 0 t d = blk V c 0 t :=
  held_0 V (dat V c) (dat_A V c 0) (after_0 V c) t d
theorem before_1 (c : Dev nD) (t : Fin cfg1.N) (d) : (dat V c).before 1 t d = blk V c 1 t :=
  held_1 V (dat V c) (dat_A V c 1) (after_1 V c) t d
theorem before_2 (c : Dev nD) (t : Fin cfg1.N) (d) : (dat V c).before 2 t d = blk V c 2 t :=
  held_2 V (dat V c) (dat_A V c 2) (after_2 V c) t d
theorem before_3 (c : Dev nD) (t : Fin cfg1.N) (d) : (dat V c).before 3 t d = blk V c 3 t :=
  held_3 V (dat V c) (dat_A V c 3) (after_3 V c) t d
theorem before_4 (c : Dev nD) (t : Fin cfg1.N) (d) : (dat V c).before 4 t d = blk V c 4 t :=
  held_4 V (dat V c) (dat_A V c 4) (after_4 V c) t d

/-! ## The body obligation -/

/-- What the body is called with at point `t`, the operands one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their blocks, so `body_run` applies; the invariant and the
    core's dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact body_at V c t

end Cert.Kernel.Norm

end
-- ==== Proof.K.Proj.lean ====
import proofs.«120895_j33182917328949_1_alg».proof.Proof.Gen.Kernel.Launch
import proofs.«120895_j33182917328949_1_alg».proof.Proof.Gen.Kernel.Skeleton
import proofs.«120895_j33182917328949_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second linear layer (the third pallas_call): aggregated rows times one weight matrix, plus root rows
times another, plus a bias row

Stated at a parameter `V`: what the TensorCore's buffers hold when the call is entered. Ten row blocks of 5000
rows; at each the body reads the two row blocks, the two 128×128 weight matrices and the bias row, and writes
the block of results. -/

variable (V : (c : Dev nD) → (b : Ref sig .tc) → Buf (Elt F) ((c : Thread nD τ).loc b))

/-- Operand `w`'s block at grid point `t`, read off its array as the call finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input's staging buffer holds its block at every point, whether the point fetched it or the block index
has not moved since it was fetched. -/
theorem held_0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem held_1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem held_2 {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem held_3 {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem held_4 {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles of the three buffer shapes. -/
abbrev rBig : Rect S5000x128 := Rect.unit (s := S5000x128) ![0, 0] S5000x128.size inb_S5000x128_S5000x128_0_0
abbrev rRow : Rect S1x128 := Rect.unit (s := S1x128) ![0, 0] S1x128.size inb_S1x128_S1x128_0_0
abbrev rSq : Rect S128x128 := Rect.unit (s := S128x128) ![0, 0] S128x128.size inb_S128x128_S128x128_0_0

/-- What the body leaves in the output's staging buffer: its one store, of the two products and the bias, from the
    loaded row blocks `x0`, `x1`, the loaded matrices `x2`, `x3` and the loaded bias row `x4`. -/
def out (x0 x1 : Vec F S5000x128 .f32) (x2 x3 : Vec F S128x128 .f32) (x4 : Vec F S1x128 .f32) : Vec F S5000x128 .f32 :=
  View.canon [⟨rBig, k2_pay1 (View.ld x0 rBig) (View.ld x1 rBig) (View.ld x2 rSq) (View.ld x3 rSq) (View.ld x4 rRow)⟩]

/-- The one store covers the buffer. -/
theorem out_cover (p0 : Vec F S5000x128 .f32) (y : S5000x128.Idx) :
    ∃ pc ∈ ([⟨rBig, p0⟩] : List (View.Piece (Elt F) S5000x128 .f32)), y ∈ pc.1.set :=
  View.cover_of_tiled [⟨rBig, p0⟩] S5000x128.size (by rfl) y

set_option maxHeartbeats 4000000 in
/-- The body on whole staging buffers, the inputs' at given contents and the output's at anything, runs to its
    return with the inputs' as they were and the output's at `out` of the inputs'. -/
theorem body_run (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out x0 x1 x2 x3 x4)) -∗ K ⟨⟩))
      ⊢ wp frame (wpE (defs₀ (F := F)) Variants.none c none) E (cc2__linear_kernel i arg1 harg1 arg2 harg2 arg3 harg3 arg4 harg4 arg5 harg5 arg6 harg6) K := by
  simp only [cc2__linear_kernel_eq_skeleton]; unfold cc2__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (out_cover _)

/-! ## The call's proof data -/

/-- After the body at point `t` each input's buffer still holds its block and the output's holds `out` of the
    input blocks; between points nothing but the class's invariant (the scoped rest and the generator register)
    is kept; nothing is owed to another core. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec2 c
  q _ := fullShare
  owed _ := 0

theorem dat_A (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) :
    (dat V c).after 5 t = out (blk V c 0 t) (blk V c 1 t) (blk V c 2 t) (blk V c 3 t) (blk V c 4 t) := by dsimp only [dat]

theorem before_0 (c : Dev nD) (t : Fin cfg2.N) (d) : (dat V c).before 0 t d = blk V c 0 t :=
  held_0 V (dat V c) (dat_A V c 0) (after_0 V c) t d
theorem before_1 (c : Dev nD) (t : Fin cfg2.N) (d) : (dat V c).before 1 t d = blk V c 1 t :=
  held_1 V (dat V c) (dat_A V c 1) (after_1 V c) t d
theorem before_2 (c : Dev nD) (t : Fin cfg2.N) (d) : (dat V c).before 2 t d = blk V c 2 t :=
  held_2 V (dat V c) (dat_A V c 2) (after_2 V c) t d
theorem before_3 (c : Dev nD) (t : Fin cfg2.N) (d) : (dat V c).before 3 t d = blk V c 3 t :=
  held_3 V (dat V c) (dat_A V c 3) (after_3 V c) t d
theorem before_4 (c : Dev nD) (t : Fin cfg2.N) (d) : (dat V c).before 4 t d = blk V c 4 t :=
  held_4 V (dat V c) (dat_A V c 4) (after_4 V c) t d

/-! ## The body obligation -/

/-- What the body is called with at point `t`, the operands one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' buffers hold their blocks, so `body_run` applies; the invariant and the
    core's dues pass through unread. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W2, bigSep_W2]
  exact body_at V c t

end Cert.Kernel.Proj

end
-- ==== Proof.K.Whole.lean ====
import proofs.«120895_j33182917328949_1_alg».proof.Proof.Gen.Kernel.Launch
import proofs.«120895_j33182917328949_1_alg».proof.Proof.Gen.Kernel.Skeleton
import proofs.«120895_j33182917328949_1_alg».proof.Proof.Gen.Kernel.Points
import proofs.«120895_j33182917328949_1_alg».proof.Proof.Gen.Kernel.Regions
import proofs.«120895_j33182917328949_1_alg».proof.Proof.K.StatsBody
import proofs.«120895_j33182917328949_1_alg».proof.Proof.K.Norm
import proofs.«120895_j33182917328949_1_alg».proof.Proof.K.Proj
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: host operations, the three pallas_calls, host operations between and after

The buffers' contents at each of the eight boundaries are a fold from the launch memory: a stretch of host
operations applies them in order; a pallas_call replaces its arrays by what its write-backs leave. The run theorem
says every weakly fair execution ends with every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (degrees, gather, scatter-add, division, transposes). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After pallas_call 0: its arrays at what the pipeline leaves (an input as entered, an output's write-backs
    folded over the ten blocks), every other buffer as entered. -/
def W2 (c : Dev nD) : Valuation τ sig (Elt F) :=
  Pipeline.withArrays spec0 c (W1 m ρ c) fun w => (Stats.dat (V1 m ρ) c).arrAt w cfg0.N
theorem W2_arr (c : Dev nD) (w : Fin cfg0.W) :
    W2 m ρ c (Proc.devRef .tc (Pipeline.arrRef spec0 w)) = (Stats.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Stats.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the scale and shift rows reshaped). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After pallas_call 1: its arrays at what the pipeline leaves (an input as entered, an output's write-backs
    folded over the ten blocks), every other buffer as entered. -/
def W4 (c : Dev nD) : Valuation τ sig (Elt F) :=
  Pipeline.withArrays spec1 c (W3 m ρ c) fun w => (Norm.dat (V3 m ρ) c).arrAt w cfg1.N
theorem W4_arr (c : Dev nD) (w : Fin cfg1.W) :
    W4 m ρ c (Proc.devRef .tc (Pipeline.arrRef spec1 w)) = (Norm.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Norm.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (the second aggregation, the padded weights). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After pallas_call 2: its arrays at what the pipeline leaves (an input as entered, an output's write-backs
    folded over the ten blocks), every other buffer as entered. -/
def W6 (c : Dev nD) : Valuation τ sig (Elt F) :=
  Pipeline.withArrays spec2 c (W5 m ρ c) fun w => (Proj.dat (V5 m ρ) c).arrAt w cfg2.N
theorem W6_arr (c : Dev nD) (w : Fin cfg2.W) :
    W6 m ρ c (Proc.devRef .tc (Pipeline.arrRef spec2 w)) = (Proj.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (Proj.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last stretch (the slice of the first 47 columns): the end. -/
abbrev W7 : Dev nD → Valuation τ sig (Elt F) := fun c => StableHlo.after hostOps3 (W6 m ρ c)

/-! ## The proof data family and what rides beside the buffers -/

abbrev adm : (p : Fin 3) → (pcfgs (F := F) p).Adm := fun p => (cfgs p).toPCfg_adm
/-- Every pallas_call's proof data, each at the contents its call is entered with. -/
def pdats : (p : Fin 3) → (c : Dev nD) → Dat τ (Elt F) Unit ℕ (UR sig nD τ) ℕ (Pipeline.pin (pcfgs (F := F)) adm p) c
  | ⟨0, _⟩ => fun c => Stats.dat (V1 m ρ) c
  | ⟨1, _⟩ => fun c => Norm.dat (V3 m ρ) c
  | ⟨2, _⟩ => fun c => Proj.dat (V5 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 m ρ c) ∗ ∃ r, prngReg c r)

/-! ## The pallas_calls as segments -/

set_option backward.isDefEq.respectTransparency.types false in
/-- The pallas_call number 0 as a segment: entered with every unscoped buffer at the contents before it, left with
    them at the contents after it. Its arrays are split out of the unscoped buffers and put back at what the
    write-backs leave; the generator register goes into the call's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stats.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (Stats.hout (V1 m ρ) c).trans (show (Pipeline.ΦA spec0 c : sProp 𝕄) ⊢ iprop((∃ r, prngReg c r) ∗ BI.emp ∗ Pipeline.scopedRest spec0 c) from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 1 as a segment: entered with every unscoped buffer at the contents before it, left with
    them at the contents after it. Its arrays are split out of the unscoped buffers and put back at what the
    write-backs leave; the generator register goes into the call's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Norm.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 2 as a segment: entered with every unscoped buffer at the contents before it, left with
    them at the contents after it. Its arrays are split out of the unscoped buffers and put back at what the
    write-backs leave; the generator register goes into the call's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Proj.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

set_option backward.isDefEq.respectTransparency.types false in
/-- THE RUN. From any memory with zero counters every weakly fair execution of the program on the TensorCores
    terminates, nothing faulting, and every final memory holds every unscoped buffer at the last boundary's
    contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_dev (pcfgs (F := F)) adm (pdats m ρ) () cellOf_inj emb₁ defs₀ 𝒱₀ L lv m ρ main (fun _ => segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := fun c => ⟨.rfl, .rfl, .rfl, .rfl, .rfl, .rfl, .rfl,
      (show (iprop(StableHlo.held (c : Thread nD τ) (Pipeline.ucRefs τ sig) (W7 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-! ## The arguments end as launched

No host operation and no pallas_call writes an argument (the node features are read by the first call through
an input window): the fold at an argument's buffer walks back to the launch memory. -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 1).trans (((Stats.dat (V1 m ρ) c).arrAt_in 1 rfl _).trans (Stats.dat_A (V1 m ρ) c 1))
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c)⟩) (run_all m ρ)

end Cert.Kernel.Whole

end
-- ==== Proof.KI.StatsKit.lean ====
import proofs.«120895_j33182917328949_1_alg».proof.Proof.Gen.KernelIdeal.Launch
import proofs.«120895_j33182917328949_1_alg».proof.Proof.Gen.KernelIdeal.Skeleton
import proofs.«120895_j33182917328949_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first linear layer with running statistics (the first pallas_call)

Ten row blocks of 5000 rows, walked in order. At each block the body writes the block of pre-activations
(aggregated rows times one matrix, root rows times another, plus the bias row) and adds the block's column sums
and column sums of squares to two one-row accumulators it keeps in scratch memory between blocks; it clears the
accumulators at the first block and, at the last, divides them by the row count and writes the mean and the
mean of squares minus the squared mean. Stated at a parameter `V`: the buffers' contents when the call is entered. -/

variable (V : (c : Dev nD) → (b : Ref sig .tc) → Buf (Elt F) ((c : Thread nD τ).loc b))

/-- Operand `w`'s block at grid point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's staging buffer holds its block at every point, whether the point fetched it or the block index
has not moved since it was fetched. -/
theorem held_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem held_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem held_2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem held_3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem held_4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The body's two branches, decided over the ten points -/

/-- "This is the first block": the body's test of the grid coordinate against zero, as it computes it. -/
abbrev first (i : grid0.Coords) : Prop := (Scalar.cmpi .ne (Scalar.extui (Scalar.cmpi .eq (BitVec.ofNat 32 (i 0).val) 0#32)) 0#32) = 1#1
theorem first_iff : ∀ t : Fin cfg0.N, first (grid0.coords t) ↔ t.val % 10 = 0 :=
  (by decide +kernel : ∀ t : Fin grid0.N, first (grid0.coords t) ↔ t.val % 10 = 0)

/-- "This is the last block": the body's test of the grid coordinate against nine. -/
abbrev last (i : grid0.Coords) : Prop := k0_cond2 i = 1#1
theorem last_iff : ∀ t : Fin cfg0.N, last (grid0.coords t) ↔ t.val % 10 = 9 :=
  (by decide +kernel : ∀ t : Fin grid0.N, last (grid0.coords t) ↔ t.val % 10 = 9)

/-! Where the operands are idle: the inputs and the pre-activation block never; the mean and variance rows at every
point but the last, where alone the body stores into them and the pipeline writes them back. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem idle_6 : ∀ t : Fin cfg0.N, ¬last (grid0.coords t) → cfg0.idle 6 (grid0.coords t) = true := by decide +kernel
theorem idle_7 : ∀ t : Fin cfg0.N, ¬last (grid0.coords t) → cfg0.idle 7 (grid0.coords t) = true := by decide +kernel
theorem noFlush_6 : ∀ t : Fin cfg0.N, ¬last (grid0.coords t) → (cfg0.win 6).flush t = false := by decide +kernel
theorem noFlush_7 : ∀ t : Fin cfg0.N, ¬last (grid0.coords t) → (cfg0.win 7).flush t = false := by decide +kernel
theorem live_6 : ∀ t : Fin cfg0.N, last (grid0.coords t) → cfg0.idle 6 (grid0.coords t) = false := by decide +kernel
theorem live_7 : ∀ t : Fin cfg0.N, last (grid0.coords t) → cfg0.idle 7 (grid0.coords t) = false := by decide +kernel

/-! ## The buffers the body is run on -/

/-- One staging buffer of each output, through which its contents are stated. -/
abbrev VO5 : View sig .tc .vmem S5000x128 .f32 := (Memref.whole cc0_stg5_0 : Memref sig .tc .vmem S5000x128 .f32).view
abbrev VO6 : View sig .tc .vmem S1x128 .f32 := (Memref.whole cc0_stg6_0 : Memref sig .tc .vmem S1x128 .f32).view
abbrev VO7 : View sig .tc .vmem S1x128 .f32 := (Memref.whole cc0_stg7_0 : Memref sig .tc .vmem S1x128 .f32).view
/-- The two accumulators: whole scratch buffers of the kernel's own. -/
abbrev accS : Memref sig .tc .vmem S1x128 .f32 := Memref.whole cc0_scratch0
abbrev accQ : Memref sig .tc .vmem S1x128 .f32 := Memref.whole cc0_scratch1
abbrev VS : View sig .tc .vmem S1x128 .f32 := accS.view
abbrev VQ : View sig .tc .vmem S1x128 .f32 := accQ.view

/-- The other pallas_calls' staging buffers, each whole at some contents: this call never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- The class's invariant with the two accumulators as buffers owned at some contents. -/
theorem PhiA_eq (c : Dev nD) :
    (Pipeline.ΦA spec0 c : sProp 𝕄)
      = iprop(iprop((∃ d, owns (c : Thread nD τ) accS fullShare d) ∗ (∃ d, owns (c : Thread nD τ) accQ fullShare d) ∗ others (F := F) c) ∗ (∃ r, prngReg c r)) := by
  unfold Pipeline.ΦA others; rw [scopedRest0_eq]; simp only [accS, accQ, owns_whole]; try rfl

end Cert.KernelIdeal.Stats

end
-- ==== Proof.KI.StatsFirst.lean ====
import proofs.«120895_j33182917328949_1_alg».proof.Proof.Gen.KernelIdeal.Launch
import proofs.«120895_j33182917328949_1_alg».proof.Proof.Gen.KernelIdeal.Skeleton
import proofs.«120895_j33182917328949_1_alg».proof.Proof.Gen.KernelIdeal.Points
import proofs.«120895_j33182917328949_1_alg».proof.Proof.KI.StatsKit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- THE FIRST BLOCK. What the body's stores leave, as lists of pieces (last first) — in the pre-activation
    block's buffer, in the sum accumulator and in the sum-of-squares accumulator — WITH the proof that, on whole
    buffers (the five inputs at their contents, the mean and variance rows at contents handed back untouched, the
    rest at anything), the body runs to its return leaving exactly those pieces written. The pieces are found by
    running the body symbolically. -/
noncomputable def runFirst (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) :
    Σ' (L5 : List (View.Piece (Elt F) S5000x128 .f32)) (LS : List (View.Piece (Elt F) S1x128 .f32)), { LQ : List (View.Piece (Elt F) S1x128 .f32) //
      ∀ (xi6 xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS) ∗ (∃ f, arg10.view.loc (c : Thread nD τ) ↦[arg10.view.set]{fullShare} arg10.view.writes (Elt F) f LQ)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__linear_stats_kernel_eq_skeleton]; unfold cc0__linear_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS⟩, ⟨%ds1, %fs1, -, HQ⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS]; · iexists _; iexact HS
    iexists _; iexact HQ

end Cert.KernelIdeal.Stats

end
-- ==== Proof.KI.StatsMid.lean ====
import proofs.«120895_j33182917328949_1_alg».proof.Proof.Gen.KernelIdeal.Launch
import proofs.«120895_j33182917328949_1_alg».proof.Proof.Gen.KernelIdeal.Skeleton
import proofs.«120895_j33182917328949_1_alg».proof.Proof.Gen.KernelIdeal.Points
import proofs.«120895_j33182917328949_1_alg».proof.Proof.KI.StatsKit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A MIDDLE BLOCK. As for the first block, but neither branch is taken: the accumulators come in at the contents
    `xs`, `xq` the block before left in them. -/
noncomputable def runMid (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) :
    Σ' (L5 : List (View.Piece (Elt F) S5000x128 .f32)) (LS : List (View.Piece (Elt F) S1x128 .f32)), { LQ : List (View.Piece (Elt F) S1x128 .f32) //
      ∀ (xi6 xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs ∗ owns (c : Thread nD τ) arg10 fullShare xq
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS) ∗ (∃ f, arg10.view.loc (c : Thread nD τ) ↦[arg10.view.set]{fullShare} arg10.view.writes (Elt F) f LQ)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__linear_stats_kernel_eq_skeleton]; unfold cc0__linear_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS⟩, ⟨%fs1, %hfs1, HQ⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS]; · iexists _; iexact HS
    iexists _; iexact HQ

end Cert.KernelIdeal.Stats

end
-- ==== Proof.KI.StatsLast.lean ====
import proofs.«120895_j33182917328949_1_alg».proof.Proof.Gen.KernelIdeal.Launch
import proofs.«120895_j33182917328949_1_alg».proof.Proof.Gen.KernelIdeal.Skeleton
import proofs.«120895_j33182917328949_1_alg».proof.Proof.Gen.KernelIdeal.Points
import proofs.«120895_j33182917328949_1_alg».proof.Proof.KI.StatsKit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- THE LAST BLOCK. As for a middle block, and the closing branch is taken: the mean and variance rows' buffers,
    at anything on entry, end with the pieces `L6`, `L7` written. -/
noncomputable def runLast (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) :
    Σ' (L5 : List (View.Piece (Elt F) S5000x128 .f32)) (L6 : List (View.Piece (Elt F) S1x128 .f32)) (L7 : List (View.Piece (Elt F) S1x128 .f32)) (LS : List (View.Piece (Elt F) S1x128 .f32)), { LQ : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs ∗ owns (c : Thread nD τ) arg10 fullShare xq
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS) ∗ (∃ f, arg10.view.loc (c : Thread nD τ) ↦[arg10.view.set]{fullShare} arg10.view.writes (Elt F) f LQ)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__linear_stats_kernel_eq_skeleton]; unfold cc0__linear_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS⟩, ⟨%fs1, %hfs1, HQ⟩, Hk⟩
    obtain rfl := harg1.eq_unread hf0; obtain rfl := harg2.eq_unread hf1; obtain rfl := harg3.eq_unread hf2; obtain rfl := harg4.eq_unread hf3; obtain rfl := harg5.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS]; · iexists _; iexact HS
    iexists _; iexact HQ

end Cert.KernelIdeal.Stats

end
-- ==== Proof.KI.StatsData.lean ====
import proofs.«120895_j33182917328949_1_alg».proof.Proof.Gen.KernelIdeal.Launch
import proofs.«120895_j33182917328949_1_alg».proof.Proof.Gen.KernelIdeal.Skeleton
import proofs.«120895_j33182917328949_1_alg».proof.Proof.Gen.KernelIdeal.Points
import proofs.«120895_j33182917328949_1_alg».proof.Proof.KI.StatsFirst
import proofs.«120895_j33182917328949_1_alg».proof.Proof.KI.StatsMid
import proofs.«120895_j33182917328949_1_alg».proof.Proof.KI.StatsLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call, block after block: what its buffers hold after each of the ten blocks -/

variable (V : (c : Dev nD) → (b : Ref sig .tc) → Buf (Elt F) ((c : Thread nD τ).loc b))

/-! ## What each kind of block leaves -/

/-- What the first block leaves in the pre-activation block's buffer: its pieces read back. -/
def preFirst (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) : Vec F S5000x128 .f32 :=
  VO5.read (Elt F) (VO5.writes (Elt F) VO5.junk (runFirst c i arg1 harg1 arg2 harg2 arg3 harg3 arg4 harg4 arg5 harg5 arg6 harg6 arg7 harg7 arg8 harg8 arg9 harg9 arg10 harg10 hc0 hc1 x0 x1 x2 x3 x4).1)
theorem preFirst_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) (y : S5000x128.Idx) :
    ∃ pc ∈ (runFirst c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL _ S5000x128.size (by sl_kernel_rfl) y

/-- What the first block leaves in the sum accumulator. -/
def sumFirst (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) : Vec F S1x128 .f32 :=
  VS.read (Elt F) (VS.writes (Elt F) VS.junk (runFirst c i arg1 harg1 arg2 harg2 arg3 harg3 arg4 harg4 arg5 harg5 arg6 harg6 arg7 harg7 arg8 harg8 arg9 harg9 arg10 harg10 hc0 hc1 x0 x1 x2 x3 x4).2.1)
theorem sumFirst_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) (y : S1x128.Idx) :
    ∃ pc ∈ (runFirst c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL _ S1x128.size (by sl_kernel_rfl) y

/-- What the first block leaves in the sum-of-squares accumulator. -/
def sqFirst (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) : Vec F S1x128 .f32 :=
  VQ.read (Elt F) (VQ.writes (Elt F) VQ.junk (runFirst c i arg1 harg1 arg2 harg2 arg3 harg3 arg4 harg4 arg5 harg5 arg6 harg6 arg7 harg7 arg8 harg8 arg9 harg9 arg10 harg10 hc0 hc1 x0 x1 x2 x3 x4).2.2.1)
theorem sqFirst_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) (y : S1x128.Idx) :
    ∃ pc ∈ (runFirst c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL _ S1x128.size (by sl_kernel_rfl) y

/-- What a middle block leaves in the pre-activation block's buffer. -/
def preMid (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) : Vec F S5000x128 .f32 :=
  VO5.read (Elt F) (VO5.writes (Elt F) VO5.junk (runMid c i arg1 harg1 arg2 harg2 arg3 harg3 arg4 harg4 arg5 harg5 arg6 harg6 arg7 harg7 arg8 harg8 arg9 harg9 arg10 harg10 hc0 hc1 x0 x1 x2 x3 x4 xs xq).1)
theorem preMid_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) (y : S5000x128.Idx) :
    ∃ pc ∈ (runMid c i arg1 harg1 arg2 harg2 arg3 harg3 arg4 harg4 arg5 harg5 arg6 harg6 arg7 harg7 arg8 harg8 arg9 harg9 arg10 harg10 hc0 hc1 x0 x1 x2 x3 x4 xs xq).1, y ∈ pc.1.set :=
  View.cover_of_tiledL _ S5000x128.size (by sl_kernel_rfl) y

/-- What a middle block leaves in the sum accumulator, from what the block before left (`xs`). -/
def sumMid (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) : Vec F S1x128 .f32 :=
  VS.read (Elt F) (VS.writes (Elt F) VS.junk (runMid c i arg1 harg1 arg2 harg2 arg3 harg3 arg4 harg4 arg5 harg5 arg6 harg6 arg7 harg7 arg8 harg8 arg9 harg9 arg10 harg10 hc0 hc1 x0 x1 x2 x3 x4 xs xq).2.1)
theorem sumMid_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) (y : S1x128.Idx) :
    ∃ pc ∈ (runMid c i arg1 harg1 arg2 harg2 arg3 harg3 arg4 harg4 arg5 harg5 arg6 harg6 arg7 harg7 arg8 harg8 arg9 harg9 arg10 harg10 hc0 hc1 x0 x1 x2 x3 x4 xs xq).2.1, y ∈ pc.1.set :=
  View.cover_of_tiledL _ S1x128.size (by sl_kernel_rfl) y

/-- What a middle block leaves in the sum-of-squares accumulator, from what the block before left (`xq`). -/
def sqMid (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) : Vec F S1x128 .f32 :=
  VQ.read (Elt F) (VQ.writes (Elt F) VQ.junk (runMid c i arg1 harg1 arg2 harg2 arg3 harg3 arg4 harg4 arg5 harg5 arg6 harg6 arg7 harg7 arg8 harg8 arg9 harg9 arg10 harg10 hc0 hc1 x0 x1 x2 x3 x4 xs xq).2.2.1)
theorem sqMid_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) (y : S1x128.Idx) :
    ∃ pc ∈ (runMid c i arg1 harg1 arg2 harg2 arg3 harg3 arg4 harg4 arg5 harg5 arg6 harg6 arg7 harg7 arg8 harg8 arg9 harg9 arg10 harg10 hc0 hc1 x0 x1 x2 x3 x4 xs xq).2.2.1, y ∈ pc.1.set :=
  View.cover_of_tiledL _ S1x128.size (by sl_kernel_rfl) y

/-- What the last block leaves in the pre-activation block's buffer. -/
def preLast (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) : Vec F S5000x128 .f32 :=
  VO5.read (Elt F) (VO5.writes (Elt F) VO5.junk (runLast c i arg1 harg1 arg2 harg2 arg3 harg3 arg4 harg4 arg5 harg5 arg6 harg6 arg7 harg7 arg8 harg8 arg9 harg9 arg10 harg10 hc0 hc1 x0 x1 x2 x3 x4 xs xq).1)
theorem preLast_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) (y : S5000x128.Idx) :
    ∃ pc ∈ (runLast c i arg1 harg1 arg2 harg2 arg3 harg3 arg4 harg4 arg5 harg5 arg6 harg6 arg7 harg7 arg8 harg8 arg9 harg9 arg10 harg10 hc0 hc1 x0 x1 x2 x3 x4 xs xq).1, y ∈ pc.1.set :=
  View.cover_of_tiledL _ S5000x128.size (by sl_kernel_rfl) y

/-- What the last block leaves in the mean row's buffer. -/
def meanLast (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) : Vec F S1x128 .f32 :=
  VO6.read (Elt F) (VO6.writes (Elt F) VO6.junk (runLast c i arg1 harg1 arg2 harg2 arg3 harg3 arg4 harg4 arg5 harg5 arg6 harg6 arg7 harg7 arg8 harg8 arg9 harg9 arg10 harg10 hc0 hc1 x0 x1 x2 x3 x4 xs xq).2.1)
theorem meanLast_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) (y : S1x128.Idx) :
    ∃ pc ∈ (runLast c i arg1 harg1 arg2 harg2 arg3 harg3 arg4 harg4 arg5 harg5 arg6 harg6 arg7 harg7 arg8 harg8 arg9 harg9 arg10 harg10 hc0 hc1 x0 x1 x2 x3 x4 xs xq).2.1, y ∈ pc.1.set :=
  View.cover_of_tiledL _ S1x128.size (by sl_kernel_rfl) y

/-- What the last block leaves in the variance row's buffer. -/
def varLast (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) : Vec F S1x128 .f32 :=
  VO7.read (Elt F) (VO7.writes (Elt F) VO7.junk (runLast c i arg1 harg1 arg2 harg2 arg3 harg3 arg4 harg4 arg5 harg5 arg6 harg6 arg7 harg7 arg8 harg8 arg9 harg9 arg10 harg10 hc0 hc1 x0 x1 x2 x3 x4 xs xq).2.2.1)
theorem varLast_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) (y : S1x128.Idx) :
    ∃ pc ∈ (runLast c i arg1 harg1 arg2 harg2 arg3 harg3 arg4 harg4 arg5 harg5 arg6 harg6 arg7 harg7 arg8 harg8 arg9 harg9 arg10 harg10 hc0 hc1 x0 x1 x2 x3 x4 xs xq).2.2.1, y ∈ pc.1.set :=
  View.cover_of_tiledL _ S1x128.size (by sl_kernel_rfl) y

/-- What the last block leaves in the sum accumulator. -/
def sumLast (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) : Vec F S1x128 .f32 :=
  VS.read (Elt F) (VS.writes (Elt F) VS.junk (runLast c i arg1 harg1 arg2 harg2 arg3 harg3 arg4 harg4 arg5 harg5 arg6 harg6 arg7 harg7 arg8 harg8 arg9 harg9 arg10 harg10 hc0 hc1 x0 x1 x2 x3 x4 xs xq).2.2.2.1)
theorem sumLast_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) (y : S1x128.Idx) :
    ∃ pc ∈ (runLast c i arg1 harg1 arg2 harg2 arg3 harg3 arg4 harg4 arg5 harg5 arg6 harg6 arg7 harg7 arg8 harg8 arg9 harg9 arg10 harg10 hc0 hc1 x0 x1 x2 x3 x4 xs xq).2.2.2.1, y ∈ pc.1.set :=
  View.cover_of_tiledL _ S1x128.size (by sl_kernel_rfl) y

/-- What the last block leaves in the sum-of-squares accumulator. -/
def sqLast (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) : Vec F S1x128 .f32 :=
  VQ.read (Elt F) (VQ.writes (Elt F) VQ.junk (runLast c i arg1 harg1 arg2 harg2 arg3 harg3 arg4 harg4 arg5 harg5 arg6 harg6 arg7 harg7 arg8 harg8 arg9 harg9 arg10 harg10 hc0 hc1 x0 x1 x2 x3 x4 xs xq).2.2.2.2.1)
theorem sqLast_cover (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) (y : S1x128.Idx) :
    ∃ pc ∈ (runLast c i arg1 harg1 arg2 harg2 arg3 harg3 arg4 harg4 arg5 harg5 arg6 harg6 arg7 harg7 arg8 harg8 arg9 harg9 arg10 harg10 hc0 hc1 x0 x1 x2 x3 x4 xs xq).2.2.2.2.1, y ∈ pc.1.set :=
  View.cover_of_tiledL _ S1x128.size (by sl_kernel_rfl) y

/-- The contents stated for the mean and variance rows' buffers at the blocks that do not touch them: nothing
    consults it (the buffers are neither written back there nor read at the next block). -/
def idleRow : Vec F S1x128 .f32 := VO6.read (Elt F) VO6.junk

/-! ## The buffers the pipeline passes the body at point `t` -/
abbrev ms_0 (t : Fin cfg0.N) : Memref sig .tc .vmem S5000x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S5000x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S5000x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x128 .f32 := win0_7.stage (cfg0.slots t 7)
abbrev hs_7 (t : Fin cfg0.N) : (ms_7 t).IsWhole := hstage0_7 ((cfg0.slots t 7).cast nbuf0_7)

/-! ## The accumulation -/

/-- What the three outputs' buffers and the two accumulators hold after the body at block `n` (pre-activations,
    mean row, variance row, running sum, running sum of squares): the first block from scratch, every later one
    from the accumulators as the block before left them; the last also writes the mean and variance rows. -/
def outsAt (c : Dev nD) : (n : ℕ) → n < cfg0.N → Vec F S5000x128 .f32 × Vec F S1x128 .f32 × Vec F S1x128 .f32 × Vec F S1x128 .f32 × Vec F S1x128 .f32
  | 0, hn => (preFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) accS (Memref.isWhole_whole _) accQ (Memref.isWhole_whole _) ((first_iff ⟨0, hn⟩).mpr (Nat.zero_mod _)) (fun h => by have h' := (last_iff ⟨0, hn⟩).mp h; dsimp only at h'; omega) (blk V c 0 ⟨0, hn⟩) (blk V c 1 ⟨0, hn⟩) (blk V c 2 ⟨0, hn⟩) (blk V c 3 ⟨0, hn⟩) (blk V c 4 ⟨0, hn⟩), idleRow, idleRow, sumFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) accS (Memref.isWhole_whole _) accQ (Memref.isWhole_whole _) ((first_iff ⟨0, hn⟩).mpr (Nat.zero_mod _)) (fun h => by have h' := (last_iff ⟨0, hn⟩).mp h; dsimp only at h'; omega) (blk V c 0 ⟨0, hn⟩) (blk V c 1 ⟨0, hn⟩) (blk V c 2 ⟨0, hn⟩) (blk V c 3 ⟨0, hn⟩) (blk V c 4 ⟨0, hn⟩), sqFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) accS (Memref.isWhole_whole _) accQ (Memref.isWhole_whole _) ((first_iff ⟨0, hn⟩).mpr (Nat.zero_mod _)) (fun h => by have h' := (last_iff ⟨0, hn⟩).mp h; dsimp only at h'; omega) (blk V c 0 ⟨0, hn⟩) (blk V c 1 ⟨0, hn⟩) (blk V c 2 ⟨0, hn⟩) (blk V c 3 ⟨0, hn⟩) (blk V c 4 ⟨0, hn⟩))
  | n + 1, hn =>
    if h1 : (n + 1) % 10 = 9 then
      (preLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) ((last_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2, meanLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) ((last_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2, varLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) ((last_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2, sumLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) ((last_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2, sqLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) ((last_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2)
    else
      (preMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) (fun h => h1 ((last_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2, idleRow, idleRow, sumMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) (fun h => h1 ((last_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2, sqMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accS (Memref.isWhole_whole _) accQ (Memref.isWhole_whole _) (fun h => by have h' := (first_iff ⟨n + 1, hn⟩).mp h; have hN : n + 1 < 10 := lt_of_lt_of_eq hn (show cfg0.N = 10 from N_0); dsimp only at h'; omega) (fun h => h1 ((last_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (outsAt c n (Nat.lt_of_succ_lt hn)).2.2.2.1 (outsAt c n (Nat.lt_of_succ_lt hn)).2.2.2.2)

theorem outsAt_first (c : Dev nD) (t : Fin cfg0.N) (h0 : t.val % 10 = 0) (h1 : ¬t.val % 10 = 9) :
    outsAt V c t.val t.isLt = (preFirst c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) ((first_iff t).mpr h0) (fun h => h1 ((last_iff t).mp h)) (blk V c 0 t) (blk V c 1 t) (blk V c 2 t) (blk V c 3 t) (blk V c 4 t), idleRow, idleRow, sumFirst c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) ((first_iff t).mpr h0) (fun h => h1 ((last_iff t).mp h)) (blk V c 0 t) (blk V c 1 t) (blk V c 2 t) (blk V c 3 t) (blk V c 4 t), sqFirst c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) ((first_iff t).mpr h0) (fun h => h1 ((last_iff t).mp h)) (blk V c 0 t) (blk V c 1 t) (blk V c 2 t) (blk V c 3 t) (blk V c 4 t)) := by
  obtain ⟨n, hn⟩ := t
  cases n with
  | zero => exact rfl
  | succ n => exact (by exfalso; have hN : n + 1 < 10 := lt_of_lt_of_eq hn (show cfg0.N = 10 from N_0); dsimp only at h0; omega)

theorem outsAt_mid (c : Dev nD) (t : Fin cfg0.N) (h0 : ¬t.val % 10 = 0) (h1 : ¬t.val % 10 = 9) :
    outsAt V c t.val t.isLt = (preMid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) (fun h => h1 ((last_iff t).mp h)) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, idleRow, idleRow, sumMid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) (fun h => h1 ((last_iff t).mp h)) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, sqMid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) (fun h => h1 ((last_iff t).mp h)) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2) := by
  obtain ⟨n, hn⟩ := t
  cases n with
  | zero => exact (by exfalso; exact absurd (Nat.zero_mod _) h0)
  | succ n => exact (dif_neg h1).trans rfl

theorem outsAt_last (c : Dev nD) (t : Fin cfg0.N) (h0 : ¬t.val % 10 = 0) (h1 : t.val % 10 = 9) :
    outsAt V c t.val t.isLt = (preLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) ((last_iff t).mpr h1) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, meanLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) ((last_iff t).mpr h1) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, varLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) ((last_iff t).mpr h1) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, sumLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) ((last_iff t).mpr h1) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, sqLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accS (Memref.isWhole_whole _) accQ (Memref.isWhole_whole _) (fun h => h0 ((first_iff t).mp h)) ((last_iff t).mpr h1) (blk V c 0 t) (blk V c 1 t) (blk V c 2 t) (blk V c 3 t) (blk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2) := by
  obtain ⟨n, hn⟩ := t
  cases n with
  | zero => exact (by exfalso; exact absurd (Nat.zero_mod _) h0)
  | succ n => exact (dif_pos h1).trans rfl

/-- The invariant before block `n`: before the first, the class's (every scratch buffer at anything); afterwards
    the two accumulators at what the block before left in them, the other calls' buffers at anything, the
    generator register at some state. -/
def PhiS (c : Dev nD) : (n : ℕ) → n ≤ cfg0.N → sProp 𝕄
  | 0, _ => Pipeline.ΦA spec0 c
  | n + 1, hn => iprop(iprop(owns (c : Thread nD τ) accS fullShare ((outsAt V c n hn).2.2.2.1) ∗ owns (c : Thread nD τ) accQ fullShare ((outsAt V c n hn).2.2.2.2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accS fullShare ((outsAt V c n hn).2.2.2.1) ∗ owns (c : Thread nD τ) accQ fullShare ((outsAt V c n hn).2.2.2.2) ∗ others (F := F) c) ∗ (∃ r, prngReg c r)) := rfl

theorem PhiS_pos (c : Dev nD) (n : ℕ) (h : n ≤ cfg0.N) (hz : n ≠ 0) :
    PhiS V c n h = iprop(iprop(owns (c : Thread nD τ) accS fullShare ((outsAt V c (n - 1) (by omega)).2.2.2.1) ∗ owns (c : Thread nD τ) accQ fullShare ((outsAt V c (n - 1) (by omega)).2.2.2.2) ∗ others (F := F) c) ∗ (∃ r, prngReg c r)) := by
  cases n with
  | zero => exact absurd rfl hz
  | succ n => rfl

/-! ## The call's proof data -/

/-- After the body at block `t` each input's buffer still holds its block, the outputs' hold `outsAt`'s
    components; between blocks the invariant is `PhiS`; nothing is owed to another core. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (outsAt V c t.val t.isLt).1
    | ⟨6, _⟩ => (outsAt V c t.val t.isLt).2.1
    | ⟨7, _⟩ => (outsAt V c t.val t.isLt).2.2.1
  Φ t := PhiS V c t.val (Nat.le_of_lt_succ t.isLt)
  q _ := fullShare
  owed _ := 0

theorem dat_A (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = (outsAt V c t.val t.isLt).1 := by dsimp only [dat]
theorem after_6 (c : Dev nD) (t : Fin cfg0.N) : (dat V c).after 6 t = (outsAt V c t.val t.isLt).2.1 := by dsimp only [dat]
theorem after_7 (c : Dev nD) (t : Fin cfg0.N) : (dat V c).after 7 t = (outsAt V c t.val t.isLt).2.2.1 := by dsimp only [dat]

theorem before_0 (c : Dev nD) (t : Fin cfg0.N) (d) : (dat V c).before 0 t d = blk V c 0 t :=
  held_0 V (dat V c) (dat_A V c 0) (after_0 V c) t d
theorem before_1 (c : Dev nD) (t : Fin cfg0.N) (d) : (dat V c).before 1 t d = blk V c 1 t :=
  held_1 V (dat V c) (dat_A V c 1) (after_1 V c) t d
theorem before_2 (c : Dev nD) (t : Fin cfg0.N) (d) : (dat V c).before 2 t d = blk V c 2 t :=
  held_2 V (dat V c) (dat_A V c 2) (after_2 V c) t d
theorem before_3 (c : Dev nD) (t : Fin cfg0.N) (d) : (dat V c).before 3 t d = blk V c 3 t :=
  held_3 V (dat V c) (dat_A V c 3) (after_3 V c) t d
theorem before_4 (c : Dev nD) (t : Fin cfg0.N) (d) : (dat V c).before 4 t d = blk V c 4 t :=
  held_4 V (dat V c) (dat_A V c 4) (after_4 V c) t d

end Cert.KernelIdeal.Stats

end
-- ==== Proof.KI.StatsBody.lean ====
import proofs.«120895_j33182917328949_1_alg».proof.Proof.Gen.KernelIdeal.Launch
import proofs.«120895_j33182917328949_1_alg».proof.Proof.Gen.KernelIdeal.Skeleton
import proofs.«120895_j33182917328949_1_alg».proof.Proof.Gen.KernelIdeal.Points
import proofs.«120895_j33182917328949_1_alg».proof.Proof.KI.StatsData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call: the body at every block meets the pipeline's obligation -/

variable (V : (c : Dev nD) → (b : Ref sig .tc) → Buf (Elt F) ((c : Thread nD τ).loc b))

/-- What the body is called with at block `t`, the operands one by one, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
/-- The body at any block. The inputs' buffers hold their blocks; the block's place among the ten decides which
    run applies; the invariant hands the body the two accumulators at what the block before left (at anything
    before the first block) and takes them back at this block's contents; the mean and variance rows' buffers
    pass through untouched except at the last block; the core owes nothing throughout. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 10 := lt_of_lt_of_eq t.isLt (show cfg0.N = 10 from N_0)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  rw [show (dat V c).leavesExact 3 t = owns (c : Thread nD τ) (ms_3 t) fullShare ((dat V c).after 3 t) from by
    unfold Dat.leavesExact; rw [live_3 t], after_3]
  rw [show (dat V c).leavesExact 4 t = owns (c : Thread nD τ) (ms_4 t) fullShare ((dat V c).after 4 t) from by
    unfold Dat.leavesExact; rw [live_4 t], after_4]
  rw [show (dat V c).leavesExact 5 t = owns (c : Thread nD τ) (ms_5 t) fullShare ((dat V c).after 5 t) from by
    unfold Dat.leavesExact; rw [live_5 t], after_5]
  by_cases h1 : t.val % 10 = 9
  · have h0 : ¬t.val % 10 = 0 := by omega
    have hz : t.val ≠ 0 := by omega
    rw [show (dat V c).leavesExact 6 t = owns (c : Thread nD τ) (ms_6 t) fullShare ((dat V c).after 6 t) from by
      unfold Dat.leavesExact; rw [live_6 t ((last_iff t).mpr h1)], after_6]
    rw [show (dat V c).leavesExact 7 t = owns (c : Thread nD τ) (ms_7 t) fullShare ((dat V c).after 7 t) from by
      unfold Dat.leavesExact; rw [live_7 t ((last_iff t).mpr h1)], after_7]
    rw [outsAt_last V c t h0 h1]
    unfold preLast meanLast varLast sumLast sqLast; (try dsimp only)
    rw [PhiS_castSucc V c t, PhiS_pos V c _ _ hz]
    iintro ⟨⟨⟨HS, HQ, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLast c (grid0.coords t) _ _ _ _ _ _ _ _ _ _ _ _ _ _ _ _ _ _ _ _ (fun h => h0 ((first_iff t).mp h)) ((last_iff t).mpr h1) (blk V c 0 t) (blk V c 1 t) (blk V c 2 t) (blk V c 3 t) (blk V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    isplitl [HQ]; · iexact HQ
    iintro ⟨H0, H1, H2, H3, H4, ⟨%e5, H5⟩, ⟨%e6, H6⟩, ⟨%e7, H7⟩, ⟨%es, HS⟩, ⟨%eq, HQ⟩⟩
    isplitl [HS HQ Hoth Hg]
    · isplitl [HS HQ Hoth]
      · isplitl [HS]
        · unfold owns; iexists _; isplitr
          swap; · iexact HS
          ipureintro; exact View.read_writes_of_cover _ _ _ _ _ (sumLast_cover c _ _ _ _ _ _ _ _ _ _ _ _ _ _ _ _ _ _ _ _ _ _ _ _ _ _ _ _ _ _)
        isplitl [HQ]
        · unfold owns; iexists _; isplitr
          swap; · iexact HQ
          ipureintro; exact View.read_writes_of_cover _ _ _ _ _ (sqLast_cover c _ _ _ _ _ _ _ _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (preLast_cover c _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (meanLast_cover c _ _ _ _ _ _ _ _ _ _ _ _ _ _ _ _ _ _ _ _ _ _ _ _ _ _ _ _ _ _)
    unfold owns; iexists _; isplitr
    swap; · iexact H7
    ipureintro; exact View.read_writes_of_cover _ _ _ _ _ (varLast_cover c _ _ _ _ _ _ _ _ _ _ _ _ _ _ _ _ _ _ _ _ _ _ _ _ _ _ _ _ _ _)
  · by_cases h0 : t.val % 10 = 0
    · have hz : t.val = 0 := by omega
      rw [Dat.leavesExact_idle (dat V c) 6 t (idle_6 t (fun h => h1 ((last_iff t).mp h))) (noFlush_6 t (fun h => h1 ((last_iff t).mp h)))]
      rw [Dat.leavesExact_idle (dat V c) 7 t (idle_7 t (fun h => h1 ((last_iff t).mp h))) (noFlush_7 t (fun h => h1 ((last_iff t).mp h)))]
      rw [outsAt_first V c t h0 h1]
      unfold preFirst sumFirst sqFirst; (try dsimp only)
      rw [PhiS_castSucc V c t, PhiS_zero V c _ _ hz, PhiA_eq]
      iintro ⟨⟨⟨HS, HQ, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) _ _ _ _ _ _ _ _ _ _ _ _ _ _ _ _ _ _ _ _ ((first_iff t).mpr h0) (fun h => h1 ((last_iff t).mp h)) (blk V c 0 t) (blk V c 1 t) (blk V c 2 t) (blk V c 3 t) (blk V c 4 t)).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      isplitl [HQ]; · iexact HQ
      iintro ⟨H0, H1, H2, H3, H4, ⟨%e5, H5⟩, H6, H7, ⟨%es, HS⟩, ⟨%eq, HQ⟩⟩
      isplitl [HS HQ Hoth Hg]
      · isplitl [HS HQ Hoth]
        · isplitl [HS]
          · unfold owns; iexists _; isplitr
            swap; · iexact HS
            ipureintro; exact View.read_writes_of_cover _ _ _ _ _ (sumFirst_cover c _ _ _ _ _ _ _ _ _ _ _ _ _ _ _ _ _ _ _ _ _ _ _ _ _ _ _ _)
          isplitl [HQ]
          · unfold owns; iexists _; isplitr
            swap; · iexact HQ
            ipureintro; exact View.read_writes_of_cover _ _ _ _ _ (sqFirst_cover c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (preFirst_cover c _ _ _ _ _ _ _ _ _ _ _ _ _ _ _ _ _ _ _ _ _ _ _ _ _ _ _ _)
      isplitl [H6]; · iexists _; iexact H6
      iexists _; iexact H7
    · have hz : t.val ≠ 0 := by omega
      rw [Dat.leavesExact_idle (dat V c) 6 t (idle_6 t (fun h => h1 ((last_iff t).mp h))) (noFlush_6 t (fun h => h1 ((last_iff t).mp h)))]
      rw [Dat.leavesExact_idle (dat V c) 7 t (idle_7 t (fun h => h1 ((last_iff t).mp h))) (noFlush_7 t (fun h => h1 ((last_iff t).mp h)))]
      rw [outsAt_mid V c t h0 h1]
      unfold preMid sumMid sqMid; (try dsimp only)
      rw [PhiS_castSucc V c t, PhiS_pos V c _ _ hz]
      iintro ⟨⟨⟨HS, HQ, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid0.coords t) _ _ _ _ _ _ _ _ _ _ _ _ _ _ _ _ _ _ _ _ (fun h => h0 ((first_iff t).mp h)) (fun h => h1 ((last_iff t).mp h)) (blk V c 0 t) (blk V c 1 t) (blk V c 2 t) (blk V c 3 t) (blk V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      isplitl [HQ]; · iexact HQ
      iintro ⟨H0, H1, H2, H3, H4, ⟨%e5, H5⟩, H6, H7, ⟨%es, HS⟩, ⟨%eq, HQ⟩⟩
      isplitl [HS HQ Hoth Hg]
      · isplitl [HS HQ Hoth]
        · isplitl [HS]
          · unfold owns; iexists _; isplitr
            swap; · iexact HS
            ipureintro; exact View.read_writes_of_cover _ _ _ _ _ (sumMid_cover c _ _ _ _ _ _ _ _ _ _ _ _ _ _ _ _ _ _ _ _ _ _ _ _ _ _ _ _ _ _)
          isplitl [HQ]
          · unfold owns; iexists _; isplitr
            swap; · iexact HQ
            ipureintro; exact View.read_writes_of_cover _ _ _ _ _ (sqMid_cover c _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (preMid_cover c _ _ _ _ _ _ _ _ _ _ _ _ _ _ _ _ _ _ _ _ _ _ _ _ _ _ _ _ _ _)
      isplitl [H6]; · iexists _; iexact H6
      iexists _; iexact H7

/-- The library's body obligation, at every block. -/
theorem body_obligation (c : Dev nD) : BodyObligation (dat (F := F) V c) (defs₀ (F := F)) Variants.none () Set.univ := fun t => by
  rw [bigSep_W0, bigSep_W0]
  exact body_at V c t

/-- What the launch hands the call (the class's invariant) is the invariant before the first block. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any block the invariant gives the class's back: the accumulators' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HQ, Hoth⟩, Hg⟩
  isplitl [HS HQ Hoth]
  · isplitl [HS]; · iexists _; iexact HS
    isplitl [HQ]; · iexists _; iexact HQ
    iexact Hoth
  iexact Hg

theorem hout (c : Dev nD) : (dat V c).Φ (Fin.last cfg0.N) ⊢ Pipeline.ΦA spec0 c :=
  Phi_out V c _ (by rw [Fin.val_last]; have : cfg0.N = 10 := N_0; omega)

end Cert.KernelIdeal.Stats

end
-- ==== Proof.KI.Norm.lean ====
import proofs.«120895_j33182917328949_1_alg».proof.Proof.Gen.KernelIdeal.Launch
import proofs.«120895_j33182917328949_1_alg».proof.Proof.Gen.KernelIdeal.Skeleton
import proofs.«120895_j33182917328949_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The normalisation kernel (the second pallas_call): batch-norm with given mean and variance, then ReLU

Everything here is stated at a parameter `V`: what the TensorCore's buffers hold when the call is entered.
The call walks ten row blocks of 5000 rows; at each it reads the block of pre-activations and the four
one-row operands (mean, variance, scale, shift) and writes the block of activations. -/

variable (V : (c : Dev nD) → (b : Ref sig .tc) → Buf (Elt F) ((c : Thread nD τ).loc b))

/-- Operand `w`'s block at grid point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's staging buffer holds its block at every point, whether the point fetched it or the block index
has not moved since it was fetched. -/
theorem held_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem held_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem held_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem held_3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem held_4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The whole-block rectangle of a 5000×128 buffer, and of a one-row buffer. -/
abbrev rBig : Rect S5000x128 := Rect.unit (s := S5000x128) ![0, 0] S5000x128.size inb_S5000x128_S5000x128_0_0
abbrev rRow : Rect S1x128 := Rect.unit (s := S1x128) ![0, 0] S1x128.size inb_S1x128_S1x128_0_0

/-- What the body leaves in the output's staging buffer: its one store, of the activations computed from the
    loaded block `x0` and the loaded rows (mean `x1`, variance `x2`, scale `x3`, shift `x4`). -/
def out (x0 : Vec F S5000x128 .f32) (x1 x2 x3 x4 : Vec F S1x128 .f32) : Vec F S5000x128 .f32 :=
  View.canon [⟨rBig, k1_pay1 (View.ld x0 rBig) (View.ld x2 rRow) (View.ld x1 rRow) (View.ld x3 rRow) (View.ld x4 rRow)⟩]

/-- The one store covers the buffer. -/
theorem out_cover (p0 : Vec F S5000x128 .f32) (y : S5000x128.Idx) :
    ∃ pc ∈ ([⟨rBig, p0⟩] : List (View.Piece (Elt F) S5000x128 .f32)), y ∈ pc.1.set :=
  View.cover_of_tiled [⟨rBig, p0⟩] S5000x128.size (by rfl) y

set_option maxHeartbeats 4000000 in
/-- The body on whole staging buffers, the inputs' at given contents and the output's at anything, runs to its
    return with the inputs' as they were and the output's at `out` of the inputs'. -/
theorem body_run (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (out_cover _)

/-! ## The call's proof data -/

/-- After the body at point `t` each input's buffer still holds its block and the output's holds `out` of the
    input blocks; between points nothing but the class's invariant (the scoped rest and the generator register)
    is kept; nothing is owed to another core. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec1 c
  q _ := fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) :
    (dat V c).after 5 t = out (blk V c 0 t) (blk V c 1 t) (blk V c 2 t) (blk V c 3 t) (blk V c 4 t) := by dsimp only [dat]

theorem before_0 (c : Dev nD) (t : Fin cfg1.N) (d) : (dat V c).before 0 t d = blk V c 0 t :=
  held_0 V (dat V c) (dat_A V c 0) (after_0 V c) t d
theorem before_1 (c : Dev nD) (t : Fin cfg1.N) (d) : (dat V c).before 1 t d = blk V c 1 t :=
  held_1 V (dat V c) (dat_A V c 1) (after_1 V c) t d
theorem before_2 (c : Dev nD) (t : Fin cfg1.N) (d) : (dat V c).before 2 t d = blk V c 2 t :=
  held_2 V (dat V c) (dat_A V c 2) (after_2 V c) t d
theorem before_3 (c : Dev nD) (t : Fin cfg1.N) (d) : (dat V c).before 3 t d = blk V c 3 t :=
  held_3 V (dat V c) (dat_A V c 3) (after_3 V c) t d
theorem before_4 (c : Dev nD) (t : Fin cfg1.N) (d) : (dat V c).before 4 t d = blk V c 4 t :=
  held_4 V (dat V c) (dat_A V c 4) (after_4 V c) t d

/-! ## The body obligation -/

/-- What the body is called with at point `t`, the operands one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their blocks, so `body_run` applies; the invariant and the
    core's dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact body_at V c t

end Cert.KernelIdeal.Norm

end
-- ==== Proof.KI.Proj.lean ====
import proofs.«120895_j33182917328949_1_alg».proof.Proof.Gen.KernelIdeal.Launch
import proofs.«120895_j33182917328949_1_alg».proof.Proof.Gen.KernelIdeal.Skeleton
import proofs.«120895_j33182917328949_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second linear layer (the third pallas_call): aggregated rows times one weight matrix, plus root rows
times another, plus a bias row

Stated at a parameter `V`: what the TensorCore's buffers hold when the call is entered. Ten row blocks of 5000
rows; at each the body reads the two row blocks, the two 128×128 weight matrices and the bias row, and writes
the block of results. -/

variable (V : (c : Dev nD) → (b : Ref sig .tc) → Buf (Elt F) ((c : Thread nD τ).loc b))

/-- Operand `w`'s block at grid point `t`, read off its array as the call finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input's staging buffer holds its block at every point, whether the point fetched it or the block index
has not moved since it was fetched. -/
theorem held_0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem held_1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem held_2 {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem held_3 {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem held_4 {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles of the three buffer shapes. -/
abbrev rBig : Rect S5000x128 := Rect.unit (s := S5000x128) ![0, 0] S5000x128.size inb_S5000x128_S5000x128_0_0
abbrev rRow : Rect S1x128 := Rect.unit (s := S1x128) ![0, 0] S1x128.size inb_S1x128_S1x128_0_0
abbrev rSq : Rect S128x128 := Rect.unit (s := S128x128) ![0, 0] S128x128.size inb_S128x128_S128x128_0_0

/-- What the body leaves in the output's staging buffer: its one store, of the two products and the bias, from the
    loaded row blocks `x0`, `x1`, the loaded matrices `x2`, `x3` and the loaded bias row `x4`. -/
def out (x0 x1 : Vec F S5000x128 .f32) (x2 x3 : Vec F S128x128 .f32) (x4 : Vec F S1x128 .f32) : Vec F S5000x128 .f32 :=
  View.canon [⟨rBig, k2_pay1 (View.ld x0 rBig) (View.ld x1 rBig) (View.ld x2 rSq) (View.ld x3 rSq) (View.ld x4 rRow)⟩]

/-- The one store covers the buffer. -/
theorem out_cover (p0 : Vec F S5000x128 .f32) (y : S5000x128.Idx) :
    ∃ pc ∈ ([⟨rBig, p0⟩] : List (View.Piece (Elt F) S5000x128 .f32)), y ∈ pc.1.set :=
  View.cover_of_tiled [⟨rBig, p0⟩] S5000x128.size (by rfl) y

set_option maxHeartbeats 4000000 in
/-- The body on whole staging buffers, the inputs' at given contents and the output's at anything, runs to its
    return with the inputs' as they were and the output's at `out` of the inputs'. -/
theorem body_run (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out x0 x1 x2 x3 x4)) -∗ K ⟨⟩))
      ⊢ wp frame (wpE (defs₀ (F := F)) Variants.none c none) E (cc2__linear_kernel i arg1 harg1 arg2 harg2 arg3 harg3 arg4 harg4 arg5 harg5 arg6 harg6) K := by
  simp only [cc2__linear_kernel_eq_skeleton]; unfold cc2__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (out_cover _)

/-! ## The call's proof data -/

/-- After the body at point `t` each input's buffer still holds its block and the output's holds `out` of the
    input blocks; between points nothing but the class's invariant (the scoped rest and the generator register)
    is kept; nothing is owed to another core. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec2 c
  q _ := fullShare
  owed _ := 0

theorem dat_A (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) :
    (dat V c).after 5 t = out (blk V c 0 t) (blk V c 1 t) (blk V c 2 t) (blk V c 3 t) (blk V c 4 t) := by dsimp only [dat]

theorem before_0 (c : Dev nD) (t : Fin cfg2.N) (d) : (dat V c).before 0 t d = blk V c 0 t :=
  held_0 V (dat V c) (dat_A V c 0) (after_0 V c) t d
theorem before_1 (c : Dev nD) (t : Fin cfg2.N) (d) : (dat V c).before 1 t d = blk V c 1 t :=
  held_1 V (dat V c) (dat_A V c 1) (after_1 V c) t d
theorem before_2 (c : Dev nD) (t : Fin cfg2.N) (d) : (dat V c).before 2 t d = blk V c 2 t :=
  held_2 V (dat V c) (dat_A V c 2) (after_2 V c) t d
theorem before_3 (c : Dev nD) (t : Fin cfg2.N) (d) : (dat V c).before 3 t d = blk V c 3 t :=
  held_3 V (dat V c) (dat_A V c 3) (after_3 V c) t d
theorem before_4 (c : Dev nD) (t : Fin cfg2.N) (d) : (dat V c).before 4 t d = blk V c 4 t :=
  held_4 V (dat V c) (dat_A V c 4) (after_4 V c) t d

/-! ## The body obligation -/

/-- What the body is called with at point `t`, the operands one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' buffers hold their blocks, so `body_run` applies; the invariant and the
    core's dues pass through unread. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W2, bigSep_W2]
  exact body_at V c t

end Cert.KernelIdeal.Proj

end
-- ==== Proof.KI.Whole.lean ====
import proofs.«120895_j33182917328949_1_alg».proof.Proof.Gen.KernelIdeal.Launch
import proofs.«120895_j33182917328949_1_alg».proof.Proof.Gen.KernelIdeal.Skeleton
import proofs.«120895_j33182917328949_1_alg».proof.Proof.Gen.KernelIdeal.Points
import proofs.«120895_j33182917328949_1_alg».proof.Proof.Gen.KernelIdeal.Regions
import proofs.«120895_j33182917328949_1_alg».proof.Proof.KI.StatsBody
import proofs.«120895_j33182917328949_1_alg».proof.Proof.KI.Norm
import proofs.«120895_j33182917328949_1_alg».proof.Proof.KI.Proj
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: host operations, the three pallas_calls, host operations between and after

The buffers' contents at each of the eight boundaries are a fold from the launch memory: a stretch of host
operations applies them in order; a pallas_call replaces its arrays by what its write-backs leave. The run theorem
says every weakly fair execution ends with every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (degrees, gather, scatter-add, division, transposes). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After pallas_call 0: its arrays at what the pipeline leaves (an input as entered, an output's write-backs
    folded over the ten blocks), every other buffer as entered. -/
def W2 (c : Dev nD) : Valuation τ sig (Elt F) :=
  Pipeline.withArrays spec0 c (W1 m ρ c) fun w => (Stats.dat (V1 m ρ) c).arrAt w cfg0.N
theorem W2_arr (c : Dev nD) (w : Fin cfg0.W) :
    W2 m ρ c (Proc.devRef .tc (Pipeline.arrRef spec0 w)) = (Stats.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Stats.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the scale and shift rows reshaped). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After pallas_call 1: its arrays at what the pipeline leaves (an input as entered, an output's write-backs
    folded over the ten blocks), every other buffer as entered. -/
def W4 (c : Dev nD) : Valuation τ sig (Elt F) :=
  Pipeline.withArrays spec1 c (W3 m ρ c) fun w => (Norm.dat (V3 m ρ) c).arrAt w cfg1.N
theorem W4_arr (c : Dev nD) (w : Fin cfg1.W) :
    W4 m ρ c (Proc.devRef .tc (Pipeline.arrRef spec1 w)) = (Norm.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Norm.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (the second aggregation, the padded weights). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After pallas_call 2: its arrays at what the pipeline leaves (an input as entered, an output's write-backs
    folded over the ten blocks), every other buffer as entered. -/
def W6 (c : Dev nD) : Valuation τ sig (Elt F) :=
  Pipeline.withArrays spec2 c (W5 m ρ c) fun w => (Proj.dat (V5 m ρ) c).arrAt w cfg2.N
theorem W6_arr (c : Dev nD) (w : Fin cfg2.W) :
    W6 m ρ c (Proc.devRef .tc (Pipeline.arrRef spec2 w)) = (Proj.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (Proj.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last stretch (the slice of the first 47 columns): the end. -/
abbrev W7 : Dev nD → Valuation τ sig (Elt F) := fun c => StableHlo.after hostOps3 (W6 m ρ c)

/-! ## The proof data family and what rides beside the buffers -/

abbrev adm : (p : Fin 3) → (pcfgs (F := F) p).Adm := fun p => (cfgs p).toPCfg_adm
/-- Every pallas_call's proof data, each at the contents its call is entered with. -/
def pdats : (p : Fin 3) → (c : Dev nD) → Dat τ (Elt F) Unit ℕ (UR sig nD τ) ℕ (Pipeline.pin (pcfgs (F := F)) adm p) c
  | ⟨0, _⟩ => fun c => Stats.dat (V1 m ρ) c
  | ⟨1, _⟩ => fun c => Norm.dat (V3 m ρ) c
  | ⟨2, _⟩ => fun c => Proj.dat (V5 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 m ρ c) ∗ ∃ r, prngReg c r)

/-! ## The pallas_calls as segments -/

set_option backward.isDefEq.respectTransparency.types false in
/-- The pallas_call number 0 as a segment: entered with every unscoped buffer at the contents before it, left with
    them at the contents after it. Its arrays are split out of the unscoped buffers and put back at what the
    write-backs leave; the generator register goes into the call's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stats.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (Stats.hout (V1 m ρ) c).trans (show (Pipeline.ΦA spec0 c : sProp 𝕄) ⊢ iprop((∃ r, prngReg c r) ∗ BI.emp ∗ Pipeline.scopedRest spec0 c) from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 1 as a segment: entered with every unscoped buffer at the contents before it, left with
    them at the contents after it. Its arrays are split out of the unscoped buffers and put back at what the
    write-backs leave; the generator register goes into the call's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Norm.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 2 as a segment: entered with every unscoped buffer at the contents before it, left with
    them at the contents after it. Its arrays are split out of the unscoped buffers and put back at what the
    write-backs leave; the generator register goes into the call's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Proj.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

set_option backward.isDefEq.respectTransparency.types false in
/-- THE RUN. From any memory with zero counters every weakly fair execution of the program on the TensorCores
    terminates, nothing faulting, and every final memory holds every unscoped buffer at the last boundary's
    contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_dev (pcfgs (F := F)) adm (pdats m ρ) () cellOf_inj emb₁ defs₀ 𝒱₀ L lv m ρ main (fun _ => segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := fun c => ⟨.rfl, .rfl, .rfl, .rfl, .rfl, .rfl, .rfl,
      (show (iprop(StableHlo.held (c : Thread nD τ) (Pipeline.ucRefs τ sig) (W7 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-! ## The arguments end as launched

No host operation and no pallas_call writes an argument (the node features are read by the first call through
an input window): the fold at an argument's buffer walks back to the launch memory. -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 1).trans (((Stats.dat (V1 m ρ) c).arrAt_in 1 rfl _).trans (Stats.dat_A (V1 m ρ) c 1))
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c)⟩) (run_all m ρ)

end Cert.KernelIdeal.Whole

end
-- ==== Proof.Laws.lean ====
import Idealize.ShloMosaic.PureOps.Ideal
import Mathlib.Algebra.BigOperators.Fin
import Mathlib.Algebra.Order.BigOperators.Group.Finset

noncomputable section

namespace Cert.Laws

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_add {x y : EReal} (hx : IsReal x) (hy : IsReal y) : IsReal (x + y) := by
  obtain ⟨a, rfl⟩ := hx
  obtain ⟨b, rfl⟩ := hy
  exact ⟨a + b, (EReal.coe_add a b).symm⟩
theorem isReal_sub {x y : EReal} (hx : IsReal x) (hy : IsReal y) : IsReal (x - y) := by
  obtain ⟨a, rfl⟩ := hx
  obtain ⟨b, rfl⟩ := hy
  exact ⟨a - b, (EReal.coe_sub a b).symm⟩
theorem isReal_mul {x y : EReal} (hx : IsReal x) (hy : IsReal y) : IsReal (x * y) := by
  obtain ⟨a, rfl⟩ := hx
  obtain ⟨b, rfl⟩ := hy
  exact ⟨a * b, (EReal.coe_mul a b).symm⟩
theorem isReal_max {x y : EReal} (hx : IsReal x) (hy : IsReal y) : IsReal (max x y) := by
  obtain ⟨a, rfl⟩ := hx
  obtain ⟨b, rfl⟩ := hy
  rcases le_total (a : EReal) (b : EReal) with h | h
  · exact ⟨b, max_eq_right h⟩
  · exact ⟨a, max_eq_left h⟩
theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact isReal_add (hf a (Finset.mem_insert_self a s))
      (ih (fun i hi => hf i (Finset.mem_insert_of_mem hi)))
/-- A real over a real that is at least one is a real. -/
theorem isReal_div_of_one_le {x y : EReal} (hx : IsReal x) (hy : ∃ r : ℝ, 1 ≤ r ∧ y = (r : EReal)) : IsReal (Ideal.div x y) := by
  obtain ⟨a, rfl⟩ := hx
  obtain ⟨b, hb, rfl⟩ := hy
  have hb0 : b ≠ 0 := by linarith
  rw [Ideal.div_coe hb0]
  exact ⟨a * (1 / b), (EReal.coe_mul a (1 / b)).symm⟩
/-- A finite sum of ones (coerced reals) plus zero is a real that is at least zero: `0 + ∑ i ∈ s, 1`. -/
theorem zero_add_sum_ones {ι : Type*} (s : Finset ι) (f : ι → EReal) (one : EReal) (h1 : one = ((1 : ℝ) : EReal)) (hf : ∀ i ∈ s, f i = one) :
    ∃ r : ℝ, 0 ≤ r ∧ (0 : EReal) + ∑ i ∈ s, f i = (r : EReal) := by
  classical
  subst h1
  rw [zero_add]
  induction s using Finset.induction_on with
  | empty => exact ⟨0, le_refl 0, by simp⟩
  | insert a s ha ih =>
    obtain ⟨r, hr, hs⟩ := ih (fun i hi => hf i (Finset.mem_insert_of_mem hi))
    refine ⟨1 + r, by linarith, ?_⟩
    rw [Finset.sum_insert ha, hf a (Finset.mem_insert_self a s), hs, EReal.coe_add]
/-- The maximum of a nonnegative real and one is a real that is at least one. -/
theorem max_one_ge {x : EReal} (hx : ∃ r : ℝ, 0 ≤ r ∧ x = (r : EReal)) : ∃ r : ℝ, 1 ≤ r ∧ max x ((1 : ℝ) : EReal) = (r : EReal) := by
  obtain ⟨a, _, rfl⟩ := hx
  rcases le_total a 1 with h | h
  · exact ⟨1, le_refl 1, max_eq_right (EReal.coe_le_coe_iff.mpr h)⟩
  · exact ⟨a, h, max_eq_left (EReal.coe_le_coe_iff.mpr h)⟩

/-- The f32 literals of the two programs as reals. -/
theorem c50000 : Ideal.ofBits .f32 0x47435000#32 = ((50000 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_zero : Ideal.ofBits .f32 0x00000000#32 = (0 : EReal) := by
  simp [Ideal.ofBits, Ideal.ieee]

/-- A finite sum of reals, read in the extended reals, is the sum of the readings. -/
private theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The variance identity over the reals: with `n` terms and `n ≠ 0`, the mean of the squares minus the square of
    the mean is the mean of the squared deviations (division spelt as the product with `1 / n`). -/
private theorem var_real (n : ℕ) (hn : n ≠ 0) (g : Fin n → ℝ) :
    (∑ i, g i * g i) * (1 / (n : ℝ)) - (∑ i, g i) * (1 / (n : ℝ)) * ((∑ i, g i) * (1 / (n : ℝ)))
      = (∑ i, (g i - (∑ i, g i) * (1 / (n : ℝ))) * (g i - (∑ i, g i) * (1 / (n : ℝ)))) * (1 / (n : ℝ)) := by
  have hN : (n : ℝ) ≠ 0 := by exact_mod_cast hn
  generalize hS : ∑ i, g i = S
  generalize hm : S * (1 / (n : ℝ)) = m
  have hexp : ∀ i, (g i - m) * (g i - m) = g i * g i - 2 * m * g i + m * m := fun i => by ring
  have h : ∑ i, (g i - m) * (g i - m) = (∑ i, g i * g i) - 2 * m * S + (n : ℝ) * (m * m) := by
    simp only [hexp, Finset.sum_add_distrib, Finset.sum_sub_distrib, ← Finset.mul_sum, Finset.sum_const,
      Finset.card_univ, Fintype.card_fin, nsmul_eq_mul, hS]
    ring
  rw [h, ← hm]
  field_simp
  ring

/-- THE VARIANCE IDENTITY over the extended reals, for real entries: the mean of the squares minus the square of the
    mean is the mean of the squared deviations from the mean (`n` terms, divided by `n` as an extended real; the
    right side spelt as a host sum spells it, from the initial value zero). -/
theorem var_identity (n : ℕ) (hn : n ≠ 0) (f : Fin n → EReal) (hf : ∀ i, IsReal (f i)) :
    Ideal.div (∑ i, f i * f i) ((n : ℝ) : EReal) - Ideal.div (∑ i, f i) ((n : ℝ) : EReal) * Ideal.div (∑ i, f i) ((n : ℝ) : EReal)
      = Ideal.div ((0 : EReal) + ∑ i, (f i - Ideal.div ((0 : EReal) + ∑ i, f i) ((n : ℝ) : EReal)) * (f i - Ideal.div ((0 : EReal) + ∑ i, f i) ((n : ℝ) : EReal))) ((n : ℝ) : EReal) := by
  choose g hg using hf
  have hN : (n : ℝ) ≠ 0 := by exact_mod_cast hn
  obtain rfl : f = fun i => ((g i : ℝ) : EReal) := funext hg
  simp only [Ideal.div_coe hN, zero_add]
  simp only [← EReal.coe_mul, coe_sum, ← EReal.coe_sub]
  rw [EReal.coe_eq_coe_iff]
  exact var_real n hn g

end Cert.Laws

end
-- ==== Proof.RefRead.lean ====
import proofs.«120895_j33182917328949_1_alg».proof.Proof.Gen.ReferenceIdeal.Read
import proofs.«120895_j33182917328949_1_alg».proof.Proof.Laws
import Idealize.ShloMosaic.Lib.ValueIdx
import Idealize.ShloMosaic.Lib.ValueLayout
import Idealize.ShloMosaic.Lib.Pipeline.Value
import Idealize.ShloMosaic.PureOps.Ideal.Laws

noncomputable section

namespace Cert.RefRead

open Cert.ReferenceIdeal Cert.ReferenceIdeal.Gen Cert.ReferenceIdeal.Read
open Idealize.ShloMosaic Idealize.ShloMosaic.ValueIdx

/-- Two indices of rank two (rank one) agree when their coordinates do. -/
local macro "idx2" : tactic => `(tactic| (funext a; match a with | ⟨0, _⟩ => rfl | ⟨1, _⟩ => rfl))
local macro "idx1" : tactic => `(tactic| (funext a; match a with | ⟨0, _⟩ => rfl))

/-- A scatter-add of real updates into a real operand is real at every index: the operand's entry plus a finite sum
    of update entries. -/
private theorem isReal_hostScatterAdd {s si su : Shape} (d : ScatterDims s si su) {w : Nat} (x : s.Idx → EReal)
    (idx : IVec si w) (upd : su.Idx → EReal) (hx : ∀ i, Laws.IsReal (x i)) (hu : ∀ j, Laws.IsReal (upd j)) (i : s.Idx) :
    Laws.IsReal (Ideal.hostScatterAdd d x idx upd i) := by
  simp only [Ideal.hostScatterAdd]
  exact Laws.isReal_add (hx i) (Laws.isReal_sum _ _ (fun j _ => hu j))

/-- A scatter-add of ones into a zero entry is a real that is at least zero: zero plus a finite sum of ones. -/
private theorem hostScatterAdd_ones {s si su : Shape} (d : ScatterDims s si su) {w : Nat} (x : s.Idx → EReal)
    (idx : IVec si w) (upd : su.Idx → EReal) (i : s.Idx) (hx : x i = 0) (hu : ∀ j, upd j = ((1 : ℝ) : EReal)) :
    ∃ r : ℝ, 0 ≤ r ∧ Ideal.hostScatterAdd d x idx upd i = (r : EReal) := by
  simp only [Ideal.hostScatterAdd]
  rw [hx]
  exact Laws.zero_add_sum_ones _ _ _ rfl (fun j _ => hu j)

/-- The host's scatter-add and pointwise division, read in the extended reals. -/
private theorem scatterAdd_eq {s si su : Shape} {w : Nat} (d : ScatterDims s si su) (x : FVec Ideal s .f32)
    (idx : IVec si w) (upd : FVec Ideal su .f32) :
    Host.scatterAdd (F := Ideal) (φ := .f32) d x idx upd = Ideal.hostScatterAdd d x idx upd := rfl
private theorem divf_apply {s : Shape} (x y : FVec Ideal s .f32) (i : s.Idx) :
    Host.divf (F := Ideal) (φ := .f32) x y i = Ideal.div (x i) (y i) := rfl

/-- The 5.0e4 literal and the 1e-5 literal (as rounded to f32). -/
abbrev C : EReal := Ideal.ofBits .f32 0x47435000#32
abbrev eps : EReal := Ideal.ofBits .f32 0x3727C5AC#32

/-! ## The mean aggregation as one function of the node features and the edge list -/

/-- Mean aggregation of the rows of `z` along the edges `x1`: gather the source rows, scatter-add them at the
    destinations into zeros, divide each row by its in-degree clamped below at one. -/
def aggOf (z : (⟨S50000x128, .f32⟩ : BufTy).Contents (Elt Ideal)) (x1 : (⟨S2x800000, .i32⟩ : BufTy).Contents (Elt Ideal)) :
    (⟨S50000x128, .f32⟩ : BufTy).Contents (Elt Ideal) :=
  Host.divf (F := Ideal) (φ := .f32)
    (Host.scatterAdd (F := Ideal) (φ := .f32) scatter_S50000x128_S800000x1_S800000x128_1_0_0_1 (val_main_v11 (F := Ideal)) (val_main_v12 (F := Ideal) x1)
      ((Host.gather gather_S50000x128_S800000x1_S800000x128_1_0_n_n_0_1_1128 z (val_main_v9 (F := Ideal) x1)
        : (⟨S800000x128, .f32⟩ : BufTy).Contents (Elt Ideal))))
    (val_main_v21 (F := Ideal) x1)

/-- The second layer's index and degree stages are the first layer's, operation for operation. -/
private theorem v62_eq (x1 : (⟨S2x800000, .i32⟩ : BufTy).Contents (Elt Ideal)) : val_main_v62 (F := Ideal) x1 = val_main_v9 (F := Ideal) x1 := by
  unfold val_main_v62 val_main_v61 val_main_v58 val_main_v60 val_main_v57 val_main_v59 val_main_c_9 val_main_c_10
    val_main_v9 val_main_v8 val_main_v5 val_main_v7 val_main_v4 val_main_v6 val_main_c val_main_c_0
  rfl
private theorem v64_eq : val_main_v64 (F := Ideal) = val_main_v11 (F := Ideal) := by
  unfold val_main_v64 val_main_cst_11 val_main_v11 val_main_cst
  rfl
private theorem v65_eq (x1 : (⟨S2x800000, .i32⟩ : BufTy).Contents (Elt Ideal)) : val_main_v65 (F := Ideal) x1 = val_main_v12 (F := Ideal) x1 := by
  unfold val_main_v65 val_main_v12
  rfl
private theorem v74_eq (x1 : (⟨S2x800000, .i32⟩ : BufTy).Contents (Elt Ideal)) : val_main_v74 (F := Ideal) x1 = val_main_v21 (F := Ideal) x1 := by
  unfold val_main_v74 val_main_v73 val_main_v72 val_main_v70 val_main_v71 val_main_v67 val_main_v68 val_main_v69
    val_main_cst_12 val_main_cst_13 val_main_cst_14
    val_main_v21 val_main_v20 val_main_v19 val_main_v17 val_main_v18 val_main_v14 val_main_v15 val_main_v16
    val_main_cst_1 val_main_cst_2 val_main_cst_3
  rfl

/-- The divisor of the aggregation is a real that is at least one: the in-degree (zero plus a sum of ones), clamped
    below at one. -/
private theorem den_ge_one (x1 : (⟨S2x800000, .i32⟩ : BufTy).Contents (Elt Ideal)) (i : S50000x128.Idx) :
    ∃ r : ℝ, 1 ≤ r ∧ val_main_v21 (F := Ideal) x1 i = (r : EReal) := by
  rw [val_main_v21_apply, val_main_v20_apply, val_main_v19_apply, val_main_v18_apply, val_main_cst_3_apply,
    Ideal.maximumf_def, Ideal.ofBits_def, Laws.c_one]
  apply Laws.max_one_ge
  have h17 : val_main_v17 (F := Ideal) x1 = Ideal.hostScatterAdd scatter_S50000_S800000x1_S800000_n_0_0_1
      (val_main_v15 (F := Ideal)) (val_main_v16 (F := Ideal) x1) (val_main_v14 (F := Ideal)) := by
    unfold val_main_v17 Host.scatterAdd
    rw [Ideal.hostScatterAdd_def]
  rw [h17]
  have hx : ∀ j : S50000.Idx, val_main_v15 (F := Ideal) j = (0 : EReal) := fun j => by
    rw [val_main_v15_apply, val_main_cst_2_apply, Ideal.ofBits_def, Laws.c_zero]
  have hu : ∀ j : S800000.Idx, val_main_v14 (F := Ideal) j = ((1 : ℝ) : EReal) := fun j => by
    rw [val_main_v14_apply, val_main_cst_1_apply, Ideal.ofBits_def, Laws.c_one]
  exact hostScatterAdd_ones _ _ _ _ _ (hx _) hu

theorem v22_eq (x0 : (⟨S50000x128, .f32⟩ : BufTy).Contents (Elt Ideal)) (x1 : (⟨S2x800000, .i32⟩ : BufTy).Contents (Elt Ideal)) :
    val_main_v22 (F := Ideal) x0 x1 = aggOf x0 x1 := by
  unfold val_main_v22 val_main_v13 val_main_v10 aggOf
  rfl

theorem v75_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) :
    val_main_v75 (F := Ideal) x0 x1 x2 x3 x4 x5 x6 = aggOf (val_main_v56 (F := Ideal) x0 x1 x2 x3 x4 x5 x6) x1 := by
  unfold val_main_v75 val_main_v66 val_main_v63 aggOf
  rw [v62_eq, v64_eq, v65_eq, v74_eq]

/-- Aggregating real rows gives real rows: a gathered entry is an entry of the table, a scatter-add into zeros is a
    finite sum of them, and the divisor is a real that is at least one. -/
theorem aggOf_isReal (z : (⟨S50000x128, .f32⟩ : BufTy).Contents (Elt Ideal)) (x1 : (⟨S2x800000, .i32⟩ : BufTy).Contents (Elt Ideal))
    (hz : ∀ i, Laws.IsReal (z i)) : ∀ i, Laws.IsReal (aggOf z x1 i) := by
  intro i
  have hx : ∀ j : S50000x128.Idx, Laws.IsReal (val_main_v11 (F := Ideal) j) := fun j => by
    rw [val_main_v11_apply, val_main_cst_apply, Ideal.ofBits_def, Laws.c_zero]
    exact Laws.isReal_zero
  have hnum := isReal_hostScatterAdd scatter_S50000x128_S800000x1_S800000x128_1_0_0_1 (val_main_v11 (F := Ideal))
    (val_main_v12 (F := Ideal) x1)
    (Host.gather gather_S50000x128_S800000x1_S800000x128_1_0_n_n_0_1_1128 z (val_main_v9 (F := Ideal) x1))
    hx (fun j => hz _) i
  obtain ⟨r, hr, hden⟩ := den_ge_one x1 i
  unfold aggOf
  rw [divf_apply, scatterAdd_eq, hden]
  generalize Ideal.hostScatterAdd scatter_S50000x128_S800000x1_S800000x128_1_0_0_1 (val_main_v11 (F := Ideal))
    (val_main_v12 (F := Ideal) x1)
    (Host.gather gather_S50000x128_S800000x1_S800000x128_1_0_n_n_0_1_1128 z (val_main_v9 (F := Ideal) x1)) i = a at hnum ⊢
  exact Laws.isReal_div_of_one_le hnum ⟨r, hr, rfl⟩

/-! ## The reference's stages read at an index -/

theorem hpre_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (p : Fin 50000) (q : Fin 128) :
    val_main_v30 (F := Ideal) x0 x1 x2 x3 x4 (ix2 p q)
      = ((∑ k : Fin 128, val_main_v22 (F := Ideal) x0 x1 (ix2 p k) * x2 (ix2 q k)) + x3 (ix1 q))
        + ∑ k : Fin 128, x0 (ix2 p k) * x4 (ix2 q k) := by
  rw [val_main_v30_apply, val_main_v27_apply, val_main_v24_apply, val_main_v26_apply, val_main_v25_apply,
    val_main_v29_apply]
  have e1 : ∀ k : Fin 128, lidx_main_v24 (ix2 p q) k = ix2 p k := fun k => by idx2
  have e2 : ∀ k : Fin 128, idx_main_v23 (ridx_main_v24 (ix2 p q) k) = ix2 q k := fun k => by idx2
  have e3 : idx_main_v25 (idx_main_v26 (ix2 p q)) = ix1 q := by idx1
  have e4 : ∀ k : Fin 128, lidx_main_v29 (ix2 p q) k = ix2 p k := fun k => by idx2
  have e5 : ∀ k : Fin 128, idx_main_v28 (ridx_main_v29 (ix2 p q) k) = ix2 q k := fun k => by idx2
  simp only [Ideal.addf_def, val_main_v23_apply, val_main_v28_apply, e1, e2, e3, e4, e5]

theorem mean_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (q : Fin 128) :
    val_main_v33 (F := Ideal) x0 x1 x2 x3 x4 (ix1 q)
      = Ideal.div ((0 : EReal) + ∑ r : Fin 50000, val_main_v30 (F := Ideal) x0 x1 x2 x3 x4 (ix2 r q)) C := by
  rw [val_main_v33_apply, val_main_v31_apply, val_main_v32_apply, val_main_cst_4_apply, val_main_cst_5_apply]
  have e1 : ∀ r : Fin 50000, idx_main_v31 (ix1 q) r = ix2 r q := fun r => by idx2
  have hs : ∑ k : Fin 50000, val_main_v30 (F := Ideal) x0 x1 x2 x3 x4 (idx_main_v31 (ix1 q) k)
      = ∑ r : Fin 50000, val_main_v30 (F := Ideal) x0 x1 x2 x3 x4 (ix2 r q) :=
    Finset.sum_congr rfl fun r _ => congrArg _ (e1 r)
  rw [hs]
  simp only [Ideal.hostDivf_def, Ideal.ofBits_def, Laws.c_zero]

theorem var_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (q : Fin 128) :
    val_main_v40 (F := Ideal) x0 x1 x2 x3 x4 (ix1 q)
      = Ideal.div ((0 : EReal) + ∑ r : Fin 50000,
          (val_main_v30 (F := Ideal) x0 x1 x2 x3 x4 (ix2 r q) - val_main_v33 (F := Ideal) x0 x1 x2 x3 x4 (ix1 q))
            * (val_main_v30 (F := Ideal) x0 x1 x2 x3 x4 (ix2 r q) - val_main_v33 (F := Ideal) x0 x1 x2 x3 x4 (ix1 q))) C := by
  rw [val_main_v40_apply, val_main_v38_apply, val_main_v39_apply, val_main_cst_6_apply, val_main_cst_7_apply]
  have e1 : ∀ r : Fin 50000, idx_main_v38 (ix1 q) r = ix2 r q := fun r => by idx2
  have e2 : ∀ r : Fin 50000, idx_main_v34 (idx_main_v35 (ix2 r q)) = ix1 q := fun r => by idx1
  have hs : ∑ k : Fin 50000, val_main_v37 (F := Ideal) x0 x1 x2 x3 x4 (idx_main_v38 (ix1 q) k)
      = ∑ r : Fin 50000,
          (val_main_v30 (F := Ideal) x0 x1 x2 x3 x4 (ix2 r q) - val_main_v33 (F := Ideal) x0 x1 x2 x3 x4 (ix1 q))
            * (val_main_v30 (F := Ideal) x0 x1 x2 x3 x4 (ix2 r q) - val_main_v33 (F := Ideal) x0 x1 x2 x3 x4 (ix1 q)) :=
    Finset.sum_congr rfl fun r _ => by
      rw [e1 r, val_main_v37_apply, val_main_v36_apply, val_main_v35_apply, val_main_v34_apply, e2 r]
      simp only [Ideal.mulf_def, Ideal.subf_def]
  rw [hs]
  simp only [Ideal.hostDivf_def, Ideal.ofBits_def, Laws.c_zero]

theorem h_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) (p : Fin 50000) (q : Fin 128) :
    val_main_v56 (F := Ideal) x0 x1 x2 x3 x4 x5 x6 (ix2 p q)
      = max ((val_main_v30 (F := Ideal) x0 x1 x2 x3 x4 (ix2 p q) - val_main_v33 (F := Ideal) x0 x1 x2 x3 x4 (ix1 q))
            * Ideal.rsqrt (val_main_v40 (F := Ideal) x0 x1 x2 x3 x4 (ix1 q) + eps) * x5 (ix1 q) + x6 (ix1 q)) 0 := by
  have e1 : idx_main_v41 (idx_main_v42 (ix2 p q)) = ix1 q := by idx1
  have e2 : idx_main_v47 (idx_main_v48 (ix2 p q)) = ix1 q := by idx1
  have e3 : idx_main_v50 (idx_main_v51 (ix2 p q)) = ix1 q := by idx1
  have e4 : idx_main_v53 (idx_main_v54 (ix2 p q)) = ix1 q := by idx1
  rw [val_main_v56_apply, val_main_v55_apply, val_main_v52_apply, val_main_v49_apply, val_main_v43_apply,
    val_main_v42_apply, val_main_v41_apply, e1, val_main_v48_apply, val_main_v47_apply, e2, val_main_v46_apply,
    val_main_v45_apply, val_main_v44_apply, val_main_cst_8_apply, val_main_v51_apply, val_main_v50_apply, e3,
    val_main_v54_apply, val_main_v53_apply, e4, val_main_call0_v0_apply, val_main_call0_cst_apply]
  simp only [Ideal.maximumf_def, Ideal.addf_def, Ideal.mulf_def, Ideal.subf_def, Ideal.hostUnary_rsqrt_def,
    Ideal.ofBits_def, Laws.c_zero]

theorem logit_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) (x7 : (⟨S47x128, .f32⟩ : BufTy).Contents (Elt Ideal)) (x8 : (⟨S47, .f32⟩ : BufTy).Contents (Elt Ideal)) (x9 : (⟨S47x128, .f32⟩ : BufTy).Contents (Elt Ideal)) (p : Fin 50000) (q : Fin 47) :
    val_main_v83 (F := Ideal) x0 x1 x2 x3 x4 x5 x6 x7 x8 x9 (ix2 p q)
      = ((∑ k : Fin 128, val_main_v75 (F := Ideal) x0 x1 x2 x3 x4 x5 x6 (ix2 p k) * x7 (ix2 q k)) + x8 (ix1 q))
        + ∑ k : Fin 128, val_main_v56 (F := Ideal) x0 x1 x2 x3 x4 x5 x6 (ix2 p k) * x9 (ix2 q k) := by
  rw [val_main_v83_apply, val_main_v80_apply, val_main_v77_apply, val_main_v79_apply, val_main_v78_apply,
    val_main_v82_apply]
  have e1 : ∀ k : Fin 128, lidx_main_v77 (ix2 p q) k = ix2 p k := fun k => by idx2
  have e2 : ∀ k : Fin 128, idx_main_v76 (ridx_main_v77 (ix2 p q) k) = ix2 q k := fun k => by idx2
  have e3 : idx_main_v78 (idx_main_v79 (ix2 p q)) = ix1 q := by idx1
  have e4 : ∀ k : Fin 128, lidx_main_v82 (ix2 p q) k = ix2 p k := fun k => by idx2
  have e5 : ∀ k : Fin 128, idx_main_v81 (ridx_main_v82 (ix2 p q) k) = ix2 q k := fun k => by idx2
  simp only [Ideal.addf_def, val_main_v76_apply, val_main_v81_apply, e1, e2, e3, e4, e5]

end Cert.RefRead

end
-- ==== Proof.LibScatterWindow.lean ====
/-
  A host scatter read at one index.

  `Host.scatter` is a left fold, over the update indices in row-major order, of conditional point updates: update
  index `j` replaces the element at its result index (when that index is inside the operand) by the body applied to
  the element and the update's element. Read at ONE operand index `i'`, the fold only sees the update indices that
  land on `i'`: none of them — the operand's element stays (`scatter_apply_of_miss`); exactly one — the body is applied
  once, to the operand's element and that update's element (`scatter_apply_of_hit`, and `scatter_set_apply_of_hit` for
  the body that returns the update).

  The window form: a rank-2 update `[a, b]` written whole at ONE start index `(r0, c0)` into a rank-2 operand `[A, B]`,
  the window inside the operand. Update index `(j0, j1)` lands at `(r0 + j0, c0 + j1)` (`window_resultIdx?`), so the
  result at `(p, q)` is the update at `(p - r0, q - c0)` inside the window and the operand outside it
  (`scatter_window_apply`).
-/
import Idealize.ShloMosaic.PureOps.ShapeOps
import Idealize.ShloMosaic.Lib.ValueIdx

namespace Idealize.ShloMosaic.ScatterWindow

open Idealize.ShloMosaic Idealize.ShloMosaic.ValueIdx

section Fold
variable {s si u : Shape} {α : Type} {w : Nat}

/-- One step of the scatter's fold: the update at row-major position `n` replaces the element at its result index by
    the body `f` of that element and the update's element, and is dropped when it has no result index. -/
abbrev step (d : ScatterDims s si u) (f : α → α → α) (idx : IVec si w) (upd : u.Idx → α) :
    (s.Idx → α) → Fin u.numel → (s.Idx → α) := fun r n =>
  match d.resultIdx? (u.rowMajor.symm n) idx with
  | some i => fun i' => if i' = i then f (r i) (upd (u.rowMajor.symm n)) else r i'
  | none => r

/-- The scatter is the left fold of `step` over the row-major positions of the updates. -/
theorem scatter_eq_foldl (d : ScatterDims s si u) (f : α → α → α) (x : s.Idx → α) (idx : IVec si w) (upd : u.Idx → α) :
    Host.scatter d f x idx upd = (List.finRange u.numel).foldl (step d f idx upd) x := rfl

/-- A step whose update does not land on `i'` leaves the element at `i'` as it was. -/
theorem step_apply_of_ne (d : ScatterDims s si u) (f : α → α → α) (idx : IVec si w) (upd : u.Idx → α)
    (r : s.Idx → α) (n : Fin u.numel) (i' : s.Idx) (h : d.resultIdx? (u.rowMajor.symm n) idx ≠ some i') :
    step d f idx upd r n i' = r i' := by
  unfold step
  cases hr : d.resultIdx? (u.rowMajor.symm n) idx with
  | none => rfl
  | some i =>
    have hne : i' ≠ i := fun e => h (by rw [hr, e])
    exact if_neg hne

/-- A step whose update lands on `i'` puts there the body of the old element and the update's element. -/
theorem step_apply_of_eq (d : ScatterDims s si u) (f : α → α → α) (idx : IVec si w) (upd : u.Idx → α)
    (r : s.Idx → α) (n : Fin u.numel) (i' : s.Idx) (h : d.resultIdx? (u.rowMajor.symm n) idx = some i') :
    step d f idx upd r n i' = f (r i') (upd (u.rowMajor.symm n)) := by
  unfold step
  rw [h]
  exact if_pos rfl

/-- Folding steps none of which lands on `i'` leaves the element at `i'` as it was. -/
theorem foldl_apply_of_miss (d : ScatterDims s si u) (f : α → α → α) (idx : IVec si w) (upd : u.Idx → α) (i' : s.Idx) :
    ∀ (l : List (Fin u.numel)) (r : s.Idx → α),
      (∀ n ∈ l, d.resultIdx? (u.rowMajor.symm n) idx ≠ some i') → l.foldl (step d f idx upd) r i' = r i' := by
  intro l
  induction l with
  | nil => intro r _; rfl
  | cons n t ih =>
    intro r h
    rw [List.foldl_cons, ih _ (fun m hm => h m (List.mem_cons_of_mem _ hm)),
      step_apply_of_ne d f idx upd r n i' (h n List.mem_cons_self)]

/-- Folding steps over positions without repeats, exactly one of which (`n0`) lands on `i'`, applies the body once
    there: to the old element and the update's element at `n0`. -/
theorem foldl_apply_of_hit (d : ScatterDims s si u) (f : α → α → α) (idx : IVec si w) (upd : u.Idx → α) (i' : s.Idx)
    (n0 : Fin u.numel) (h0 : d.resultIdx? (u.rowMajor.symm n0) idx = some i') :
    ∀ (l : List (Fin u.numel)) (r : s.Idx → α), l.Nodup → n0 ∈ l →
      (∀ n ∈ l, d.resultIdx? (u.rowMajor.symm n) idx = some i' → n = n0) →
      l.foldl (step d f idx upd) r i' = f (r i') (upd (u.rowMajor.symm n0)) := by
  intro l
  induction l with
  | nil => intro r _ hm _; exact absurd hm List.not_mem_nil
  | cons n t ih =>
    intro r hnd hm huniq
    rw [List.foldl_cons]
    have hnd' := List.nodup_cons.1 hnd
    by_cases hn : n = n0
    · subst hn
      rw [foldl_apply_of_miss d f idx upd i' t _ (fun m hmt e =>
        hnd'.1 (huniq m (List.mem_cons_of_mem _ hmt) e ▸ hmt)), step_apply_of_eq d f idx upd r n i' h0]
    · have hmt : n0 ∈ t := (List.mem_cons.1 hm).resolve_left (fun e => hn e.symm)
      rw [ih _ hnd'.2 hmt (fun m hm' => huniq m (List.mem_cons_of_mem _ hm')),
        step_apply_of_ne d f idx upd r n i' (fun e => hn (huniq n List.mem_cons_self e))]

/-- NO UPDATE LANDS ON `i'`: the scatter's result there is the operand's element, whatever the body. -/
theorem scatter_apply_of_miss (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  rw [scatter_eq_foldl]
  exact foldl_apply_of_miss d f idx upd i' _ x (fun n _ => h _)

/-- EXACTLY ONE UPDATE INDEX `j0` LANDS ON `i'`: the scatter's result there is the body of the operand's element and
    the update's element at `j0`. -/
theorem scatter_apply_of_hit (d : ScatterDims s si u) (f : α → α → α) (x : s.Idx → α) (idx : IVec si w)
    (upd : u.Idx → α) (i' : s.Idx) (j0 : u.Idx) (h0 : d.resultIdx? j0 idx = some i')
    (huniq : ∀ j : u.Idx, d.resultIdx? j idx = some i' → j = j0) :
    Host.scatter d f x idx upd i' = f (x i') (upd j0) := by
  rw [scatter_eq_foldl]
  have e0 : u.rowMajor.symm (u.rowMajor j0) = j0 := u.rowMajor.symm_apply_apply j0
  rw [foldl_apply_of_hit d f idx upd i' (u.rowMajor j0) (by rw [e0]; exact h0) _ x (List.nodup_finRange _)
    (List.mem_finRange _) (fun n _ hn => by
      have := huniq _ hn
      rw [← this]; exact (u.rowMajor.apply_symm_apply n).symm), e0]

/-- The same for the body that returns the update (a scatter that SETS), with no update landing on `i'`. -/
theorem scatter_set_apply_of_miss (d : ScatterDims s si u) (x : s.Idx → α) (idx : IVec si w)
    (upd : u.Idx → α) (i' : s.Idx) (h : ∀ j : u.Idx, d.resultIdx? j idx ≠ some i') :
    Host.scatter d (fun _ b => b) x idx upd i' = x i' :=
  scatter_apply_of_miss d _ x idx upd i' h

/-- The same for the body that returns the update, with exactly one update index `j0` landing on `i'`: the result
    there is the update's element at `j0`. -/
theorem scatter_set_apply_of_hit (d : ScatterDims s si u) (x : s.Idx → α) (idx : IVec si w)
    (upd : u.Idx → α) (i' : s.Idx) (j0 : u.Idx) (h0 : d.resultIdx? j0 idx = some i')
    (huniq : ∀ j : u.Idx, d.resultIdx? j idx = some i' → j = j0) :
    Host.scatter d (fun _ b => b) x idx upd i' = upd j0 :=
  scatter_apply_of_hit d _ x idx upd i' j0 h0 huniq

end Fold

section Window
variable {α : Type}

/-- The dimension numbers of a rank-2 update `[a, b]` written whole at ONE start index (a 2-vector) into a rank-2
    operand `[A, B]`: both update axes are window axes, no operand axis is inserted, the start index's two components
    go to the operand's axes `0` and `1`. Their conditions `wf` are decided on a program's literal shapes. -/
abbrev windowDims (A B a b : Nat)
    (wf : ScatterDims.WF ⟨2, ![A, B]⟩ ⟨1, ![2]⟩ ⟨2, ![a, b]⟩ [0, 1] [] [0, 1] 0) :
    ScatterDims ⟨2, ![A, B]⟩ ⟨1, ![2]⟩ ⟨2, ![a, b]⟩ where
  updateWindowDims := [0, 1]
  insertedWindowDims := []
  scatterDimsToOperandDims := [0, 1]
  indexVectorDim := 0
  wf := wf

variable {A B a b w : Nat} (wf : ScatterDims.WF ⟨2, ![A, B]⟩ ⟨1, ![2]⟩ ⟨2, ![a, b]⟩ [0, 1] [] [0, 1] 0)

/-- No operand axis is inserted: both are kept. -/
theorem mem_sKept (c : Fin 2) : c ∈ (windowDims A B a b wf).sKept :=
  List.mem_filter.2 ⟨List.mem_finRange _, by simp⟩

/-- The window's start on operand axis `0` is the start index's component `0`, read signed. -/
theorem window_start0 (idx : IVec ⟨1, ![2]⟩ w) (j : (⟨2, ![a, b]⟩ : Shape).Idx) :
    (windowDims A B a b wf).start j idx 0 = (idx (ix1 0)).toInt := by
  unfold ScatterDims.start
  rw [dif_pos (show (0 : Fin 2) ∈ (windowDims A B a b wf).scatterDimsToOperandDims from List.mem_cons_self)]
  congr 2
  funext c
  match c with
  | ⟨0, _⟩ => rfl

/-- The window's start on operand axis `1` is the start index's component `1`, read signed. -/
theorem window_start1 (idx : IVec ⟨1, ![2]⟩ w) (j : (⟨2, ![a, b]⟩ : Shape).Idx) :
    (windowDims A B a b wf).start j idx 1 = (idx (ix1 1)).toInt := by
  unfold ScatterDims.start
  rw [dif_pos (show (1 : Fin 2) ∈ (windowDims A B a b wf).scatterDimsToOperandDims from List.mem_cons_of_mem _ List.mem_cons_self)]
  congr 2
  funext c
  match c with
  | ⟨0, _⟩ => rfl

/-- The window coordinate on operand axis `0` is the update index's coordinate `0`. -/
theorem window_window0 (j : (⟨2, ![a, b]⟩ : Shape).Idx) : (windowDims A B a b wf).window j 0 = (j 0).val := by
  unfold ScatterDims.window
  rw [dif_pos (mem_sKept wf 0)]
  rfl

/-- The window coordinate on operand axis `1` is the update index's coordinate `1`. -/
theorem window_window1 (j : (⟨2, ![a, b]⟩ : Shape).Idx) : (windowDims A B a b wf).window j 1 = (j 1).val := by
  unfold ScatterDims.window
  rw [dif_pos (mem_sKept wf 1)]
  rfl

/-- UPDATE INDEX `(j0, j1)` LANDS AT `(r0 + j0, c0 + j1)`: with the start index `(r0, c0)` (its components read signed)
    and the window inside the operand (`r0 + a ≤ A`, `c0 + b ≤ B`), no update is dropped. -/
theorem window_resultIdx? (idx : IVec ⟨1, ![2]⟩ w) (r0 c0 : Nat)
    (hr : (idx (ix1 0)).toInt = (r0 : Int)) (hc : (idx (ix1 1)).toInt = (c0 : Int))
    (hA : r0 + a ≤ A) (hB : c0 + b ≤ B) (j : (⟨2, ![a, b]⟩ : Shape).Idx) :
    (windowDims A B a b wf).resultIdx? j idx
      = some (ix2 ⟨r0 + (j 0).val, by have := idx2_lt0 j; omega⟩ ⟨c0 + (j 1).val, by have := idx2_lt1 j; omega⟩) := by
  have h0 := idx2_lt0 j
  have h1 := idx2_lt1 j
  have h : ∀ c : Fin 2, 0 ≤ (windowDims A B a b wf).start j idx c + (windowDims A B a b wf).window j c ∧
      (windowDims A B a b wf).start j idx c + (windowDims A B a b wf).window j c
        < ((⟨2, ![A, B]⟩ : Shape).size c : Int) := by
    intro c
    match c with
    | ⟨0, _⟩ =>
      show 0 ≤ (windowDims A B a b wf).start j idx 0 + (windowDims A B a b wf).window j 0 ∧
        (windowDims A B a b wf).start j idx 0 + (windowDims A B a b wf).window j 0 < (A : Int)
      rw [window_start0, window_window0, hr]; omega
    | ⟨1, _⟩ =>
      show 0 ≤ (windowDims A B a b wf).start j idx 1 + (windowDims A B a b wf).window j 1 ∧
        (windowDims A B a b wf).start j idx 1 + (windowDims A B a b wf).window j 1 < (B : Int)
      rw [window_start1, window_window1, hc]; omega
  unfold ScatterDims.resultIdx?
  rw [dif_pos h]
  congr 1
  funext c
  match c with
  | ⟨0, _⟩ =>
    refine Fin.ext ?_
    show ((windowDims A B a b wf).start j idx 0 + (windowDims A B a b wf).window j 0).toNat = r0 + (j 0).val
    rw [window_start0, window_window0, hr]; omega
  | ⟨1, _⟩ =>
    refine Fin.ext ?_
    show ((windowDims A B a b wf).start j idx 1 + (windowDims A B a b wf).window j 1).toNat = c0 + (j 1).val
    rw [window_start1, window_window1, hc]; omega

/-- THE WINDOW SCATTER READ AT `(p, q)`: an update `[a, b]` set at the one start index `(r0, c0)` (the components of
    `idx`, read signed), the window inside the operand `[A, B]`. Inside the window
    `r0 ≤ p < r0 + a`, `c0 ≤ q < c0 + b` the result is the update at `(p - r0, q - c0)`; outside it is the operand. -/
theorem scatter_window_apply (x : (⟨2, ![A, B]⟩ : Shape).Idx → α) (idx : IVec ⟨1, ![2]⟩ w)
    (upd : (⟨2, ![a, b]⟩ : Shape).Idx → α) (r0 c0 : Nat)
    (hr : (idx (ix1 0)).toInt = (r0 : Int)) (hc : (idx (ix1 1)).toInt = (c0 : Int))
    (hA : r0 + a ≤ A) (hB : c0 + b ≤ B) (p : Fin A) (q : Fin B) :
    Host.scatter (windowDims A B a b wf) (fun _ v => v) x idx upd (ix2 p q)
      = if h : r0 ≤ p.val ∧ p.val < r0 + a ∧ c0 ≤ q.val ∧ q.val < c0 + b then
          upd (ix2 ⟨p.val - r0, by omega⟩ ⟨q.val - c0, by omega⟩)
        else x (ix2 p q) := by
  by_cases h : r0 ≤ p.val ∧ p.val < r0 + a ∧ c0 ≤ q.val ∧ q.val < c0 + b
  · rw [dif_pos h]
    refine scatter_set_apply_of_hit _ x idx upd _ _ ?_ ?_
    · rw [window_resultIdx? wf idx r0 c0 hr hc hA hB]
      congr 1
      funext c
      match c with
      | ⟨0, _⟩ => exact Fin.ext (show r0 + (p.val - r0) = p.val by omega)
      | ⟨1, _⟩ => exact Fin.ext (show c0 + (q.val - c0) = q.val by omega)
    · intro j hj
      rw [window_resultIdx? wf idx r0 c0 hr hc hA hB] at hj
      have e := Option.some.inj hj
      have e0 : r0 + (j 0).val = p.val := congrArg (fun i : (⟨2, ![A, B]⟩ : Shape).Idx => (i 0).val) e
      have e1 : c0 + (j 1).val = q.val := congrArg (fun i : (⟨2, ![A, B]⟩ : Shape).Idx => (i 1).val) e
      rw [eq_ix2 j]
      funext c
      match c with
      | ⟨0, _⟩ => exact Fin.ext (show (j 0).val = p.val - r0 by omega)
      | ⟨1, _⟩ => exact Fin.ext (show (j 1).val = q.val - c0 by omega)
  · rw [dif_neg h]
    refine scatter_set_apply_of_miss _ x idx upd _ (fun j hj => h ?_)
    rw [window_resultIdx? wf idx r0 c0 hr hc hA hB] at hj
    have e := Option.some.inj hj
    have e0 : r0 + (j 0).val = p.val := congrArg (fun i : (⟨2, ![A, B]⟩ : Shape).Idx => (i 0).val) e
    have e1 : c0 + (j 1).val = q.val := congrArg (fun i : (⟨2, ![A, B]⟩ : Shape).Idx => (i 1).val) e
    have h0 := idx2_lt0 j
    have h1 := idx2_lt1 j
    omega

/-- A 32-bit word below `2 ^ 31`, read signed, is the natural number it was made from. -/
theorem toInt_ofNat32 {n : Nat} (h : n < 2 ^ 31) : (BitVec.ofNat 32 n).toInt = (n : Int) := by
  rw [BitVec.toInt_eq_toNat_cond, BitVec.toNat_ofNat, Nat.mod_eq_of_lt (by omega)]
  split <;> omega

/-- The window scatter read at `(p, q)`, the start index given as the two 32-bit words `r0` and `c0` (below `2 ^ 31`). -/
theorem scatter_window_apply_ofNat (x : (⟨2, ![A, B]⟩ : Shape).Idx → α) (idx : IVec ⟨1, ![2]⟩ 32)
    (upd : (⟨2, ![a, b]⟩ : Shape).Idx → α) (r0 c0 : Nat)
    (hr : idx (ix1 0) = BitVec.ofNat 32 r0) (hc : idx (ix1 1) = BitVec.ofNat 32 c0)
    (hr31 : r0 < 2 ^ 31) (hc31 : c0 < 2 ^ 31)
    (hA : r0 + a ≤ A) (hB : c0 + b ≤ B) (p : Fin A) (q : Fin B) :
    Host.scatter (windowDims A B a b wf) (fun _ v => v) x idx upd (ix2 p q)
      = if h : r0 ≤ p.val ∧ p.val < r0 + a ∧ c0 ≤ q.val ∧ q.val < c0 + b then
          upd (ix2 ⟨p.val - r0, by omega⟩ ⟨q.val - c0, by omega⟩)
        else x (ix2 p q) :=
  scatter_window_apply wf x idx upd r0 c0 (by rw [hr]; exact toInt_ofNat32 hr31) (by rw [hc]; exact toInt_ofNat32 hc31)
    hA hB p q

end Window

end Idealize.ShloMosaic.ScatterWindow
-- ==== Proof.KI.HostK.lean ====
import proofs.«120895_j33182917328949_1_alg».proof.Proof.KI.Whole
import proofs.«120895_j33182917328949_1_alg».proof.Proof.RefRead
import proofs.«120895_j33182917328949_1_alg».proof.Proof.LibScatterWindow
import Idealize.ShloMosaic.Lib.StableHlo.Run
import Idealize.ShloMosaic.Lib.ValueLayout
import Idealize.ShloMosaic.Lib.Pipeline.Value
import Idealize.ShloMosaic.Lib.ValueIdx

set_option maxRecDepth 16384

noncomputable section

namespace Cert.KernelIdeal.HostK

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.KernelIdeal.Whole

/-! # What the host operations around the three pallas_calls compute

Each stretch of host operations read back from the fold of the buffers' contents, at the ideal instance: the first
aggregation, the transposed weights and the reshaped rows before the first call; the reshaped scale and shift rows
before the second; the second aggregation and the zero-padded transposed weights before the third; the slice of the
first 47 columns at the end. The aggregation is the reference's own (`RefRead.aggOf`): the two programs apply the
same operations to the same arguments. -/

variable (m : (ℓ : Loc nD τ sig) → Buf (Elt Ideal) ℓ) (ρ : Dev nD → PrngReg)

/-- Before the first call: the aggregated node features. -/
theorem W1_v22 (c : Dev nD) : W1 m ρ c main_v22 = RefRead.aggOf (m ((c : Thread nD τ).loc main_arg0)) (m ((c : Thread nD τ).loc main_arg1)) := by
  -- The first stretch prints the reference's own operations, applied to the launch contents of the features and edges.
  show StableHlo.after hostOps0 (W0 m ρ c) (Proc.devRef .tc main_v22) = _
  after_results_simp
  rfl

/-- Before the first call: the first layer's two weight matrices, transposed. -/
theorem W1_v23 (c : Dev nD) (k q : Fin 128) : W1 m ρ c main_v23 (ix2 k q) = (m ((c : Thread nD τ).loc main_arg2)) (ix2 q k) := by
  -- The transpose of the launch contents of the first weight matrix, read at (k, q).
  have e : W1 m ρ c main_v23 = transpose S128x128 [1, 0] (W0 m ρ c main_arg2) transposes_S128x128_S128x128_1_0 := by
    show StableHlo.after hostOps0 (W0 m ρ c) (Proc.devRef .tc main_v23) = _
    after_results_simp
  refine (congrFun e (ix2 k q)).trans ?_
  exact transpose_ix2_apply _ _ k q
theorem W1_v24 (c : Dev nD) (k q : Fin 128) : W1 m ρ c main_v24 (ix2 k q) = (m ((c : Thread nD τ).loc main_arg4)) (ix2 q k) := by
  -- The transpose of the launch contents of the second weight matrix, read at (k, q).
  have e : W1 m ρ c main_v24 = transpose S128x128 [1, 0] (W0 m ρ c main_arg4) transposes_S128x128_S128x128_1_0 := by
    show StableHlo.after hostOps0 (W0 m ρ c) (Proc.devRef .tc main_v24) = _
    after_results_simp
  refine (congrFun e (ix2 k q)).trans ?_
  exact transpose_ix2_apply _ _ k q
/-- Before the first call: the first layer's bias as a row. -/
theorem W1_v25 (c : Dev nD) (q : Fin 128) : W1 m ρ c main_v25 (ix2 (0 : Fin 1) q) = (m ((c : Thread nD τ).loc main_arg3)) (ix1 q) := by
  -- The bias vector read as a [1, 128] row.
  have e : W1 m ρ c main_v25 = shapeCast S1x128 (W0 m ρ c main_arg3) shapeCasts_S128_S1x128 := by
    show StableHlo.after hostOps0 (W0 m ρ c) (Proc.devRef .tc main_v25) = _
    after_results_simp
    rfl
  refine (congrFun e (ix2 (0 : Fin 1) q)).trans ?_
  exact shapeCast_a_1a_apply _ _ (0 : Fin 1) q

/-- Before the second call: the scale and the shift as rows. -/
theorem W3_v27 (c : Dev nD) (q : Fin 128) : W3 m ρ c main_v27 (ix2 (0 : Fin 1) q) = (m ((c : Thread nD τ).loc main_arg5)) (ix1 q) := by
  -- The scale vector, which nothing before writes, read as a [1, 128] row.
  have e : W3 m ρ c main_v27 = shapeCast S1x128 (W2 m ρ c main_arg5) shapeCasts_S128_S1x128 := by
    show StableHlo.after hostOps1 (W2 m ρ c) (Proc.devRef .tc main_v27) = _
    after_results_simp
    rfl
  have e5 : W2 m ρ c main_arg5 = m ((c : Thread nD τ).loc main_arg5) :=
    calc W2 m ρ c (Proc.devRef .tc main_arg5)
      _ = W1 m ρ c (Proc.devRef .tc main_arg5) := W2_of_ne m ρ c main_arg5 (by decide)
      _ = W0 m ρ c (Proc.devRef .tc main_arg5) := StableHlo.after_of_writes_sub hostOps0 _ hostOps0_writes (by decide)
      _ = m ((c : Thread nD τ).loc main_arg5) := rfl
  refine (congrFun e (ix2 (0 : Fin 1) q)).trans ?_
  rw [e5]
  exact shapeCast_a_1a_apply _ _ (0 : Fin 1) q
theorem W3_v28 (c : Dev nD) (q : Fin 128) : W3 m ρ c main_v28 (ix2 (0 : Fin 1) q) = (m ((c : Thread nD τ).loc main_arg6)) (ix1 q) := by
  -- The shift vector, which nothing before writes, read as a [1, 128] row.
  have e : W3 m ρ c main_v28 = shapeCast S1x128 (W2 m ρ c main_arg6) shapeCasts_S128_S1x128 := by
    show StableHlo.after hostOps1 (W2 m ρ c) (Proc.devRef .tc main_v28) = _
    after_results_simp
    rfl
  have e6 : W2 m ρ c main_arg6 = m ((c : Thread nD τ).loc main_arg6) :=
    calc W2 m ρ c (Proc.devRef .tc main_arg6)
      _ = W1 m ρ c (Proc.devRef .tc main_arg6) := W2_of_ne m ρ c main_arg6 (by decide)
      _ = W0 m ρ c (Proc.devRef .tc main_arg6) := StableHlo.after_of_writes_sub hostOps0 _ hostOps0_writes (by decide)
      _ = m ((c : Thread nD τ).loc main_arg6) := rfl
  refine (congrFun e (ix2 (0 : Fin 1) q)).trans ?_
  rw [e6]
  exact shapeCast_a_1a_apply _ _ (0 : Fin 1) q

/-- Before the third call: the aggregated activations (the in-degrees computed before the first call are used again). -/
theorem W5_v41 (c : Dev nD) : W5 m ρ c main_v41 = RefRead.aggOf (W4 m ρ c main_v29) (m ((c : Thread nD τ).loc main_arg1)) := by
  -- The source indices, the destination indices and the clamped in-degree column were written by the first stretch
  -- and by nothing since; at those contents the third stretch prints the reference's aggregation of the activations.
  have h1 : W4 m ρ c main_v1 = W1 m ρ c main_v1 :=
    calc W4 m ρ c (Proc.devRef .tc main_v1)
      _ = W3 m ρ c (Proc.devRef .tc main_v1) := W4_of_ne m ρ c main_v1 (by decide)
      _ = W2 m ρ c (Proc.devRef .tc main_v1) := StableHlo.after_of_writes_sub hostOps1 _ hostOps1_writes (by decide)
      _ = W1 m ρ c (Proc.devRef .tc main_v1) := W2_of_ne m ρ c main_v1 (by decide)
  have h3 : W4 m ρ c main_v3 = W1 m ρ c main_v3 :=
    calc W4 m ρ c (Proc.devRef .tc main_v3)
      _ = W3 m ρ c (Proc.devRef .tc main_v3) := W4_of_ne m ρ c main_v3 (by decide)
      _ = W2 m ρ c (Proc.devRef .tc main_v3) := StableHlo.after_of_writes_sub hostOps1 _ hostOps1_writes (by decide)
      _ = W1 m ρ c (Proc.devRef .tc main_v3) := W2_of_ne m ρ c main_v3 (by decide)
  have h10 : W4 m ρ c main_v10 = W1 m ρ c main_v10 :=
    calc W4 m ρ c (Proc.devRef .tc main_v10)
      _ = W3 m ρ c (Proc.devRef .tc main_v10) := W4_of_ne m ρ c main_v10 (by decide)
      _ = W2 m ρ c (Proc.devRef .tc main_v10) := StableHlo.after_of_writes_sub hostOps1 _ hostOps1_writes (by decide)
      _ = W1 m ρ c (Proc.devRef .tc main_v10) := W2_of_ne m ρ c main_v10 (by decide)
  have e1 : W1 m ρ c main_v1 = Cert.ReferenceIdeal.Read.val_main_v1 (F := Ideal) (m ((c : Thread nD τ).loc main_arg1)) := by
    show StableHlo.after hostOps0 (W0 m ρ c) (Proc.devRef .tc main_v1) = _
    after_results_simp
    rfl
  have e3 : W1 m ρ c main_v3 = Cert.ReferenceIdeal.Read.val_main_v3 (F := Ideal) (m ((c : Thread nD τ).loc main_arg1)) := by
    show StableHlo.after hostOps0 (W0 m ρ c) (Proc.devRef .tc main_v3) = _
    after_results_simp
    rfl
  have e10 : W1 m ρ c main_v10 = Cert.ReferenceIdeal.Read.val_main_v20 (F := Ideal) (m ((c : Thread nD τ).loc main_arg1)) := by
    show StableHlo.after hostOps0 (W0 m ρ c) (Proc.devRef .tc main_v10) = _
    after_results_simp
    rfl
  show StableHlo.after hostOps2 (W4 m ρ c) (Proc.devRef .tc main_v41) = _
  after_results_simp
  rw [h1, h3, h10, e1, e3, e10]
  rfl

/-! ## The zero padding: a [47, 128] block (a [47] vector) set at row 0 of a zero [128, 128] array (a zero [128] vector)

With every start index zero, update index (j0, j1) lands at (j0, j1) itself: the block sits in the first 47 rows. -/

section Pad

open Idealize.ShloMosaic.ScatterWindow

theorem pad2_start0 (idx : IVec S1 32) (hz : ∀ i, (idx i).toInt = 0) (j : S47x128.Idx) :
    scatter_S128x128_S1_S47x128_01_n_0_0.start j idx (0 : Fin 2) = 0 := by
  unfold ScatterDims.start
  rw [dif_pos (show (0 : Fin 2) ∈ scatter_S128x128_S1_S47x128_01_n_0_0.scatterDimsToOperandDims from List.mem_cons_self)]
  exact hz _

theorem pad2_start1 (idx : IVec S1 32) (j : S47x128.Idx) :
    scatter_S128x128_S1_S47x128_01_n_0_0.start j idx (1 : Fin 2) = 0 := by
  unfold ScatterDims.start
  rw [dif_neg (show (1 : Fin 2) ∉ scatter_S128x128_S1_S47x128_01_n_0_0.scatterDimsToOperandDims from by decide)]

theorem pad2_window0 (j : S47x128.Idx) : scatter_S128x128_S1_S47x128_01_n_0_0.window j (0 : Fin 2) = (j 0).val := by
  unfold ScatterDims.window
  rw [dif_pos (show (0 : Fin 2) ∈ scatter_S128x128_S1_S47x128_01_n_0_0.sKept from by decide)]
  rfl

theorem pad2_window1 (j : S47x128.Idx) : scatter_S128x128_S1_S47x128_01_n_0_0.window j (1 : Fin 2) = (j 1).val := by
  unfold ScatterDims.window
  rw [dif_pos (show (1 : Fin 2) ∈ scatter_S128x128_S1_S47x128_01_n_0_0.sKept from by decide)]
  rfl

/-- Update index (j0, j1) lands at (j0, j1). -/
theorem pad2_resultIdx? (idx : IVec S1 32) (hz : ∀ i, (idx i).toInt = 0) (j : S47x128.Idx) :
    scatter_S128x128_S1_S47x128_01_n_0_0.resultIdx? j idx
      = some (ix2 (⟨(j 0).val, by have := idx2_lt0 j; omega⟩ : Fin 128) (⟨(j 1).val, idx2_lt1 j⟩ : Fin 128)) := by
  have h0 := idx2_lt0 j
  have h1 := idx2_lt1 j
  have h : ∀ a : Fin 2, 0 ≤ scatter_S128x128_S1_S47x128_01_n_0_0.start j idx a + scatter_S128x128_S1_S47x128_01_n_0_0.window j a ∧
      scatter_S128x128_S1_S47x128_01_n_0_0.start j idx a + scatter_S128x128_S1_S47x128_01_n_0_0.window j a
        < (S128x128.size a : Int) := by
    intro a
    match a with
    | ⟨0, _⟩ =>
      show 0 ≤ scatter_S128x128_S1_S47x128_01_n_0_0.start j idx (0 : Fin 2) + scatter_S128x128_S1_S47x128_01_n_0_0.window j (0 : Fin 2) ∧
        scatter_S128x128_S1_S47x128_01_n_0_0.start j idx (0 : Fin 2) + scatter_S128x128_S1_S47x128_01_n_0_0.window j (0 : Fin 2) < (128 : Int)
      rw [pad2_start0 idx hz, pad2_window0]; omega
    | ⟨1, _⟩ =>
      show 0 ≤ scatter_S128x128_S1_S47x128_01_n_0_0.start j idx (1 : Fin 2) + scatter_S128x128_S1_S47x128_01_n_0_0.window j (1 : Fin 2) ∧
        scatter_S128x128_S1_S47x128_01_n_0_0.start j idx (1 : Fin 2) + scatter_S128x128_S1_S47x128_01_n_0_0.window j (1 : Fin 2) < (128 : Int)
      rw [pad2_start1, pad2_window1]; omega
  unfold ScatterDims.resultIdx?
  rw [dif_pos h]
  congr 1
  funext a
  match a with
  | ⟨0, _⟩ =>
    refine Fin.ext ?_
    show (scatter_S128x128_S1_S47x128_01_n_0_0.start j idx (0 : Fin 2) + scatter_S128x128_S1_S47x128_01_n_0_0.window j (0 : Fin 2)).toNat = (j 0).val
    rw [pad2_start0 idx hz, pad2_window0]; omega
  | ⟨1, _⟩ =>
    refine Fin.ext ?_
    show (scatter_S128x128_S1_S47x128_01_n_0_0.start j idx (1 : Fin 2) + scatter_S128x128_S1_S47x128_01_n_0_0.window j (1 : Fin 2)).toNat = (j 1).val
    rw [pad2_start1, pad2_window1]; omega

/-- The padded matrix read in its first 47 rows is the block. -/
theorem pad2_apply {α : Type} (x : S128x128.Idx → α) (idx : IVec S1 32) (hz : ∀ i, (idx i).toInt = 0) (upd : S47x128.Idx → α)
    (q : Fin 47) (k : Fin 128) :
    Host.scatter scatter_S128x128_S1_S47x128_01_n_0_0 (fun _ b => b) x idx upd (ix2 (⟨q.val, by omega⟩ : Fin 128) k) = upd (ix2 q k) := by
  refine scatter_set_apply_of_hit _ x idx upd _ (ix2 q k) ?_ ?_
  · rw [pad2_resultIdx? idx hz]
  · intro j hj
    rw [pad2_resultIdx? idx hz] at hj
    have e := Option.some.inj hj
    have e0 : (j 0).val = q.val := congrArg (fun i : S128x128.Idx => (i 0).val) e
    have e1 : (j 1).val = k.val := congrArg (fun i : S128x128.Idx => (i 1).val) e
    rw [eq_ix2 j]
    funext a
    match a with
    | ⟨0, _⟩ => exact Fin.ext e0
    | ⟨1, _⟩ => exact Fin.ext e1

theorem pad1_start0 (idx : IVec S1 32) (hz : ∀ i, (idx i).toInt = 0) (j : S47.Idx) :
    scatter_S128_S1_S47_0_n_0_0.start j idx (0 : Fin 1) = 0 := by
  unfold ScatterDims.start
  rw [dif_pos (show (0 : Fin 1) ∈ scatter_S128_S1_S47_0_n_0_0.scatterDimsToOperandDims from List.mem_cons_self)]
  exact hz _

theorem pad1_window0 (j : S47.Idx) : scatter_S128_S1_S47_0_n_0_0.window j (0 : Fin 1) = (j 0).val := by
  unfold ScatterDims.window
  rw [dif_pos (show (0 : Fin 1) ∈ scatter_S128_S1_S47_0_n_0_0.sKept from by decide)]
  rfl

/-- Update index j0 lands at j0. -/
theorem pad1_resultIdx? (idx : IVec S1 32) (hz : ∀ i, (idx i).toInt = 0) (j : S47.Idx) :
    scatter_S128_S1_S47_0_n_0_0.resultIdx? j idx
      = some (ix1 (⟨(j 0).val, by have := (j 0).isLt; show (j 0).val < 128; have h : (j 0).val < 47 := (j 0).isLt; omega⟩ : Fin 128)) := by
  have h0 : (j 0).val < 47 := (j 0).isLt
  have h : ∀ a : Fin 1, 0 ≤ scatter_S128_S1_S47_0_n_0_0.start j idx a + scatter_S128_S1_S47_0_n_0_0.window j a ∧
      scatter_S128_S1_S47_0_n_0_0.start j idx a + scatter_S128_S1_S47_0_n_0_0.window j a < (S128.size a : Int) := by
    intro a
    match a with
    | ⟨0, _⟩ =>
      show 0 ≤ scatter_S128_S1_S47_0_n_0_0.start j idx (0 : Fin 1) + scatter_S128_S1_S47_0_n_0_0.window j (0 : Fin 1) ∧
        scatter_S128_S1_S47_0_n_0_0.start j idx (0 : Fin 1) + scatter_S128_S1_S47_0_n_0_0.window j (0 : Fin 1) < (128 : Int)
      rw [pad1_start0 idx hz, pad1_window0]; omega
  unfold ScatterDims.resultIdx?
  rw [dif_pos h]
  congr 1
  funext a
  match a with
  | ⟨0, _⟩ =>
    refine Fin.ext ?_
    show (scatter_S128_S1_S47_0_n_0_0.start j idx (0 : Fin 1) + scatter_S128_S1_S47_0_n_0_0.window j (0 : Fin 1)).toNat = (j 0).val
    rw [pad1_start0 idx hz, pad1_window0]; omega

/-- The padded vector read at one of its first 47 places is the vector there. -/
theorem pad1_apply {α : Type} (x : S128.Idx → α) (idx : IVec S1 32) (hz : ∀ i, (idx i).toInt = 0) (upd : S47.Idx → α) (q : Fin 47) :
    Host.scatter scatter_S128_S1_S47_0_n_0_0 (fun _ b => b) x idx upd (ix1 (⟨q.val, by omega⟩ : Fin 128)) = upd (ix1 q) := by
  refine scatter_set_apply_of_hit _ x idx upd _ (ix1 q) ?_ ?_
  · rw [pad1_resultIdx? idx hz]
  · intro j hj
    rw [pad1_resultIdx? idx hz] at hj
    have e := Option.some.inj hj
    have e0 : (j 0).val = q.val := congrArg (fun i : S128.Idx => (i 0).val) e
    rw [eq_ix1 j]
    funext a
    match a with
    | ⟨0, _⟩ => exact Fin.ext e0

end Pad

/-- Before the third call: the second layer's weight matrices, zero-padded from 47 to 128 rows and transposed, read
    at one of the first 47 columns; and its bias, zero-padded and made a row, read there. -/
theorem W5_v52 (c : Dev nD) (k : Fin 128) (q : Fin 47) :
    W5 m ρ c main_v52 (ix2 k (⟨q.val, by omega⟩ : Fin 128)) = (m ((c : Thread nD τ).loc main_arg7)) (ix2 q k) := by
  -- The transpose reads the padded matrix at (q, k), inside the block: the weight matrix there. Nothing before writes it.
  have e : W5 m ρ c main_v52 = transpose S128x128 [1, 0]
      (Host.scatter scatter_S128x128_S1_S47x128_01_n_0_0 (fun _ b => b)
        (broadcastInDim S128x128 ![] bcast_S_S128x128 (constant (F := Ideal) S_ .f32 0x00000000#32))
        (broadcastInDim S1 ![] bcast_S_S1 (constantI S_ 32 0#32)) (W4 m ρ c main_arg7))
      transposes_S128x128_S128x128_1_0 := by
    show StableHlo.after hostOps2 (W4 m ρ c) (Proc.devRef .tc main_v52) = _
    after_results_simp
  have ea : W4 m ρ c main_arg7 = m ((c : Thread nD τ).loc main_arg7) :=
    calc W4 m ρ c (Proc.devRef .tc main_arg7)
      _ = W3 m ρ c (Proc.devRef .tc main_arg7) := W4_of_ne m ρ c main_arg7 (by decide)
      _ = W2 m ρ c (Proc.devRef .tc main_arg7) := StableHlo.after_of_writes_sub hostOps1 _ hostOps1_writes (by decide)
      _ = W1 m ρ c (Proc.devRef .tc main_arg7) := W2_of_ne m ρ c main_arg7 (by decide)
      _ = W0 m ρ c (Proc.devRef .tc main_arg7) := StableHlo.after_of_writes_sub hostOps0 _ hostOps0_writes (by decide)
      _ = m ((c : Thread nD τ).loc main_arg7) := rfl
  refine (congrFun e _).trans ?_
  refine (transpose_ix2_apply _ _ k (⟨q.val, by omega⟩ : Fin 128)).trans ?_
  rw [ea]
  exact pad2_apply _ _ (fun _ => rfl) _ q k
theorem W5_v53 (c : Dev nD) (k : Fin 128) (q : Fin 47) :
    W5 m ρ c main_v53 (ix2 k (⟨q.val, by omega⟩ : Fin 128)) = (m ((c : Thread nD τ).loc main_arg9)) (ix2 q k) := by
  -- The transpose reads the padded matrix at (q, k), inside the block: the weight matrix there. Nothing before writes it.
  have e : W5 m ρ c main_v53 = transpose S128x128 [1, 0]
      (Host.scatter scatter_S128x128_S1_S47x128_01_n_0_0 (fun _ b => b)
        (broadcastInDim S128x128 ![] bcast_S_S128x128 (constant (F := Ideal) S_ .f32 0x00000000#32))
        (broadcastInDim S1 ![] bcast_S_S1 (constantI S_ 32 0#32)) (W4 m ρ c main_arg9))
      transposes_S128x128_S128x128_1_0 := by
    show StableHlo.after hostOps2 (W4 m ρ c) (Proc.devRef .tc main_v53) = _
    after_results_simp
  have ea : W4 m ρ c main_arg9 = m ((c : Thread nD τ).loc main_arg9) :=
    calc W4 m ρ c (Proc.devRef .tc main_arg9)
      _ = W3 m ρ c (Proc.devRef .tc main_arg9) := W4_of_ne m ρ c main_arg9 (by decide)
      _ = W2 m ρ c (Proc.devRef .tc main_arg9) := StableHlo.after_of_writes_sub hostOps1 _ hostOps1_writes (by decide)
      _ = W1 m ρ c (Proc.devRef .tc main_arg9) := W2_of_ne m ρ c main_arg9 (by decide)
      _ = W0 m ρ c (Proc.devRef .tc main_arg9) := StableHlo.after_of_writes_sub hostOps0 _ hostOps0_writes (by decide)
      _ = m ((c : Thread nD τ).loc main_arg9) := rfl
  refine (congrFun e _).trans ?_
  refine (transpose_ix2_apply _ _ k (⟨q.val, by omega⟩ : Fin 128)).trans ?_
  rw [ea]
  exact pad2_apply _ _ (fun _ => rfl) _ q k
theorem W5_v51 (c : Dev nD) (q : Fin 47) :
    W5 m ρ c main_v51 (ix2 (0 : Fin 1) (⟨q.val, by omega⟩ : Fin 128)) = (m ((c : Thread nD τ).loc main_arg8)) (ix1 q) := by
  -- The padded bias vector read as a [1, 128] row at one of its first 47 places. Nothing before writes the bias.
  have e : W5 m ρ c main_v51 = shapeCast S1x128
      (Host.scatter scatter_S128_S1_S47_0_n_0_0 (fun _ b => b)
        (broadcastInDim S128 ![] bcast_S_S128 (constant (F := Ideal) S_ .f32 0x00000000#32))
        (broadcastInDim S1 ![] bcast_S_S1 (constantI S_ 32 0#32)) (W4 m ρ c main_arg8))
      shapeCasts_S128_S1x128 := by
    show StableHlo.after hostOps2 (W4 m ρ c) (Proc.devRef .tc main_v51) = _
    after_results_simp
    rfl
  have ea : W4 m ρ c main_arg8 = m ((c : Thread nD τ).loc main_arg8) :=
    calc W4 m ρ c (Proc.devRef .tc main_arg8)
      _ = W3 m ρ c (Proc.devRef .tc main_arg8) := W4_of_ne m ρ c main_arg8 (by decide)
      _ = W2 m ρ c (Proc.devRef .tc main_arg8) := StableHlo.after_of_writes_sub hostOps1 _ hostOps1_writes (by decide)
      _ = W1 m ρ c (Proc.devRef .tc main_arg8) := W2_of_ne m ρ c main_arg8 (by decide)
      _ = W0 m ρ c (Proc.devRef .tc main_arg8) := StableHlo.after_of_writes_sub hostOps0 _ hostOps0_writes (by decide)
      _ = m ((c : Thread nD τ).loc main_arg8) := rfl
  refine (congrFun e _).trans ?_
  refine (shapeCast_a_1a_apply _ _ (0 : Fin 1) (⟨q.val, by omega⟩ : Fin 128)).trans ?_
  rw [ea]
  exact pad1_apply _ _ (fun _ => rfl) _ q

/-- At the end: the first 47 columns of the third call's result. -/
theorem W7_v55 (c : Dev nD) (p : Fin 50000) (q : Fin 47) :
    W7 m ρ c main_v55 (ix2 p q) = W6 m ρ c main_v54 (ix2 p (⟨q.val, by omega⟩ : Fin 128)) := by
  -- A slice at offset (0, 0): entry (p, q) of the result is entry (p, q) of the operand.
  have e : W7 m ρ c main_v55 = extractStridedSlice S50000x47 ![0, 0] (W6 m ρ c main_v54) slices_S50000x128_S50000x47_0_0 := by
    show StableHlo.after hostOps3 (W6 m ρ c) (Proc.devRef .tc main_v55) = _
    after_results_simp
  refine (congrFun e (ix2 p q)).trans ?_
  exact extractStridedSlice_apply ![0, 0] _ slices_S50000x128_S50000x47_0_0 (ix2 p q) (ix2 p (⟨q.val, by omega⟩ : Fin 128))
    (fun a => match a with
      | ⟨0, _⟩ => by show p.val = 0 + p.val; omega
      | ⟨1, _⟩ => by show q.val = 0 + q.val; omega)

end Cert.KernelIdeal.HostK

end
-- ==== Proof.LibMatmul.lean ====
/-
  A matrix product of an [M, K] matrix by a [K, N] matrix into a zero accumulator, read at an entry at any sizes: entry
  (p, q) is the sum over k of the left operand's (p, k) entry times the right operand's (k, q) entry.
-/
import Idealize.ShloMosaic.PureOps.Ideal.Laws
import Idealize.ShloMosaic.Lib.ValueIdx

noncomputable section

namespace Cert.LibMatmul

open Idealize.ShloMosaic Idealize.ShloMosaic.ValueIdx

/-- The dimension numbers of the plain product — contract the left operand's axis 1 with the right operand's axis 0, no
    batch axes — under any proof of their conditions. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

theorem contr_rank : (plainDims M K N wf).contr.rank = 1 := rfl
theorem contr_size : (plainDims M K N wf).contr.size ⟨0, by rw [contr_rank]; exact Nat.one_pos⟩ = K := rfl

/-- The left operand's index at output (p, q) and contraction position k is (p, k). -/
theorem lhsIdx_eq (p : Fin M) (q : Fin N) (k : Fin K) :
    (plainDims M K N wf).lhsIdx (ix2 p q) ((contrEquiv1 (plainDims M K N wf) K (contr_rank wf) (contr_size wf)).symm k) = ix2 p k := by
  funext a
  apply Fin.ext
  match a with
  | ⟨0, _⟩ =>
    show ((plainDims M K N wf).lhsIdx (ix2 p q) _ (0 : Fin 2)).val = p.val
    unfold DotDims.lhsIdx
    simp
    rfl
  | ⟨1, _⟩ =>
    refine ((plainDims M K N wf).lhsIdx_val_of_single (cl := (1 : Fin 2)) rfl _ _).trans ?_
    exact contrEquiv1_symm_val _ K (contr_rank wf) (contr_size wf) k

/-- The right operand's index at output (p, q) and contraction position k is (k, q). -/
theorem rhsIdx_eq (p : Fin M) (q : Fin N) (k : Fin K) :
    (plainDims M K N wf).rhsIdx (ix2 p q) ((contrEquiv1 (plainDims M K N wf) K (contr_rank wf) (contr_size wf)).symm k) = ix2 k q := by
  funext a
  apply Fin.ext
  match a with
  | ⟨0, _⟩ =>
    refine ((plainDims M K N wf).rhsIdx_val_of_single (cr := (0 : Fin 2)) rfl _ _).trans ?_
    exact contrEquiv1_symm_val _ K (contr_rank wf) (contr_size wf) k
  | ⟨1, _⟩ =>
    show ((plainDims M K N wf).rhsIdx (ix2 p q) _ (1 : Fin 2)).val = q.val
    unfold DotDims.rhsIdx
    simp
    rfl

/-- THE PRODUCT READ AT (p, q): the sum over the contracted axis of the operands' entries multiplied. -/
theorem matmul_plain_apply {φ₁ φ₂ : FTy} (prec : Option ContractPrecision)
    (lhs : FVec Ideal ⟨2, ![M, K]⟩ φ₁) (rhs : FVec Ideal ⟨2, ![K, N]⟩ φ₂) (p : Fin M) (q : Fin N) :
    matmul (plainDims M K N wf) prec lhs rhs (constant ⟨2, ![M, N]⟩ .f32 0x00000000#32) (ix2 p q)
      = ∑ k : Fin K, lhs (ix2 p k) * rhs (ix2 k q) := by
  refine (Ideal.matmul_constant_zero_apply (plainDims M K N wf) prec lhs rhs (ix2 p q)).trans ?_
  rw [← Equiv.sum_comp (contrEquiv1 (plainDims M K N wf) K (contr_rank wf) (contr_size wf)).symm]
  refine Finset.sum_congr rfl fun k _ => ?_
  rw [lhsIdx_eq, rhsIdx_eq]

end Cert.LibMatmul

end
-- ==== Proof.KI.Pay.lean ====
import proofs.«120895_j33182917328949_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«120895_j33182917328949_1_alg».proof.Proof.LibMatmul

noncomputable section

namespace Cert.KernelIdeal.Pay

open Cert.KernelIdeal Cert.KernelIdeal.Gen
open Idealize.ShloMosaic Idealize.ShloMosaic.ValueIdx

/-- One entry of a 5000-row block of a linear layer: row `p` of the aggregated block against column `q` of
    one matrix, plus row `p` of the root block against column `q` of the other, plus the bias at `q`. -/
def lin (A X : Vec Ideal S5000x128 .f32) (Wl Wr : Vec Ideal S128x128 .f32) (b : Vec Ideal S1x128 .f32)
    (p : Fin 5000) (q : Fin 128) : EReal :=
  ((∑ k : Fin 128, A (ix2 p k) * Wl (ix2 k q)) + ∑ k : Fin 128, X (ix2 p k) * Wr (ix2 k q)) + b (ix2 (0 : Fin 1) q)

/-- The 5.0e4 literal. -/
abbrev C : EReal := Ideal.ofBits .f32 0x47435000#32
/-- The 1e-5 literal (as rounded to f32). -/
abbrev eps : EReal := Ideal.ofBits .f32 0x3727C5AC#32

/-- The source index of a column sum: over result index `q` with row coordinate `r` it is `(r, q)`. -/
theorem lift_col (h : Shape.Reduces S5000x128 [0] S128) (q : Fin 128) (r : Fin 5000) :
    h.lift (ix1 q) r = ix2 r q := by
  funext c
  apply Fin.ext
  match c with
  | ⟨0, _⟩ => rfl
  | ⟨1, _⟩ => rfl

/-- A column sum of a [5000, 128] block into a zero accumulator, read at column `q`: the sum over the rows. -/
theorem colsum_apply (src : FVec Ideal S5000x128 .f32) (q : Fin 128) :
    multiReduction (F := Ideal) .add [0] S128 src 0x00000000#32 reduces_S5000x128_S128 (.inl rfl) rfl (ix1 q)
      = ∑ r : Fin 5000, src (ix2 r q) := by
  refine (Ideal.multiReduction_add_single src 0x00000000#32 reduces_S5000x128_S128 (.inl rfl) rfl (ix1 q)).trans ?_
  exact Finset.sum_congr rfl fun r _ => congrArg src (lift_col reduces_S5000x128_S128 q r)

theorem pay6_apply (v3 v6 : Vec Ideal S5000x128 .f32) (v8 v11 : Vec Ideal S128x128 .f32) (v17 : Vec Ideal S1x128 .f32)
    (p : Fin 5000) (q : Fin 128) :
    k0_pay6 (F := Ideal) v3 v6 v8 v11 v17 (ix2 p q) = lin v3 v6 v8 v11 v17 p q := by
  -- The casts of a shape to itself and the narrowing to bf16 are the identity here; each product into a zero
  -- accumulator is the sum over the contracted axis, and the bias row is read at column q.
  unfold k0_pay6
  simp only [shapeCast_self]
  have hb := broadcastTo_1b_ab_apply v17 broadcasts_S1x128_S5000x128 p q
  have h1 := Cert.LibMatmul.matmul_plain_apply (dot_S5000x128_S128x128_S5000x128_1_0_0_1_n_n.wf) none
    (truncf (F := Ideal) .bf16 v3 bitsLt_bf16_f32) (truncf (F := Ideal) .bf16 v8 bitsLt_bf16_f32) p q
  have h2 := Cert.LibMatmul.matmul_plain_apply (dot_S5000x128_S128x128_S5000x128_1_0_0_1_n_n.wf) none
    (truncf (F := Ideal) .bf16 v6 bitsLt_bf16_f32) (truncf (F := Ideal) .bf16 v11 bitsLt_bf16_f32) p q
  unfold lin
  refine congrArg₂ (· + ·) (congrArg₂ (· + ·) ?_ ?_) hb
  · exact h1
  · exact h2

theorem proj_apply (v0 v3 : Vec Ideal S5000x128 .f32) (v6 v9 : Vec Ideal S128x128 .f32) (v15 : Vec Ideal S1x128 .f32)
    (p : Fin 5000) (q : Fin 128) :
    k2_pay1 (F := Ideal) v0 v3 v6 v9 v15 (ix2 p q) = lin v0 v3 v6 v9 v15 p q := by
  -- The same linear layer as above, on the other kernel's operands.
  unfold k2_pay1
  simp only [shapeCast_self]
  have hb := broadcastTo_1b_ab_apply v15 broadcasts_S1x128_S5000x128 p q
  have h1 := Cert.LibMatmul.matmul_plain_apply (dot_S5000x128_S128x128_S5000x128_1_0_0_1_n_n.wf) none
    (truncf (F := Ideal) .bf16 v0 bitsLt_bf16_f32) (truncf (F := Ideal) .bf16 v6 bitsLt_bf16_f32) p q
  have h2 := Cert.LibMatmul.matmul_plain_apply (dot_S5000x128_S128x128_S5000x128_1_0_0_1_n_n.wf) none
    (truncf (F := Ideal) .bf16 v3 bitsLt_bf16_f32) (truncf (F := Ideal) .bf16 v9 bitsLt_bf16_f32) p q
  unfold lin
  refine congrArg₂ (· + ·) (congrArg₂ (· + ·) ?_ ?_) hb
  · exact h1
  · exact h2

theorem pay7_apply (v3 v6 : Vec Ideal S5000x128 .f32) (v8 v11 : Vec Ideal S128x128 .f32) (v17 v22 : Vec Ideal S1x128 .f32)
    (q : Fin 128) :
    k0_pay7 (F := Ideal) v3 v6 v8 v11 v17 v22 (ix2 (0 : Fin 1) q)
      = v22 (ix2 (0 : Fin 1) q) + ∑ r : Fin 5000, lin v3 v6 v8 v11 v17 r q := by
  -- The running row plus the column sum of the layer's block, the [128] sum read as a [1, 128] row.
  unfold k0_pay7
  rw [shapeCast_self]
  show v22 (ix2 (0 : Fin 1) q) + shapeCast S1x128 _ shapeCasts_S128_S1x128 (ix2 (0 : Fin 1) q) = _
  rw [shapeCast_a_1a_apply, colsum_apply]
  exact congrArg (fun t => v22 (ix2 (0 : Fin 1) q) + t) (Finset.sum_congr rfl fun r _ => pay6_apply v3 v6 v8 v11 v17 r q)

theorem pay8_apply (v3 v6 : Vec Ideal S5000x128 .f32) (v8 v11 : Vec Ideal S128x128 .f32) (v17 : Vec Ideal S1x128 .f32)
    (q : Fin 128) :
    k0_pay8 (F := Ideal) v3 v6 v8 v11 v17 (ix1 q)
      = ∑ r : Fin 5000, lin v3 v6 v8 v11 v17 r q * lin v3 v6 v8 v11 v17 r q := by
  -- The column sum of the entrywise square of the layer's block.
  unfold k0_pay8
  refine (colsum_apply _ q).trans ?_
  refine Finset.sum_congr rfl fun r _ => ?_
  show k0_pay6 (F := Ideal) v3 v6 v8 v11 v17 (ix2 r q) * k0_pay6 (F := Ideal) v3 v6 v8 v11 v17 (ix2 r q) = _
  rw [pay6_apply]

theorem pay1_apply (v29 : Vec Ideal S1x128 .f32) (v31 : FVec Ideal S128 .f32) (q : Fin 128) :
    k0_pay1 (F := Ideal) v29 v31 (ix2 (0 : Fin 1) q) = v29 (ix2 (0 : Fin 1) q) + v31 (ix1 q) := by
  -- The running row plus the [128] vector read as a [1, 128] row.
  unfold k0_pay1
  rw [shapeCast_self]
  show v29 (ix2 (0 : Fin 1) q) + shapeCast S1x128 v31 shapeCasts_S128_S1x128 (ix2 (0 : Fin 1) q) = _
  exact congrArg (fun t => v29 (ix2 (0 : Fin 1) q) + t) (shapeCast_a_1a_apply v31 shapeCasts_S128_S1x128 (0 : Fin 1) q)

theorem pay2_apply (v40 : Vec Ideal S1x128 .f32) (q : Fin 128) :
    k0_pay2 (F := Ideal) v40 (ix2 (0 : Fin 1) q) = Ideal.div (v40 (ix2 (0 : Fin 1) q)) C := by
  -- A pointwise quotient by the splat of the literal.
  rfl

theorem pay3_apply (v40 v43 : Vec Ideal S1x128 .f32) (q : Fin 128) :
    k0_pay3 (F := Ideal) v40 v43 (ix2 (0 : Fin 1) q)
      = Ideal.div (v43 (ix2 (0 : Fin 1) q)) C - Ideal.div (v40 (ix2 (0 : Fin 1) q)) C * Ideal.div (v40 (ix2 (0 : Fin 1) q)) C := by
  -- Pointwise: the second moment less the square of the mean.
  rfl

theorem pay4_apply (q : Fin 128) : k0_pay4 (F := Ideal) (ix2 (0 : Fin 1) q) = 0 := by
  -- The splat of the zero word.
  unfold k0_pay4
  rw [shapeCast_self]
  exact Ideal.ofBits_zero_f32

theorem pay5_apply (q : Fin 128) : k0_pay5 (F := Ideal) (ix2 (0 : Fin 1) q) = 0 := by
  -- The splat of the zero word.
  unfold k0_pay5
  rw [shapeCast_self]
  exact Ideal.ofBits_zero_f32

theorem norm_apply (v0 : Vec Ideal S5000x128 .f32) (v2 v7 v13 v17 : Vec Ideal S1x128 .f32) (p : Fin 5000) (q : Fin 128) :
    k1_pay1 (F := Ideal) v0 v2 v7 v13 v17 (ix2 p q)
      = max ((v0 (ix2 p q) - v7 (ix2 (0 : Fin 1) q)) * Ideal.rsqrt (v2 (ix2 (0 : Fin 1) q) + eps) * v13 (ix2 (0 : Fin 1) q)
          + v17 (ix2 (0 : Fin 1) q)) 0 := by
  -- Each [1, 128] row is broadcast over the 5000 rows and read at column q; the rest is pointwise.
  unfold k1_pay1
  simp only [shapeCast_self]
  have h7 := broadcastTo_1b_ab_apply v7 broadcasts_S1x128_S5000x128 p q
  have h13 := broadcastTo_1b_ab_apply v13 broadcasts_S1x128_S5000x128 p q
  have h17 := broadcastTo_1b_ab_apply v17 broadcasts_S1x128_S5000x128 p q
  have h6 := broadcastTo_1b_ab_apply
    (rsqrt (F := Ideal) (addf (F := Ideal) v2 (broadcast S1x128 (Scalar.ofBits (F := Ideal) .f32 0x3727C5AC#32))))
    broadcasts_S1x128_S5000x128 p q
  show max (((v0 (ix2 p q) - _) * _) * _ + _) (Ideal.ofBits .f32 0x00000000#32) = _
  rw [h7, h6, h13, h17, Ideal.ofBits_zero_f32]
  rfl

end Cert.KernelIdeal.Pay

end
-- ==== Proof.KI.NormVal.lean ====
import proofs.«120895_j33182917328949_1_alg».proof.Proof.KI.Norm
import proofs.«120895_j33182917328949_1_alg».proof.Proof.KI.Pay
import Idealize.ShloMosaic.Lib.Pipeline.Value
import Idealize.ShloMosaic.Lib.ValueIdx

set_option maxRecDepth 16384

noncomputable section

namespace Cert.KernelIdeal.NormVal

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # The normalisation call's result array, as one function of the arrays it is entered with

Index by index: subtract the column's mean, multiply by the reciprocal square root of the column's variance plus
a small constant, scale, shift, and clamp below at zero. -/

variable (V : (c : Dev nD) → (b : Ref sig .tc) → Buf (Elt Ideal) ((c : Thread nD τ).loc b))

/-- The column of an index of a 50000×128 array, as a number below 128. -/
abbrev col (i : S50000x128.Idx) : Fin 128 := ⟨(i 1).val, idx2_lt1 i⟩

/-- Batch-norm with given statistics, then ReLU, entry by entry. -/
def G (h : S50000x128.Idx → EReal) (μ var γ β : S1x128.Idx → EReal) : S50000x128.Idx → EReal := fun i =>
  max ((h i - μ (ix2 (0 : Fin 1) (col i))) * Ideal.rsqrt (var (ix2 (0 : Fin 1) (col i)) + Pay.eps) * γ (ix2 (0 : Fin 1) (col i))
    + β (ix2 (0 : Fin 1) (col i))) 0

theorem hz : (![0, 0] : Fin 2 → Nat) = fun _ => 0 := funext fun a => by fin_cases a <;> rfl

/-- The block index maps, decided over the ten points: the pre-activation block and the result block move together
    down the rows; the four one-row operands stay at block (0, 0). -/
theorem idx_facts : ∀ t : Fin cfg1.N, win1_0.index t (0 : Fin 2) = win1_5.index t (0 : Fin 2)
    ∧ win1_0.index t (1 : Fin 2) = 0 ∧ win1_5.index t (1 : Fin 2) = 0
    ∧ win1_5.index t (0 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- WHAT POINT `t` WRITES BACK is block `t` of `G` of the arrays as the call finds them. -/
theorem flushed_eq (c : Dev nD) (t : Fin cfg1.N) :
    (Norm.dat V c).flushed 5 t = ((cfg1.win 5).blk t).view.read (Elt Ideal)
      (G (V c main_v26_0) (V c main_v26_1) (V c main_v26_2) (V c main_v27) (V c main_v28)) := by
  show (cfg1.win 5).cut (grid1.coords t) ((Norm.dat V c).after 5 t) = _
  rw [Norm.after_5]
  unfold Norm.out
  rw [View.canon_unit_zero hz]
  simp only [View.ld_unit_zero (S := S5000x128) hz, View.ld_unit_zero (S := S1x128) hz]
  obtain ⟨e0, e1, e2, e3, r10, r11, r20, r21, r30, r31, r40, r41⟩ := idx_facts t
  funext j
  obtain ⟨p, q, rfl⟩ : ∃ (p : Fin 5000) (q : Fin 128), j = ix2 p q := ⟨j 0, j 1, eq_ix2 j⟩
  refine (Pay.norm_apply _ _ _ _ _ p q).trans ?_
  have hb0 : Norm.blk V c 0 t (ix2 p q) = V c main_v26_0 (((cfg1.win 5).blk t).view.emb (ix2 p q)) := by
    show V c main_v26_0 (((cfg1.win 0).blk t).view.emb (ix2 p q)) = _
    refine congrArg _ ?_
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * q.val = win1_5.index t (1 : Fin 2) * 128 + 1 * q.val; omega
  have hcol : col (((cfg1.win 5).blk t).view.emb (ix2 p q)) = q := by
    apply Fin.ext; show win1_5.index t (1 : Fin 2) * 128 + 1 * q.val = q.val; omega
  have hb1 : Norm.blk V c 1 t (ix2 (0 : Fin 1) q) = V c main_v26_1 (ix2 (0 : Fin 1) q) := by
    show V c main_v26_1 (((cfg1.win 1).blk t).view.emb (ix2 (0 : Fin 1) q)) = _
    refine congrArg _ ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have hb2 : Norm.blk V c 2 t (ix2 (0 : Fin 1) q) = V c main_v26_2 (ix2 (0 : Fin 1) q) := by
    show V c main_v26_2 (((cfg1.win 2).blk t).view.emb (ix2 (0 : Fin 1) q)) = _
    refine congrArg _ ?_
    funext a; apply Fin.ext
    match a with
    | ⟨0, _⟩ => show win1_2.index t (0 : Fin 2) * 1 + 1 * 0 = 0; omega
    | ⟨1, _⟩ => show win1_2.index t (1 : Fin 2) * 128 + 1 * q.val = q.val; omega
  have hb3 : Norm.blk V c 3 t (ix2 (0 : Fin 1) q) = V c main_v27 (ix2 (0 : Fin 1) q) := by
    show V c main_v27 (((cfg1.win 3).blk t).view.emb (ix2 (0 : Fin 1) q)) = _
    refine congrArg _ ?_
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have hb4 : Norm.blk V c 4 t (ix2 (0 : Fin 1) q) = V c main_v28 (ix2 (0 : Fin 1) q) := by
    show V c main_v28 (((cfg1.win 4).blk t).view.emb (ix2 (0 : Fin 1) q)) = _
    refine congrArg _ ?_
    funext a; apply Fin.ext
    match a with
    | ⟨0, _⟩ => show win1_4.index t (0 : Fin 2) * 1 + 1 * 0 = 0; omega
    | ⟨1, _⟩ => show win1_4.index t (1 : Fin 2) * 128 + 1 * q.val = q.val; omega
  show _ = G (V c main_v26_0) (V c main_v26_1) (V c main_v26_2) (V c main_v27) (V c main_v28) (((cfg1.win 5).blk t).view.emb (ix2 p q))
  unfold G
  rw [hb0, hb1, hb2, hb3, hb4, hcol]

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- Every index is in some point's block: row `r` is in block `r / 5000`. -/
theorem covered (i : S50000x128.Idx) : ∃ t : Fin cfg1.N, (cfg1.win 5).flush t = true ∧ i ∈ ((cfg1.win 5).blk t).view.set := by
  have hi0 : (i 0).val < 50000 := idx2_lt0 i
  have hi1 : (i 1).val < 128 := idx2_lt1 i
  have hN : cfg1.N = 10 := N_1
  let t : Fin cfg1.N := ⟨(i 0).val / 5000, by rw [hN]; omega⟩
  obtain ⟨e0, e1, e2, e3, -⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e3]; show (i 0).val / 5000 * 5000 ≤ (i 0).val ∧ (i 0).val < (i 0).val / 5000 * 5000 + 5000; omega
  | ⟨1, _⟩ => show win1_5.index t (1 : Fin 2) * 128 ≤ (i 1).val ∧ (i 1).val < win1_5.index t (1 : Fin 2) * 128 + 128; omega

/-- THE ARRAY after the call: `G` of the arrays it was entered with. -/
theorem final (c : Dev nD) : (Norm.dat V c).arrAt 5 cfg1.N
    = G (V c main_v26_0) (V c main_v26_1) (V c main_v26_2) (V c main_v27) (V c main_v28) :=
  (Norm.dat V c).arrAt_eq_of_cover 5 _ (fun t _ => flushed_eq V c t) covered

end Cert.KernelIdeal.NormVal

end
-- ==== Proof.KI.ProjVal.lean ====
import proofs.«120895_j33182917328949_1_alg».proof.Proof.KI.Proj
import proofs.«120895_j33182917328949_1_alg».proof.Proof.KI.Pay
import Idealize.ShloMosaic.Lib.Pipeline.Value
import Idealize.ShloMosaic.Lib.ValueIdx

set_option maxRecDepth 16384

noncomputable section

namespace Cert.KernelIdeal.ProjVal

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # The second linear layer's result array, as one function of the arrays the call is entered with -/

variable (V : (c : Dev nD) → (b : Ref sig .tc) → Buf (Elt Ideal) ((c : Thread nD τ).loc b))

/-- The row and the column of an index of a 50000×128 array, as numbers below the extents. -/
abbrev row (i : S50000x128.Idx) : Fin 50000 := ⟨(i 0).val, idx2_lt0 i⟩
abbrev col (i : S50000x128.Idx) : Fin 128 := ⟨(i 1).val, idx2_lt1 i⟩

/-- A linear layer entry by entry: row of `A` against column of `Wl`, plus row of `X` against column of `Wr`,
    plus the bias at the column. -/
def G (A X : S50000x128.Idx → EReal) (Wl Wr : S128x128.Idx → EReal) (b : S1x128.Idx → EReal) : S50000x128.Idx → EReal := fun i =>
  ((∑ k : Fin 128, A (ix2 (row i) k) * Wl (ix2 k (col i))) + ∑ k : Fin 128, X (ix2 (row i) k) * Wr (ix2 k (col i)))
    + b (ix2 (0 : Fin 1) (col i))

theorem hz : (![0, 0] : Fin 2 → Nat) = fun _ => 0 := funext fun a => by fin_cases a <;> rfl

/-- The block index maps, decided over the ten points: the two row blocks and the result block move together down
    the rows; the two matrices and the bias row stay at block (0, 0). -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_5.index t (1 : Fin 2) = 0
    ∧ win2_5.index t (0 : Fin 2) = t.val
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- WHAT POINT `t` WRITES BACK is block `t` of `G` of the arrays as the call finds them. -/
theorem flushed_eq (c : Dev nD) (t : Fin cfg2.N) :
    (Proj.dat V c).flushed 5 t = ((cfg2.win 5).blk t).view.read (Elt Ideal)
      (G (V c main_v41) (V c main_v29) (V c main_v52) (V c main_v53) (V c main_v51)) := by
  show (cfg2.win 5).cut (grid2.coords t) ((Proj.dat V c).after 5 t) = _
  rw [Proj.after_5]
  unfold Proj.out
  rw [View.canon_unit_zero hz]
  simp only [View.ld_unit_zero (S := S5000x128) hz, View.ld_unit_zero (S := S1x128) hz, View.ld_unit_zero (S := S128x128) hz]
  obtain ⟨e0, e1, e2, e3, e4, e5, r20, r21, r30, r31, r40, r41⟩ := idx_facts t
  funext j
  obtain ⟨p, q, rfl⟩ : ∃ (p : Fin 5000) (q : Fin 128), j = ix2 p q := ⟨j 0, j 1, eq_ix2 j⟩
  refine (Pay.proj_apply _ _ _ _ _ p q).trans ?_
  have hcol : col (((cfg2.win 5).blk t).view.emb (ix2 p q)) = q := by
    apply Fin.ext; show win2_5.index t (1 : Fin 2) * 128 + 1 * q.val = q.val; omega
  have hb0 : ∀ k : Fin 128, Proj.blk V c 0 t (ix2 p k) = V c main_v41 (ix2 (row (((cfg2.win 5).blk t).view.emb (ix2 p q))) k) := by
    intro k
    show V c main_v41 (((cfg2.win 0).blk t).view.emb (ix2 p k)) = _
    refine congrArg _ ?_
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have hb1 : ∀ k : Fin 128, Proj.blk V c 1 t (ix2 p k) = V c main_v29 (ix2 (row (((cfg2.win 5).blk t).view.emb (ix2 p q))) k) := by
    intro k
    show V c main_v29 (((cfg2.win 1).blk t).view.emb (ix2 p k)) = _
    refine congrArg _ ?_
    funext a; apply Fin.ext
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  have hb2 : ∀ k : Fin 128, Proj.blk V c 2 t (ix2 k q) = V c main_v52 (ix2 k q) := by
    intro k
    show V c main_v52 (((cfg2.win 2).blk t).view.emb (ix2 k q)) = _
    refine congrArg _ ?_
    funext a; apply Fin.ext
    match a with
    | ⟨0, _⟩ => show win2_2.index t (0 : Fin 2) * 128 + 1 * k.val = k.val; omega
    | ⟨1, _⟩ => show win2_2.index t (1 : Fin 2) * 128 + 1 * q.val = q.val; omega
  have hb3 : ∀ k : Fin 128, Proj.blk V c 3 t (ix2 k q) = V c main_v53 (ix2 k q) := by
    intro k
    show V c main_v53 (((cfg2.win 3).blk t).view.emb (ix2 k q)) = _
    refine congrArg _ ?_
    funext a; apply Fin.ext
    match a with
    | ⟨0, _⟩ => show win2_3.index t (0 : Fin 2) * 128 + 1 * k.val = k.val; omega
    | ⟨1, _⟩ => show win2_3.index t (1 : Fin 2) * 128 + 1 * q.val = q.val; omega
  have hb4 : Proj.blk V c 4 t (ix2 (0 : Fin 1) q) = V c main_v51 (ix2 (0 : Fin 1) q) := by
    show V c main_v51 (((cfg2.win 4).blk t).view.emb (ix2 (0 : Fin 1) q)) = _
    refine congrArg _ ?_
    funext a; apply Fin.ext
    match a with
    | ⟨0, _⟩ => show win2_4.index t (0 : Fin 2) * 1 + 1 * 0 = 0; omega
    | ⟨1, _⟩ => show win2_4.index t (1 : Fin 2) * 128 + 1 * q.val = q.val; omega
  show _ = G (V c main_v41) (V c main_v29) (V c main_v52) (V c main_v53) (V c main_v51) (((cfg2.win 5).blk t).view.emb (ix2 p q))
  unfold G Pay.lin
  simp only [hb0, hb1, hb2, hb3, hb4, hcol]

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v54).slice (win2_5.rect t)).set ↔ _
  rw [View.set_slice_whole, Rect.mem_set_unit]
  exact Iff.rfl

/-- Every index is in some point's block: row `r` is in block `r / 5000`. -/
theorem covered (i : S50000x128.Idx) : ∃ t : Fin cfg2.N, (cfg2.win 5).flush t = true ∧ i ∈ ((cfg2.win 5).blk t).view.set := by
  have hi0 : (i 0).val < 50000 := idx2_lt0 i
  have hi1 : (i 1).val < 128 := idx2_lt1 i
  have hN : cfg2.N = 10 := N_2
  let t : Fin cfg2.N := ⟨(i 0).val / 5000, by rw [hN]; omega⟩
  obtain ⟨e0, e1, e2, e3, e4, e5, -⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; rw [e5]; show (i 0).val / 5000 * 5000 ≤ (i 0).val ∧ (i 0).val < (i 0).val / 5000 * 5000 + 5000; omega
  | ⟨1, _⟩ => show win2_5.index t (1 : Fin 2) * 128 ≤ (i 1).val ∧ (i 1).val < win2_5.index t (1 : Fin 2) * 128 + 128; omega

/-- THE ARRAY after the call: `G` of the arrays it was entered with. -/
theorem final (c : Dev nD) : (Proj.dat V c).arrAt 5 cfg2.N
    = G (V c main_v41) (V c main_v29) (V c main_v52) (V c main_v53) (V c main_v51) :=
  (Proj.dat V c).arrAt_eq_of_cover 5 _ (fun t _ => flushed_eq V c t) covered

end Cert.KernelIdeal.ProjVal

end
-- ==== Proof.KI.StatsPieces.lean ====
import proofs.«120895_j33182917328949_1_alg».proof.Proof.Gen.KernelIdeal.Launch
import proofs.«120895_j33182917328949_1_alg».proof.Proof.Gen.KernelIdeal.Skeleton
import proofs.«120895_j33182917328949_1_alg».proof.Proof.Gen.KernelIdeal.Points
import proofs.«120895_j33182917328949_1_alg».proof.Proof.KI.StatsData
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call: what each kind of block leaves, as the body's arithmetic

Each buffer's contents after a block — found by running the body — is the body's stored value computed from what
the block loaded: the pre-activation block from the five input blocks; the running column sums from the previous
sums (zero at the first block) plus this block's; likewise the running sums of squares; at the last block the
mean and the variance rows from the two final sums. -/

theorem hz0 : (![0, 0] : Fin 2 → Nat) = fun _ => 0 := funext fun a => by fin_cases a <;> rfl

theorem preFirst_eq (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) :
    preFirst c i arg1 harg1 arg2 harg2 arg3 harg3 arg4 harg4 arg5 harg5 arg6 harg6 arg7 harg7 arg8 harg8 arg9 harg9 arg10 harg10 hc0 hc1 x0 x1 x2 x3 x4 = k0_pay6 x0 x1 x2 x3 x4 := by
  unfold preFirst
  rw [View.read_writes_eq_canon _ _ _ (preFirst_cover c i arg1 harg1 arg2 harg2 arg3 harg3 arg4 harg4 arg5 harg5 arg6 harg6 arg7 harg7 arg8 harg8 arg9 harg9 arg10 harg10 hc0 hc1 x0 x1 x2 x3 x4)]
  unfold runFirst
  dsimp only
  try sl_unfold_run_names
  rw [View.canon_cons_unit_zero hz0]
  simp only [View.readAt_eq_ld, harg1.read_unread, harg2.read_unread, harg3.read_unread, harg4.read_unread, harg5.read_unread,
    harg9.read_unread, harg10.read_unread, View.ld_unit_zero (S := S5000x128) hz0, View.ld_unit_zero (S := S128x128) hz0,
    View.ld_unit_zero (S := S1x128) hz0, View.readCov_unit_zero (S := S1x128) _ hz0]

theorem sumFirst_eq (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) :
    sumFirst c i arg1 harg1 arg2 harg2 arg3 harg3 arg4 harg4 arg5 harg5 arg6 harg6 arg7 harg7 arg8 harg8 arg9 harg9 arg10 harg10 hc0 hc1 x0 x1 x2 x3 x4 = k0_pay7 x0 x1 x2 x3 x4 (k0_pay4 (F := F)) := by
  unfold sumFirst
  rw [View.read_writes_eq_canon _ _ _ (sumFirst_cover c i arg1 harg1 arg2 harg2 arg3 harg3 arg4 harg4 arg5 harg5 arg6 harg6 arg7 harg7 arg8 harg8 arg9 harg9 arg10 harg10 hc0 hc1 x0 x1 x2 x3 x4)]
  unfold runFirst
  dsimp only
  try sl_unfold_run_names
  rw [View.canon_cons_unit_zero hz0]
  simp only [View.readAt_eq_ld, harg1.read_unread, harg2.read_unread, harg3.read_unread, harg4.read_unread, harg5.read_unread,
    harg9.read_unread, harg10.read_unread, View.ld_unit_zero (S := S5000x128) hz0, View.ld_unit_zero (S := S128x128) hz0,
    View.ld_unit_zero (S := S1x128) hz0, View.readCov_unit_zero (S := S1x128) _ hz0]

theorem sqFirst_eq (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : first i) (hc1 : ¬last i)
    (x0 x1 : Vec F S5000x128 .f32) (x2 x3 : Vec F S128x128 .f32) (x4 : Vec F S1x128 .f32) :
    sqFirst c i arg1 harg1 arg2 harg2 arg3 harg3 arg4 harg4 arg5 harg5 arg6 harg6 arg7 harg7 arg8 harg8 arg9 harg9 arg10 harg10 hc0 hc1 x0 x1 x2 x3 x4 = k0_pay1 (k0_pay5 (F := F)) (k0_pay8 x0 x1 x2 x3 x4) := by
  unfold sqFirst
  rw [View.read_writes_eq_canon _ _ _ (sqFirst_cover c i arg1 harg1 arg2 harg2 arg3 harg3 arg4 harg4 arg5 harg5 arg6 harg6 arg7 harg7 arg8 harg8 arg9 harg9 arg10 harg10 hc0 hc1 x0 x1 x2 x3 x4)]
  unfold runFirst
  dsimp only
  try sl_unfold_run_names
  rw [View.canon_cons_unit_zero hz0]
  simp only [View.readAt_eq_ld, harg1.read_unread, harg2.read_unread, harg3.read_unread, harg4.read_unread, harg5.read_unread,
    harg9.read_unread, harg10.read_unread, View.ld_unit_zero (S := S5000x128) hz0, View.ld_unit_zero (S := S128x128) hz0,
    View.ld_unit_zero (S := S1x128) hz0, View.readCov_unit_zero (S := S1x128) _ hz0]

theorem preMid_eq (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) :
    preMid c i arg1 harg1 arg2 harg2 arg3 harg3 arg4 harg4 arg5 harg5 arg6 harg6 arg7 harg7 arg8 harg8 arg9 harg9 arg10 harg10 hc0 hc1 x0 x1 x2 x3 x4 xs xq = k0_pay6 x0 x1 x2 x3 x4 := by
  unfold preMid
  rw [View.read_writes_eq_canon _ _ _ (preMid_cover c i arg1 harg1 arg2 harg2 arg3 harg3 arg4 harg4 arg5 harg5 arg6 harg6 arg7 harg7 arg8 harg8 arg9 harg9 arg10 harg10 hc0 hc1 x0 x1 x2 x3 x4 xs xq)]
  unfold runMid
  dsimp only
  try sl_unfold_run_names
  rw [View.canon_cons_unit_zero hz0]
  simp only [View.readAt_eq_ld, harg1.read_unread, harg2.read_unread, harg3.read_unread, harg4.read_unread, harg5.read_unread,
    harg9.read_unread, harg10.read_unread, View.ld_unit_zero (S := S5000x128) hz0, View.ld_unit_zero (S := S128x128) hz0,
    View.ld_unit_zero (S := S1x128) hz0, View.readCov_unit_zero (S := S1x128) _ hz0]

theorem sumMid_eq (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) :
    sumMid c i arg1 harg1 arg2 harg2 arg3 harg3 arg4 harg4 arg5 harg5 arg6 harg6 arg7 harg7 arg8 harg8 arg9 harg9 arg10 harg10 hc0 hc1 x0 x1 x2 x3 x4 xs xq = k0_pay7 x0 x1 x2 x3 x4 xs := by
  unfold sumMid
  rw [View.read_writes_eq_canon _ _ _ (sumMid_cover c i arg1 harg1 arg2 harg2 arg3 harg3 arg4 harg4 arg5 harg5 arg6 harg6 arg7 harg7 arg8 harg8 arg9 harg9 arg10 harg10 hc0 hc1 x0 x1 x2 x3 x4 xs xq)]
  unfold runMid
  dsimp only
  try sl_unfold_run_names
  rw [View.canon_cons_unit_zero hz0]
  simp only [View.readAt_eq_ld, harg1.read_unread, harg2.read_unread, harg3.read_unread, harg4.read_unread, harg5.read_unread,
    harg9.read_unread, harg10.read_unread, View.ld_unit_zero (S := S5000x128) hz0, View.ld_unit_zero (S := S128x128) hz0,
    View.ld_unit_zero (S := S1x128) hz0, View.readCov_unit_zero (S := S1x128) _ hz0]

theorem sqMid_eq (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : ¬last i)
    (x0 x1 : Vec F S5000x128 .f32) (x2 x3 : Vec F S128x128 .f32) (x4 : Vec F S1x128 .f32) (xs xq : Vec F S1x128 .f32) :
    sqMid c i arg1 harg1 arg2 harg2 arg3 harg3 arg4 harg4 arg5 harg5 arg6 harg6 arg7 harg7 arg8 harg8 arg9 harg9 arg10 harg10 hc0 hc1 x0 x1 x2 x3 x4 xs xq = k0_pay1 xq (k0_pay8 x0 x1 x2 x3 x4) := by
  unfold sqMid
  rw [View.read_writes_eq_canon _ _ _ (sqMid_cover c i arg1 harg1 arg2 harg2 arg3 harg3 arg4 harg4 arg5 harg5 arg6 harg6 arg7 harg7 arg8 harg8 arg9 harg9 arg10 harg10 hc0 hc1 x0 x1 x2 x3 x4 xs xq)]
  unfold runMid
  dsimp only
  try sl_unfold_run_names
  rw [View.canon_cons_unit_zero hz0]
  simp only [View.readAt_eq_ld, harg1.read_unread, harg2.read_unread, harg3.read_unread, harg4.read_unread, harg5.read_unread,
    harg9.read_unread, harg10.read_unread, View.ld_unit_zero (S := S5000x128) hz0, View.ld_unit_zero (S := S128x128) hz0,
    View.ld_unit_zero (S := S1x128) hz0, View.readCov_unit_zero (S := S1x128) _ hz0]

theorem preLast_eq (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) :
    preLast c i arg1 harg1 arg2 harg2 arg3 harg3 arg4 harg4 arg5 harg5 arg6 harg6 arg7 harg7 arg8 harg8 arg9 harg9 arg10 harg10 hc0 hc1 x0 x1 x2 x3 x4 xs xq = k0_pay6 x0 x1 x2 x3 x4 := by
  unfold preLast
  rw [View.read_writes_eq_canon _ _ _ (preLast_cover c i arg1 harg1 arg2 harg2 arg3 harg3 arg4 harg4 arg5 harg5 arg6 harg6 arg7 harg7 arg8 harg8 arg9 harg9 arg10 harg10 hc0 hc1 x0 x1 x2 x3 x4 xs xq)]
  unfold runLast
  dsimp only
  try sl_unfold_run_names
  rw [View.canon_cons_unit_zero hz0]
  simp only [View.readAt_eq_ld, harg1.read_unread, harg2.read_unread, harg3.read_unread, harg4.read_unread, harg5.read_unread,
    harg9.read_unread, harg10.read_unread, View.ld_unit_zero (S := S5000x128) hz0, View.ld_unit_zero (S := S128x128) hz0,
    View.ld_unit_zero (S := S1x128) hz0, View.readCov_unit_zero (S := S1x128) _ hz0]

theorem sumLast_eq (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) :
    sumLast c i arg1 harg1 arg2 harg2 arg3 harg3 arg4 harg4 arg5 harg5 arg6 harg6 arg7 harg7 arg8 harg8 arg9 harg9 arg10 harg10 hc0 hc1 x0 x1 x2 x3 x4 xs xq = k0_pay7 x0 x1 x2 x3 x4 xs := by
  unfold sumLast
  rw [View.read_writes_eq_canon _ _ _ (sumLast_cover c i arg1 harg1 arg2 harg2 arg3 harg3 arg4 harg4 arg5 harg5 arg6 harg6 arg7 harg7 arg8 harg8 arg9 harg9 arg10 harg10 hc0 hc1 x0 x1 x2 x3 x4 xs xq)]
  unfold runLast
  dsimp only
  try sl_unfold_run_names
  rw [View.canon_cons_unit_zero hz0]
  simp only [View.readAt_eq_ld, harg1.read_unread, harg2.read_unread, harg3.read_unread, harg4.read_unread, harg5.read_unread,
    harg9.read_unread, harg10.read_unread, View.ld_unit_zero (S := S5000x128) hz0, View.ld_unit_zero (S := S128x128) hz0,
    View.ld_unit_zero (S := S1x128) hz0, View.readCov_unit_zero (S := S1x128) _ hz0]

theorem sqLast_eq (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) :
    sqLast c i arg1 harg1 arg2 harg2 arg3 harg3 arg4 harg4 arg5 harg5 arg6 harg6 arg7 harg7 arg8 harg8 arg9 harg9 arg10 harg10 hc0 hc1 x0 x1 x2 x3 x4 xs xq = k0_pay1 xq (k0_pay8 x0 x1 x2 x3 x4) := by
  unfold sqLast
  rw [View.read_writes_eq_canon _ _ _ (sqLast_cover c i arg1 harg1 arg2 harg2 arg3 harg3 arg4 harg4 arg5 harg5 arg6 harg6 arg7 harg7 arg8 harg8 arg9 harg9 arg10 harg10 hc0 hc1 x0 x1 x2 x3 x4 xs xq)]
  unfold runLast
  dsimp only
  try sl_unfold_run_names
  rw [View.canon_cons_unit_zero hz0]
  simp only [View.readAt_eq_ld, harg1.read_unread, harg2.read_unread, harg3.read_unread, harg4.read_unread, harg5.read_unread,
    harg9.read_unread, harg10.read_unread, View.ld_unit_zero (S := S5000x128) hz0, View.ld_unit_zero (S := S128x128) hz0,
    View.ld_unit_zero (S := S1x128) hz0, View.readCov_unit_zero (S := S1x128) _ hz0]

theorem meanLast_eq (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) :
    meanLast c i arg1 harg1 arg2 harg2 arg3 harg3 arg4 harg4 arg5 harg5 arg6 harg6 arg7 harg7 arg8 harg8 arg9 harg9 arg10 harg10 hc0 hc1 x0 x1 x2 x3 x4 xs xq = k0_pay2 (k0_pay7 x0 x1 x2 x3 x4 xs) := by
  unfold meanLast
  rw [View.read_writes_eq_canon _ _ _ (meanLast_cover c i arg1 harg1 arg2 harg2 arg3 harg3 arg4 harg4 arg5 harg5 arg6 harg6 arg7 harg7 arg8 harg8 arg9 harg9 arg10 harg10 hc0 hc1 x0 x1 x2 x3 x4 xs xq)]
  unfold runLast
  dsimp only
  try sl_unfold_run_names
  rw [View.canon_cons_unit_zero hz0]
  simp only [View.readAt_eq_ld, harg1.read_unread, harg2.read_unread, harg3.read_unread, harg4.read_unread, harg5.read_unread,
    harg9.read_unread, harg10.read_unread, View.ld_unit_zero (S := S5000x128) hz0, View.ld_unit_zero (S := S128x128) hz0,
    View.ld_unit_zero (S := S1x128) hz0, View.readCov_unit_zero (S := S1x128) _ hz0]

theorem varLast_eq (c : Dev nD) (i : grid0.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole) (hc0 : ¬first i) (hc1 : last i)
    (x0 x1 : Vec F S5000x128 .f32) (x2 x3 : Vec F S128x128 .f32) (x4 : Vec F S1x128 .f32) (xs xq : Vec F S1x128 .f32) :
    varLast c i arg1 harg1 arg2 harg2 arg3 harg3 arg4 harg4 arg5 harg5 arg6 harg6 arg7 harg7 arg8 harg8 arg9 harg9 arg10 harg10 hc0 hc1 x0 x1 x2 x3 x4 xs xq = k0_pay3 (k0_pay7 x0 x1 x2 x3 x4 xs) (k0_pay1 xq (k0_pay8 x0 x1 x2 x3 x4)) := by
  unfold varLast
  rw [View.read_writes_eq_canon _ _ _ (varLast_cover c i arg1 harg1 arg2 harg2 arg3 harg3 arg4 harg4 arg5 harg5 arg6 harg6 arg7 harg7 arg8 harg8 arg9 harg9 arg10 harg10 hc0 hc1 x0 x1 x2 x3 x4 xs xq)]
  unfold runLast
  dsimp only
  try sl_unfold_run_names
  rw [View.canon_cons_unit_zero hz0]
  simp only [View.readAt_eq_ld, harg1.read_unread, harg2.read_unread, harg3.read_unread, harg4.read_unread, harg5.read_unread,
    harg9.read_unread, harg10.read_unread, View.ld_unit_zero (S := S5000x128) hz0, View.ld_unit_zero (S := S128x128) hz0,
    View.ld_unit_zero (S := S1x128) hz0, View.readCov_unit_zero (S := S1x128) _ hz0]

end Cert.KernelIdeal.Stats

end
-- ==== Proof.LibErealLaws.lean ====
/- General laws of the extended reals `[-∞, +∞]` and of finite sums, stated over the
   idealized float operations (`Ideal.div`, `Ideal.sqrt`, `Ideal.rsqrt`, `Ideal.ofBits`). Nothing here
   mentions a program: the laws are about extended reals, finite index types and additive commutative
   monoids only.

   Contents:
   * a product with a reciprocal square root is a quotient by the square root, for a positive argument
     (at `+∞` both sides are `0`);
   * a square is nonnegative at every extended real (`(-∞)·(-∞) = +∞`), hence so is a sum of squares;
   * the float words `0x43000000` and `0x3727C5AC` denote the reals `128` and `10995116 · 2⁻⁴⁰`
     (about `1e-5`), both positive; dividing a nonnegative extended real by a positive real keeps it
     nonnegative, adding a positive real to it makes it positive;
   * a sum over `Fin (A * B)` is a sum over `A` blocks of `B` consecutive indices, and the same on
     three levels;
   * a running total defined by a recurrence is the sum over an initial segment, and a sum over
     `Finset.range N` is the sum over `Fin N`. -/
import Idealize.ShloMosaic.PureOps.Ideal
import Mathlib.Algebra.BigOperators.Fin
import Mathlib.Algebra.Order.BigOperators.Group.Finset

noncomputable section

namespace Cert.LibErealLaws

open Idealize.ShloMosaic
open scoped BigOperators

/-! ### Reciprocal square root -/

/-- For `0 < v` in the extended reals, `a · (1/√v) = a / √v`. At `v = +∞` the reciprocal square root
    is `0` and the square root is `+∞`, whose inverse is `0`: both sides are `a · 0 = 0`. At a positive
    real `r` the square root `√r` is a nonzero real, division by it is the product with its inverse,
    and the inverse of a real in the extended reals is the real inverse. -/
theorem mul_rsqrt_eq_div_sqrt {a v : EReal} (hv : 0 < v) :
    a * Ideal.rsqrt v = Ideal.div a (Ideal.sqrt v) := by
  induction v using EReal.rec with
  | bot => exact absurd hv (not_lt.mpr bot_le)
  | top =>
    rw [Ideal.rsqrt_top, Ideal.sqrt_top, Ideal.div, if_neg EReal.top_ne_zero, EReal.inv_top]
  | coe r =>
    have hr : 0 < r := by exact_mod_cast hv
    have hs : Real.sqrt r ≠ 0 := (Real.sqrt_pos.mpr hr).ne'
    have hs' : ((Real.sqrt r : ℝ) : EReal) ≠ 0 := by exact_mod_cast hs
    rw [Ideal.rsqrt_coe, if_neg (not_lt.mpr hr.le), if_neg hr.ne', Ideal.sqrt_coe,
      if_neg (not_lt.mpr hr.le), Ideal.div, if_neg hs', EReal.coe_inv]

/-! ### Squares and sums of squares -/

/-- A square is nonnegative at every extended real: `(+∞)² = (-∞)² = +∞`, and a real square is
    nonnegative. (Both factors are on the same side of `0`.) -/
theorem mul_self_nonneg (x : EReal) : 0 ≤ x * x :=
  EReal.mul_nonneg_iff.mpr ((le_total 0 x).imp (fun h => ⟨h, h⟩) (fun h => ⟨h, h⟩))

/-- A finite sum of squares of extended reals is nonnegative. -/
theorem sum_mul_self_nonneg {ι : Type*} (s : Finset ι) (g : ι → EReal) :
    0 ≤ ∑ i ∈ s, g i * g i :=
  Finset.sum_nonneg fun i _ => mul_self_nonneg (g i)

/-! ### Division by a positive real, addition of a positive real -/

/-- Dividing a nonnegative extended real by a positive real leaves it nonnegative: the quotient is
    the product with the positive real `1/y`. -/
theorem div_coe_nonneg {x : EReal} {y : ℝ} (hx : 0 ≤ x) (hy : 0 < y) :
    0 ≤ Ideal.div x (y : EReal) := by
  rw [Ideal.div_coe hy.ne']
  exact EReal.mul_nonneg hx (by exact_mod_cast (one_div_pos.mpr hy).le)

/-- Adding a positive real to a nonnegative extended real gives a positive one:
    `0 < ε = 0 + ε ≤ x + ε`. -/
theorem add_coe_pos {x : EReal} {ε : ℝ} (hx : 0 ≤ x) (hε : 0 < ε) : 0 < x + (ε : EReal) := by
  have h : (0 : EReal) + (ε : EReal) ≤ x + (ε : EReal) := add_le_add hx le_rfl
  rw [zero_add] at h
  exact lt_of_lt_of_le (by exact_mod_cast hε) h

/-! ### Two float words -/

/-- The `f32` word `0x43000000` (sign `0`, exponent field `134`, fraction `0`) denotes
    `2²³ · 2^(134 - 127 - 23) = 128`. -/
theorem ofBits_c128 : Ideal.ofBits .f32 0x43000000#32 = ((128 : ℝ) : EReal) := by
  simp [Ideal.ofBits, Ideal.ieee, -EReal.coe_mul]; norm_num

/-- The `f32` word `0x3727C5AC` (sign `0`, exponent field `110`, fraction `0x27C5AC = 2606508`)
    denotes `(2²³ + 2606508) · 2^(110 - 127 - 23) = 10995116 · 2⁻⁴⁰`, about `1.0000000e-5`. -/
theorem ofBits_epsLn :
    Ideal.ofBits .f32 0x3727C5AC#32 = ((10995116 * (2 : ℝ) ^ (-40 : ℤ) : ℝ) : EReal) := by
  simp [Ideal.ofBits, Ideal.ieee, -EReal.coe_mul]

/-- The word `0x3727C5AC` denotes a positive real. -/
theorem ofBits_epsLn_pos :
    ∃ ε : ℝ, 0 < ε ∧ Ideal.ofBits .f32 0x3727C5AC#32 = (ε : EReal) :=
  ⟨10995116 * (2 : ℝ) ^ (-40 : ℤ), by positivity, ofBits_epsLn⟩

/-- A nonnegative extended real divided by the float `128.0` is nonnegative. -/
theorem div_c128_nonneg {x : EReal} (hx : 0 ≤ x) :
    0 ≤ Ideal.div x (Ideal.ofBits .f32 0x43000000#32) := by
  rw [ofBits_c128]; exact div_coe_nonneg hx (by norm_num)

/-- A nonnegative extended real plus the float `0x3727C5AC` (about `1e-5`) is positive. -/
theorem add_epsLn_pos {x : EReal} (hx : 0 ≤ x) :
    0 < x + Ideal.ofBits .f32 0x3727C5AC#32 := by
  obtain ⟨ε, hε, he⟩ := ofBits_epsLn_pos
  rw [he]; exact add_coe_pos hx hε

/-- The guarded mean of squares `(∑ i, g i · g i) / 128 + ε` (with `ε` the float `0x3727C5AC`) is
    positive, whatever the extended reals `g i` are: the sum of squares is nonnegative, so is its
    quotient by `128`, and adding the positive real `ε` makes it positive. -/
theorem var_guard_pos {ι : Type*} [Fintype ι] (g : ι → EReal) :
    0 < Ideal.div (∑ i, g i * g i) (Ideal.ofBits .f32 0x43000000#32)
      + Ideal.ofBits .f32 0x3727C5AC#32 :=
  add_epsLn_pos (div_c128_nonneg (sum_mul_self_nonneg Finset.univ g))

/-! ### Regrouping a sum into blocks -/

section Blocks
variable {M : Type*} [AddCommMonoid M]

/-- Index `a · B + b` of block `a < A`, offset `b < B`, lies below `A · B`. -/
theorem block_index_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right _ a.isLt

/-- A sum over `Fin (A * B)` is the sum over the `A` blocks of the sums over the `B` consecutive
    indices `a · B + b` of each block: `(a, b) ↦ a · B + b` is a bijection from `Fin A × Fin B` onto
    `Fin (A * B)`, and addition is commutative and associative. -/
theorem sum_fin_blocks (A B : ℕ) (f : Fin (A * B) → M) :
    ∑ n, f n = ∑ a : Fin A, ∑ b : Fin B, f ⟨a.val * B + b.val, block_index_lt a b⟩ := by
  rw [← Equiv.sum_comp finProdFinEquiv f, Fintype.sum_prod_type]
  refine Finset.sum_congr rfl fun a _ => Finset.sum_congr rfl fun b _ => ?_
  congr 1
  apply Fin.ext
  show b.val + B * a.val = a.val * B + b.val
  rw [Nat.mul_comm, Nat.add_comm]

/-- Index `(a · B + b) · C + c` lies below `A · B · C`. -/
theorem block_index_lt3 {A B C : ℕ} (a : Fin A) (b : Fin B) (c : Fin C) :
    (a.val * B + b.val) * C + c.val < A * B * C :=
  block_index_lt (⟨a.val * B + b.val, block_index_lt a b⟩ : Fin (A * B)) c

/-- The same on three levels: a sum over `Fin (A * B * C)` is the sum over `a < A`, `b < B`,
    `c < C` of the term at `(a · B + b) · C + c`. -/
theorem sum_fin_blocks3 (A B C : ℕ) (f : Fin (A * B * C) → M) :
    ∑ n, f n = ∑ a : Fin A, ∑ b : Fin B, ∑ c : Fin C,
      f ⟨(a.val * B + b.val) * C + c.val, block_index_lt3 a b c⟩ := by
  rw [sum_fin_blocks (A * B) C f,
    sum_fin_blocks A B (fun n : Fin (A * B) => ∑ c : Fin C, f ⟨n.val * C + c.val, block_index_lt n c⟩)]

/-- `32768 = 2 · 64 · 256` rows as `2` halves of `64` groups of `256` consecutive rows. -/
theorem sum_rows_2_64_256 (f : Fin 32768 → M) :
    ∑ n, f n = ∑ c : Fin 2, ∑ i : Fin 64, ∑ r : Fin 256,
      f ⟨(c.val * 64 + i.val) * 256 + r.val, by omega⟩ :=
  sum_fin_blocks3 2 64 256 f

end Blocks

/-! ### A running total is a sum -/

section Fold
variable {M : Type*} [AddCommMonoid M]

/-- A sequence that starts at `p 0` and adds `p (n + 1)` at step `n + 1` is the sequence of partial
    sums `∑ i ≤ n, p i`. -/
theorem fold_eq_sum (p acc : ℕ → M) (h0 : acc 0 = p 0)
    (hs : ∀ n, acc (n + 1) = acc n + p (n + 1)) (n : ℕ) :
    acc n = ∑ i ∈ Finset.range (n + 1), p i := by
  induction n with
  | zero => rw [h0, Finset.sum_range_one]
  | succ k ih => rw [hs k, ih, Finset.sum_range_succ p (k + 1)]

/-- A sum over the first `N` naturals is the sum over `Fin N` of the values. -/
theorem sum_range_eq_sum_fin (N : ℕ) (p : ℕ → M) :
    ∑ i ∈ Finset.range N, p i = ∑ i : Fin N, p i.val :=
  (Fin.sum_univ_eq_sum_range p N).symm

end Fold

end Cert.LibErealLaws

end
-- ==== Proof.KI.StatsVal.lean ====
import proofs.«120895_j33182917328949_1_alg».proof.Proof.KI.StatsPieces
import proofs.«120895_j33182917328949_1_alg».proof.Proof.KI.ProjVal
import proofs.«120895_j33182917328949_1_alg».proof.Proof.LibErealLaws
import Idealize.ShloMosaic.Lib.Pipeline.Value
import Idealize.ShloMosaic.Lib.ValueIdx

set_option maxRecDepth 16384

noncomputable section

namespace Cert.KernelIdeal.StatsVal

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.KernelIdeal.Stats

/-! # The first pallas_call's three result arrays, as functions of the arrays it is entered with

The pre-activation array is the linear layer entry by entry. The running column sums after block `t` are the sums
over the first `t + 1` blocks, so after the last block they are the sums over all 50000 rows; the mean row is that
total over the row count, the variance row the total of squares over the row count minus the squared mean. -/

variable (V : (c : Dev nD) → (b : Ref sig .tc) → Buf (Elt Ideal) ((c : Thread nD τ).loc b))

/-- The pre-activation array: the first linear layer of the arrays the call is entered with. -/
abbrev H (c : Dev nD) : S50000x128.Idx → EReal :=
  ProjVal.G (V c main_v22) (V c main_arg0) (V c main_v23) (V c main_v24) (V c main_v25)

/-- The block index maps, decided over the ten points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `p` of block `t` is row `5000 t + p` of the array. -/
abbrev grow (t : Fin cfg0.N) (p : Fin 5000) : Fin 50000 :=
  ⟨t.val * 5000 + p.val, by have h := t.isLt; have hN : cfg0.N = 10 := N_0; have hp := p.isLt; omega⟩

/-- The linear layer of the blocks at point `t` is the linear layer of the arrays at the block's rows. -/
theorem lin_blk (c : Dev nD) (t : Fin cfg0.N) (p : Fin 5000) (q : Fin 128) :
    Pay.lin (blk V c 0 t) (blk V c 1 t) (blk V c 2 t) (blk V c 3 t) (blk V c 4 t) p q = H V c (ix2 (grow t p) q) := by
  obtain ⟨e00, e01, e10, e11, e50, e51, r20, r21, r30, r31, r40, r41, r60, r61, r70, r71⟩ := idx_facts t
  have hb0 : ∀ k : Fin 128, blk V c 0 t (ix2 p k) = V c main_v22 (ix2 (grow t p) k) := by
    intro k
    show V c main_v22 (((cfg0.win 0).blk t).view.emb (ix2 p k)) = _
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have hb1 : ∀ k : Fin 128, blk V c 1 t (ix2 p k) = V c main_arg0 (ix2 (grow t p) k) := by
    intro k
    show V c main_arg0 (((cfg0.win 1).blk t).view.emb (ix2 p k)) = _
    refine congrArg _ ?_
    funext a; apply Fin.ext
    match a with
    | ⟨0, _⟩ => show win0_1.index t (0 : Fin 2) * 5000 + 1 * p.val = t.val * 5000 + p.val; omega
    | ⟨1, _⟩ => show win0_1.index t (1 : Fin 2) * 128 + 1 * k.val = k.val; omega
  have hb2 : ∀ k : Fin 128, Stats.blk V c 2 t (ix2 k q) = V c main_v23 (ix2 k q) := by
    intro k
    show V c main_v23 (((cfg0.win 2).blk t).view.emb (ix2 k q)) = _
    refine congrArg _ ?_
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  have hb3 : ∀ k : Fin 128, Stats.blk V c 3 t (ix2 k q) = V c main_v24 (ix2 k q) := by
    intro k
    show V c main_v24 (((cfg0.win 3).blk t).view.emb (ix2 k q)) = _
    refine congrArg _ ?_
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  have hb4 : Stats.blk V c 4 t (ix2 (0 : Fin 1) q) = V c main_v25 (ix2 (0 : Fin 1) q) := by
    show V c main_v25 (((cfg0.win 4).blk t).view.emb (ix2 (0 : Fin 1) q)) = _
    refine congrArg _ ?_
    funext a; apply Fin.ext
    match a with
    | ⟨0, _⟩ => show win0_4.index t (0 : Fin 2) * 1 + 1 * 0 = 0; omega
    | ⟨1, _⟩ => show win0_4.index t (1 : Fin 2) * 128 + 1 * q.val = q.val; omega
  show _ = ProjVal.G (V c main_v22) (V c main_arg0) (V c main_v23) (V c main_v24) (V c main_v25) (ix2 (grow t p) q)
  unfold Pay.lin ProjVal.G
  simp only [hb0, hb1, hb2, hb3, hb4]

/-! ## The accumulators, block after block -/

/-- The running column sums and sums of squares after block `t`. -/
abbrev Sacc (c : Dev nD) (t : Fin cfg0.N) : Vec Ideal S1x128 .f32 := (outsAt V c t.val t.isLt).2.2.2.1
abbrev Qacc (c : Dev nD) (t : Fin cfg0.N) : Vec Ideal S1x128 .f32 := (outsAt V c t.val t.isLt).2.2.2.2

theorem S_first (c : Dev nD) (t : Fin cfg0.N) (h0 : t.val % 10 = 0) (h1 : ¬t.val % 10 = 9) (q : Fin 128) :
    Sacc V c t (ix2 (0 : Fin 1) q) = 0 + ∑ r : Fin 5000, H V c (ix2 (grow t r) q) := by
  show (outsAt V c t.val t.isLt).2.2.2.1 (ix2 (0 : Fin 1) q) = _
  rw [outsAt_first V c t h0 h1]
  dsimp only
  rw [sumFirst_eq]
  refine (Pay.pay7_apply _ _ _ _ _ _ q).trans ?_
  rw [Pay.pay4_apply]
  exact congrArg _ (Finset.sum_congr rfl fun r _ => lin_blk V c t r q)

theorem Q_first (c : Dev nD) (t : Fin cfg0.N) (h0 : t.val % 10 = 0) (h1 : ¬t.val % 10 = 9) (q : Fin 128) :
    Qacc V c t (ix2 (0 : Fin 1) q) = 0 + ∑ r : Fin 5000, H V c (ix2 (grow t r) q) * H V c (ix2 (grow t r) q) := by
  show (outsAt V c t.val t.isLt).2.2.2.2 (ix2 (0 : Fin 1) q) = _
  rw [outsAt_first V c t h0 h1]
  dsimp only
  rw [sqFirst_eq]
  refine (Pay.pay1_apply _ _ q).trans ?_
  rw [Pay.pay5_apply, Pay.pay8_apply]
  exact congrArg _ (Finset.sum_congr rfl fun r _ => by rw [lin_blk V c t r q])

theorem S_next (c : Dev nD) (t : Fin cfg0.N) (h0 : ¬t.val % 10 = 0) (q : Fin 128) :
    Sacc V c t (ix2 (0 : Fin 1) q)
      = (outsAt V c (t.val - 1) (Nat.lt_of_le_of_lt (Nat.sub_le _ _) t.isLt)).2.2.2.1 (ix2 (0 : Fin 1) q)
        + ∑ r : Fin 5000, H V c (ix2 (grow t r) q) := by
  show (outsAt V c t.val t.isLt).2.2.2.1 (ix2 (0 : Fin 1) q) = _
  by_cases h1 : t.val % 10 = 9
  · rw [outsAt_last V c t h0 h1]
    dsimp only
    rw [sumLast_eq]
    refine (Pay.pay7_apply _ _ _ _ _ _ q).trans ?_
    exact congrArg _ (Finset.sum_congr rfl fun r _ => lin_blk V c t r q)
  · rw [outsAt_mid V c t h0 h1]
    dsimp only
    rw [sumMid_eq]
    refine (Pay.pay7_apply _ _ _ _ _ _ q).trans ?_
    exact congrArg _ (Finset.sum_congr rfl fun r _ => lin_blk V c t r q)

theorem Q_next (c : Dev nD) (t : Fin cfg0.N) (h0 : ¬t.val % 10 = 0) (q : Fin 128) :
    Qacc V c t (ix2 (0 : Fin 1) q)
      = (outsAt V c (t.val - 1) (Nat.lt_of_le_of_lt (Nat.sub_le _ _) t.isLt)).2.2.2.2 (ix2 (0 : Fin 1) q)
        + ∑ r : Fin 5000, H V c (ix2 (grow t r) q) * H V c (ix2 (grow t r) q) := by
  show (outsAt V c t.val t.isLt).2.2.2.2 (ix2 (0 : Fin 1) q) = _
  by_cases h1 : t.val % 10 = 9
  · rw [outsAt_last V c t h0 h1]
    dsimp only
    rw [sqLast_eq]
    refine (Pay.pay1_apply _ _ q).trans ?_
    rw [Pay.pay8_apply]
    exact congrArg _ (Finset.sum_congr rfl fun r _ => by rw [lin_blk V c t r q])
  · rw [outsAt_mid V c t h0 h1]
    dsimp only
    rw [sqMid_eq]
    refine (Pay.pay1_apply _ _ q).trans ?_
    rw [Pay.pay8_apply]
    exact congrArg _ (Finset.sum_congr rfl fun r _ => by rw [lin_blk V c t r q])

/-! ## The totals -/

/-- The column sum, and the column sum of squares, of block `n` (zero past the ten blocks). -/
def bsum (c : Dev nD) (q : Fin 128) (n : ℕ) : EReal :=
  if h : n < 10 then ∑ r : Fin 5000, H V c (ix2 (⟨n * 5000 + r.val, by have := r.isLt; omega⟩ : Fin 50000) q) else 0
def bsq (c : Dev nD) (q : Fin 128) (n : ℕ) : EReal :=
  if h : n < 10 then ∑ r : Fin 5000, H V c (ix2 (⟨n * 5000 + r.val, by have := r.isLt; omega⟩ : Fin 50000) q)
    * H V c (ix2 (⟨n * 5000 + r.val, by have := r.isLt; omega⟩ : Fin 50000) q) else 0

theorem bsum_eq (c : Dev nD) (q : Fin 128) (t : Fin cfg0.N) : bsum V c q t.val = ∑ r : Fin 5000, H V c (ix2 (grow t r) q) := by
  have hN : t.val < 10 := lt_of_lt_of_eq t.isLt (show cfg0.N = 10 from N_0)
  unfold bsum; rw [dif_pos hN]
theorem bsq_eq (c : Dev nD) (q : Fin 128) (t : Fin cfg0.N) :
    bsq V c q t.val = ∑ r : Fin 5000, H V c (ix2 (grow t r) q) * H V c (ix2 (grow t r) q) := by
  have hN : t.val < 10 := lt_of_lt_of_eq t.isLt (show cfg0.N = 10 from N_0)
  unfold bsq; rw [dif_pos hN]

/-- After block `t` the running sums are the sums over the first `t + 1` blocks. -/
theorem S_total (c : Dev nD) (q : Fin 128) : ∀ (n : ℕ) (hn : n < cfg0.N),
    Sacc V c ⟨n, hn⟩ (ix2 (0 : Fin 1) q) = ∑ i ∈ Finset.range (n + 1), bsum V c q i
  | 0, hn => by
    rw [S_first V c ⟨0, hn⟩ (Nat.zero_mod _) (by show ¬(0 % 10 = 9); decide) q, zero_add, Finset.sum_range_one, bsum_eq V c q ⟨0, hn⟩]
  | n + 1, hn => by
    have hN : n + 1 < 10 := lt_of_lt_of_eq hn (show cfg0.N = 10 from N_0)
    have ih := S_total c q n (Nat.lt_of_succ_lt hn)
    rw [S_next V c ⟨n + 1, hn⟩ (by show ¬(n + 1) % 10 = 0; omega) q, Finset.sum_range_succ _ (n + 1), ← bsum_eq V c q ⟨n + 1, hn⟩]
    exact congrArg (· + bsum V c q (n + 1)) ih

theorem Q_total (c : Dev nD) (q : Fin 128) : ∀ (n : ℕ) (hn : n < cfg0.N),
    Qacc V c ⟨n, hn⟩ (ix2 (0 : Fin 1) q) = ∑ i ∈ Finset.range (n + 1), bsq V c q i
  | 0, hn => by
    rw [Q_first V c ⟨0, hn⟩ (Nat.zero_mod _) (by show ¬(0 % 10 = 9); decide) q, zero_add, Finset.sum_range_one, bsq_eq V c q ⟨0, hn⟩]
  | n + 1, hn => by
    have hN : n + 1 < 10 := lt_of_lt_of_eq hn (show cfg0.N = 10 from N_0)
    have ih := Q_total c q n (Nat.lt_of_succ_lt hn)
    rw [Q_next V c ⟨n + 1, hn⟩ (by show ¬(n + 1) % 10 = 0; omega) q, Finset.sum_range_succ _ (n + 1), ← bsq_eq V c q ⟨n + 1, hn⟩]
    exact congrArg (· + bsq V c q (n + 1)) ih

/-- Ten block sums of 5000 rows are the sum over all 50000 rows. -/
theorem blocks_all (f : Fin 50000 → EReal) :
    ∑ i ∈ Finset.range 10, (if h : i < 10 then ∑ r : Fin 5000, f (⟨i * 5000 + r.val, by have := r.isLt; omega⟩ : Fin 50000) else 0)
      = ∑ i : Fin 50000, f i := by
  rw [Cert.LibErealLaws.sum_range_eq_sum_fin 10]
  rw [show (∑ i : Fin 50000, f i) = ∑ a : Fin 10, ∑ b : Fin 5000, f ⟨a.val * 5000 + b.val, Cert.LibErealLaws.block_index_lt a b⟩
    from Cert.LibErealLaws.sum_fin_blocks 10 5000 f]
  exact Finset.sum_congr rfl fun a _ => by rw [dif_pos a.isLt]

/-- After the last block the running sums are the column totals. -/
theorem S_last (c : Dev nD) (q : Fin 128) (t : Fin cfg0.N) (h1 : t.val % 10 = 9) :
    Sacc V c t (ix2 (0 : Fin 1) q) = ∑ i : Fin 50000, H V c (ix2 i q) := by
  have hN : t.val < 10 := lt_of_lt_of_eq t.isLt (show cfg0.N = 10 from N_0)
  have h9 : t.val = 9 := by omega
  obtain ⟨n, hn⟩ := t
  dsimp only at h9
  subst h9
  rw [S_total V c q 9 hn]
  exact blocks_all (fun i => H V c (ix2 i q))

theorem Q_last (c : Dev nD) (q : Fin 128) (t : Fin cfg0.N) (h1 : t.val % 10 = 9) :
    Qacc V c t (ix2 (0 : Fin 1) q) = ∑ i : Fin 50000, H V c (ix2 i q) * H V c (ix2 i q) := by
  have hN : t.val < 10 := lt_of_lt_of_eq t.isLt (show cfg0.N = 10 from N_0)
  have h9 : t.val = 9 := by omega
  obtain ⟨n, hn⟩ := t
  dsimp only at h9
  subst h9
  rw [Q_total V c q 9 hn]
  exact blocks_all (fun i => H V c (ix2 i q) * H V c (ix2 i q))

/-! ## The three result arrays -/

/-- What every block leaves in the pre-activation buffer: the linear layer of its five input blocks. -/
theorem pre_eq (c : Dev nD) (t : Fin cfg0.N) :
    (outsAt V c t.val t.isLt).1 = k0_pay6 (F := Ideal) (blk V c 0 t) (blk V c 1 t) (blk V c 2 t) (blk V c 3 t) (blk V c 4 t) := by
  have hN : t.val < 10 := lt_of_lt_of_eq t.isLt (show cfg0.N = 10 from N_0)
  by_cases h1 : t.val % 10 = 9
  · have h0 : ¬t.val % 10 = 0 := by omega
    rw [outsAt_last V c t h0 h1]; dsimp only; rw [preLast_eq]
  · by_cases h0 : t.val % 10 = 0
    · rw [outsAt_first V c t h0 h1]; dsimp only; rw [preFirst_eq]
    · rw [outsAt_mid V c t h0 h1]; dsimp only; rw [preMid_eq]

theorem flushed5_eq (c : Dev nD) (t : Fin cfg0.N) :
    (dat V c).flushed 5 t = ((cfg0.win 5).blk t).view.read (Elt Ideal) (H V c) := by
  show (cfg0.win 5).cut (grid0.coords t) ((dat V c).after 5 t) = _
  rw [after_5, pre_eq]
  obtain ⟨e00, e01, e10, e11, e50, e51, -⟩ := idx_facts t
  funext j
  obtain ⟨p, q, rfl⟩ : ∃ (p : Fin 5000) (q : Fin 128), j = ix2 p q := ⟨j 0, j 1, eq_ix2 j⟩
  refine (Pay.pay6_apply _ _ _ _ _ p q).trans ?_
  rw [lin_blk V c t p q]
  show H V c (ix2 (grow t p) q) = H V c (((cfg0.win 5).blk t).view.emb (ix2 p q))
  refine congrArg _ ?_
  funext a; apply Fin.ext
  match a with
  | ⟨0, _⟩ => show t.val * 5000 + p.val = win0_5.index t (0 : Fin 2) * 5000 + 1 * p.val; omega
  | ⟨1, _⟩ => show q.val = win0_5.index t (1 : Fin 2) * 128 + 1 * q.val; omega

theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26_0).slice (win0_5.rect t)).set ↔ _
  rw [View.set_slice_whole, Rect.mem_set_unit]
  exact Iff.rfl

theorem covered5 (i : S50000x128.Idx) : ∃ t : Fin cfg0.N, (cfg0.win 5).flush t = true ∧ i ∈ ((cfg0.win 5).blk t).view.set := by
  have hi0 : (i 0).val < 50000 := idx2_lt0 i
  have hi1 : (i 1).val < 128 := idx2_lt1 i
  have hN : cfg0.N = 10 := N_0
  let t : Fin cfg0.N := ⟨(i 0).val / 5000, by rw [hN]; omega⟩
  obtain ⟨e00, e01, e10, e11, e50, e51, -⟩ := idx_facts t
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; rw [e50]; show (i 0).val / 5000 * 5000 ≤ (i 0).val ∧ (i 0).val < (i 0).val / 5000 * 5000 + 5000; omega
  | ⟨1, _⟩ => show win0_5.index t (1 : Fin 2) * 128 ≤ (i 1).val ∧ (i 1).val < win0_5.index t (1 : Fin 2) * 128 + 128; omega

/-- THE PRE-ACTIVATION ARRAY after the call: the linear layer of the arrays it was entered with. -/
theorem final5 (c : Dev nD) : (dat V c).arrAt 5 cfg0.N = H V c :=
  (dat V c).arrAt_eq_of_cover 5 _ (fun t _ => flushed5_eq V c t) covered5

/-- The column of an index of a one-row array. -/
abbrev col1 (j : S1x128.Idx) : Fin 128 := ⟨(j 1).val, idx2_lt1 j⟩

/-- The mean row: the column total over the row count. -/
def meanRow (c : Dev nD) : S1x128.Idx → EReal := fun j =>
  Ideal.div (∑ i : Fin 50000, H V c (ix2 i (col1 j))) Pay.C
/-- The variance row: the column total of squares over the row count, minus the squared mean. -/
def varRow (c : Dev nD) : S1x128.Idx → EReal := fun j =>
  Ideal.div (∑ i : Fin 50000, H V c (ix2 i (col1 j)) * H V c (ix2 i (col1 j))) Pay.C
    - Ideal.div (∑ i : Fin 50000, H V c (ix2 i (col1 j))) Pay.C * Ideal.div (∑ i : Fin 50000, H V c (ix2 i (col1 j))) Pay.C

/-- At the last block the mean row's buffer holds the final column sums over the row count, -/
theorem mean_at (c : Dev nD) (t : Fin cfg0.N) (h0 : ¬t.val % 10 = 0) (h1 : t.val % 10 = 9) (q : Fin 128) :
    (outsAt V c t.val t.isLt).2.1 (ix2 (0 : Fin 1) q) = Ideal.div (Sacc V c t (ix2 (0 : Fin 1) q)) Pay.C := by
  show (outsAt V c t.val t.isLt).2.1 (ix2 (0 : Fin 1) q) = Ideal.div ((outsAt V c t.val t.isLt).2.2.2.1 (ix2 (0 : Fin 1) q)) Pay.C
  rw [outsAt_last V c t h0 h1]
  dsimp only
  rw [meanLast_eq, sumLast_eq]
  exact Pay.pay2_apply _ q

/-- and the variance row's the final sums of squares over the row count minus the squared mean. -/
theorem var_at (c : Dev nD) (t : Fin cfg0.N) (h0 : ¬t.val % 10 = 0) (h1 : t.val % 10 = 9) (q : Fin 128) :
    (outsAt V c t.val t.isLt).2.2.1 (ix2 (0 : Fin 1) q)
      = Ideal.div (Qacc V c t (ix2 (0 : Fin 1) q)) Pay.C
        - Ideal.div (Sacc V c t (ix2 (0 : Fin 1) q)) Pay.C * Ideal.div (Sacc V c t (ix2 (0 : Fin 1) q)) Pay.C := by
  show (outsAt V c t.val t.isLt).2.2.1 (ix2 (0 : Fin 1) q)
      = Ideal.div ((outsAt V c t.val t.isLt).2.2.2.2 (ix2 (0 : Fin 1) q)) Pay.C
        - Ideal.div ((outsAt V c t.val t.isLt).2.2.2.1 (ix2 (0 : Fin 1) q)) Pay.C * Ideal.div ((outsAt V c t.val t.isLt).2.2.2.1 (ix2 (0 : Fin 1) q)) Pay.C
  rw [outsAt_last V c t h0 h1]
  dsimp only
  rw [varLast_eq, sumLast_eq, sqLast_eq]
  exact Pay.pay3_apply _ _ q

theorem flushed6_eq (c : Dev nD) (t : Fin cfg0.N) (hf : (cfg0.win 6).flush t = true) :
    (dat V c).flushed 6 t = ((cfg0.win 6).blk t).view.read (Elt Ideal) (meanRow V c) := by
  have h1 : t.val % 10 = 9 := (flush0_6 t).mp hf
  have hN : t.val < 10 := lt_of_lt_of_eq t.isLt (show cfg0.N = 10 from N_0)
  have h0 : ¬t.val % 10 = 0 := by omega
  show (cfg0.win 6).cut (grid0.coords t) ((dat V c).after 6 t) = _
  rw [after_6]
  obtain ⟨e00, e01, e10, e11, e50, e51, r20, r21, r30, r31, r40, r41, r60, r61, r70, r71⟩ := idx_facts t
  funext j
  obtain ⟨p, q, rfl⟩ : ∃ (p : Fin 1) (q : Fin 128), j = ix2 p q := ⟨j 0, j 1, eq_ix2 j⟩
  obtain rfl : p = 0 := Subsingleton.elim _ _
  refine (mean_at V c t h0 h1 q).trans ?_
  rw [S_last V c q t h1]
  show _ = meanRow V c (((cfg0.win 6).blk t).view.emb (ix2 (0 : Fin 1) q))
  have hcol : col1 (((cfg0.win 6).blk t).view.emb (ix2 (0 : Fin 1) q)) = q := by
    apply Fin.ext; show win0_6.index t (1 : Fin 2) * 128 + 1 * q.val = q.val; omega
  unfold meanRow
  rw [hcol]

theorem mem_blk6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v26_1).slice (win0_6.rect t)).set ↔ _
  rw [View.set_slice_whole, Rect.mem_set_unit]
  exact Iff.rfl

theorem covered6 (i : S1x128.Idx) : ∃ t : Fin cfg0.N, (cfg0.win 6).flush t = true ∧ i ∈ ((cfg0.win 6).blk t).view.set := by
  have hi0 : (i 0).val < 1 := idx2_lt0 i
  have hi1 : (i 1).val < 128 := idx2_lt1 i
  have hN : cfg0.N = 10 := N_0
  let t : Fin cfg0.N := ⟨9, by rw [hN]; decide⟩
  obtain ⟨e00, e01, e10, e11, e50, e51, r20, r21, r30, r31, r40, r41, r60, r61, r70, r71⟩ := idx_facts t
  refine ⟨t, (flush0_6 t).mpr rfl, ?_⟩
  rw [mem_blk6]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 128 ≤ (i 1).val ∧ (i 1).val < win0_6.index t (1 : Fin 2) * 128 + 128; omega

theorem final6 (c : Dev nD) : (dat V c).arrAt 6 cfg0.N = meanRow V c :=
  (dat V c).arrAt_eq_of_cover 6 _ (fun t hf => flushed6_eq V c t hf) covered6

theorem flushed7_eq (c : Dev nD) (t : Fin cfg0.N) (hf : (cfg0.win 7).flush t = true) :
    (dat V c).flushed 7 t = ((cfg0.win 7).blk t).view.read (Elt Ideal) (varRow V c) := by
  have h1 : t.val % 10 = 9 := (flush0_7 t).mp hf
  have hN : t.val < 10 := lt_of_lt_of_eq t.isLt (show cfg0.N = 10 from N_0)
  have h0 : ¬t.val % 10 = 0 := by omega
  show (cfg0.win 7).cut (grid0.coords t) ((dat V c).after 7 t) = _
  rw [after_7]
  obtain ⟨e00, e01, e10, e11, e50, e51, r20, r21, r30, r31, r40, r41, r60, r61, r70, r71⟩ := idx_facts t
  funext j
  obtain ⟨p, q, rfl⟩ : ∃ (p : Fin 1) (q : Fin 128), j = ix2 p q := ⟨j 0, j 1, eq_ix2 j⟩
  obtain rfl : p = 0 := Subsingleton.elim _ _
  refine (var_at V c t h0 h1 q).trans ?_
  rw [S_last V c q t h1, Q_last V c q t h1]
  show _ = varRow V c (((cfg0.win 7).blk t).view.emb (ix2 (0 : Fin 1) q))
  have hcol : col1 (((cfg0.win 7).blk t).view.emb (ix2 (0 : Fin 1) q)) = q := by
    apply Fin.ext; show win0_7.index t (1 : Fin 2) * 128 + 1 * q.val = q.val; omega
  unfold varRow
  rw [hcol]

theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v26_2).slice (win0_7.rect t)).set ↔ _
  rw [View.set_slice_whole, Rect.mem_set_unit]
  exact Iff.rfl

theorem covered7 (i : S1x128.Idx) : ∃ t : Fin cfg0.N, (cfg0.win 7).flush t = true ∧ i ∈ ((cfg0.win 7).blk t).view.set := by
  have hi0 : (i 0).val < 1 := idx2_lt0 i
  have hi1 : (i 1).val < 128 := idx2_lt1 i
  have hN : cfg0.N = 10 := N_0
  let t : Fin cfg0.N := ⟨9, by rw [hN]; decide⟩
  obtain ⟨e00, e01, e10, e11, e50, e51, r20, r21, r30, r31, r40, r41, r60, r61, r70, r71⟩ := idx_facts t
  refine ⟨t, (flush0_7 t).mpr rfl, ?_⟩
  rw [mem_blk7]
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 128 ≤ (i 1).val ∧ (i 1).val < win0_7.index t (1 : Fin 2) * 128 + 128; omega

theorem final7 (c : Dev nD) : (dat V c).arrAt 7 cfg0.N = varRow V c :=
  (dat V c).arrAt_eq_of_cover 7 _ (fun t hf => flushed7_eq V c t hf) covered7

end Cert.KernelIdeal.StatsVal

end
-- ==== Proof.KI.Bridge.lean ====
import proofs.«120895_j33182917328949_1_alg».proof.Proof.KI.HostK
import proofs.«120895_j33182917328949_1_alg».proof.Proof.KI.NormVal
import proofs.«120895_j33182917328949_1_alg».proof.Proof.KI.ProjVal
import proofs.«120895_j33182917328949_1_alg».proof.Proof.KI.StatsVal
import proofs.«120895_j33182917328949_1_alg».proof.Proof.RefRead
import proofs.«120895_j33182917328949_1_alg».proof.Proof.Laws
import Idealize.ShloMosaic.Lib.Pipeline.Value
import Idealize.ShloMosaic.Lib.ValueIdx

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.KernelIdeal.Whole
open Cert.ReferenceIdeal.Read

/-! # The two programs compute the same arrays

Stage by stage, the kernel program's buffers hold the reference's stages of the same arguments: the aggregated
features (the same host operations); the pre-activations (the same two products and bias, added in another order);
the mean row; the variance row (the mean of squares minus the squared mean IS the mean of squared deviations, for
real entries); the activations; the second aggregation; the logits (zero padding changes nothing in the first 47
columns). -/

variable (m : (ℓ : Loc nD τ sig) → Buf (Elt Ideal) ℓ) (ρ : Dev nD → PrngReg)

/-- Equal factors give equal products, equal terms equal sums (stated over the extended reals). -/
theorem emul {a a' b b' : EReal} (h1 : a = a') (h2 : b = b') : a * b = a' * b' := by rw [h1, h2]
theorem eadd {a a' b b' : EReal} (h1 : a = a') (h2 : b = b') : a + b = a' + b' := by rw [h1, h2]

/-- The linear layer and the normalisation read at an index given by its coordinates. -/
theorem lin_apply (A X : S50000x128.Idx → EReal) (Wl Wr : S128x128.Idx → EReal) (b : S1x128.Idx → EReal) (p : Fin 50000) (q : Fin 128) :
    ProjVal.G A X Wl Wr b (ix2 p q)
      = ((∑ k : Fin 128, A (ix2 p k) * Wl (ix2 k q)) + ∑ k : Fin 128, X (ix2 p k) * Wr (ix2 k q)) + b (ix2 (0 : Fin 1) q) := rfl
theorem norm_apply (h : S50000x128.Idx → EReal) (μ var γ β : S1x128.Idx → EReal) (p : Fin 50000) (q : Fin 128) :
    NormVal.G h μ var γ β (ix2 p q)
      = max ((h (ix2 p q) - μ (ix2 (0 : Fin 1) q)) * Ideal.rsqrt (var (ix2 (0 : Fin 1) q) + Pay.eps) * γ (ix2 (0 : Fin 1) q)
          + β (ix2 (0 : Fin 1) q)) 0 := rfl

/-! ## Buffers that ride through a stretch or a call unchanged -/

theorem W1_arg0 (c : Dev nD) : W1 m ρ c main_arg0 = (m ((c : Thread nD τ).loc main_arg0)) :=
  StableHlo.after_of_writes_sub hostOps0 _ hostOps0_writes (by decide)

theorem W3_v26_0 (c : Dev nD) : W3 m ρ c main_v26_0 = StatsVal.H (V1 m ρ) c :=
  (StableHlo.after_of_writes_sub hostOps1 _ hostOps1_writes (by decide)).trans ((W2_arr m ρ c 5).trans (StatsVal.final5 (V1 m ρ) c))
theorem W3_v26_1 (c : Dev nD) : W3 m ρ c main_v26_1 = StatsVal.meanRow (V1 m ρ) c :=
  (StableHlo.after_of_writes_sub hostOps1 _ hostOps1_writes (by decide)).trans ((W2_arr m ρ c 6).trans (StatsVal.final6 (V1 m ρ) c))
theorem W3_v26_2 (c : Dev nD) : W3 m ρ c main_v26_2 = StatsVal.varRow (V1 m ρ) c :=
  (StableHlo.after_of_writes_sub hostOps1 _ hostOps1_writes (by decide)).trans ((W2_arr m ρ c 7).trans (StatsVal.final7 (V1 m ρ) c))

theorem W5_v29 (c : Dev nD) : W5 m ρ c main_v29 = W4 m ρ c main_v29 :=
  StableHlo.after_of_writes_sub hostOps2 _ hostOps2_writes (by decide)

theorem W7_v29 (c : Dev nD) : W7 m ρ c main_v29 = W4 m ρ c main_v29 :=
  (StableHlo.after_of_writes_sub hostOps3 _ hostOps3_writes (by decide)).trans
    ((W6_arr m ρ c 1).trans (((Proj.dat (V5 m ρ) c).arrAt_in 1 rfl _).trans ((Proj.dat_A (V5 m ρ) c 1).trans (W5_v29 m ρ c))))

/-! ## The pre-activations -/

theorem hpre_eq (c : Dev nD) (p : Fin 50000) (q : Fin 128) :
    StatsVal.H (V1 m ρ) c (ix2 p q) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 p q) := by
  rw [RefRead.hpre_apply, RefRead.v22_eq]
  refine (lin_apply _ _ _ _ _ p q).trans ?_
  refine (eadd (eadd
      (Finset.sum_congr rfl fun k _ => emul (congrFun (HostK.W1_v22 m ρ c) (ix2 p k)) (HostK.W1_v23 m ρ c k q))
      (Finset.sum_congr rfl fun k _ => emul (congrFun (W1_arg0 m ρ c) (ix2 p k)) (HostK.W1_v24 m ρ c k q)))
      (HostK.W1_v25 m ρ c q)).trans ?_
  exact add_right_comm _ _ _

/-- The pre-activations are real numbers when the inputs are. -/
theorem hpre_isReal (c : Dev nD) (h0 : ∀ i, Laws.IsReal ((m ((c : Thread nD τ).loc main_arg0)) i)) (h2 : ∀ i, Laws.IsReal ((m ((c : Thread nD τ).loc main_arg2)) i))
    (h3 : ∀ i, Laws.IsReal ((m ((c : Thread nD τ).loc main_arg3)) i)) (h4 : ∀ i, Laws.IsReal ((m ((c : Thread nD τ).loc main_arg4)) i)) (p : Fin 50000) (q : Fin 128) :
    Laws.IsReal (val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 p q)) := by
  rw [RefRead.hpre_apply, RefRead.v22_eq]
  refine Laws.isReal_add (Laws.isReal_add (Laws.isReal_sum _ _ fun k _ => Laws.isReal_mul (RefRead.aggOf_isReal _ _ h0 _) (h2 _)) (h3 _))
    (Laws.isReal_sum _ _ fun k _ => Laws.isReal_mul (h0 _) (h4 _))

/-! ## The statistics -/

theorem mean_eq (c : Dev nD) (q : Fin 128) :
    StatsVal.meanRow (V1 m ρ) c (ix2 (0 : Fin 1) q) = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix1 q) := by
  rw [RefRead.mean_apply, zero_add]
  show Ideal.div (∑ i : Fin 50000, StatsVal.H (V1 m ρ) c (ix2 i q)) Pay.C = _
  exact congrArg (fun s => Ideal.div s Pay.C) (Finset.sum_congr rfl fun i _ => hpre_eq m ρ c i q)

theorem var_eq (c : Dev nD) (q : Fin 128)
    (hreal : ∀ i : Fin 50000, Laws.IsReal (val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 i q))) :
    StatsVal.varRow (V1 m ρ) c (ix2 (0 : Fin 1) q) = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix1 q) := by
  rw [RefRead.var_apply, RefRead.mean_apply]
  show Ideal.div (∑ i : Fin 50000, StatsVal.H (V1 m ρ) c (ix2 i q) * StatsVal.H (V1 m ρ) c (ix2 i q)) Pay.C
      - Ideal.div (∑ i : Fin 50000, StatsVal.H (V1 m ρ) c (ix2 i q)) Pay.C * Ideal.div (∑ i : Fin 50000, StatsVal.H (V1 m ρ) c (ix2 i q)) Pay.C = _
  rw [Finset.sum_congr rfl (fun i _ => by rw [hpre_eq m ρ c i q] :
      ∀ i ∈ (Finset.univ : Finset (Fin 50000)), StatsVal.H (V1 m ρ) c (ix2 i q) * StatsVal.H (V1 m ρ) c (ix2 i q)
        = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 i q) * val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 i q)),
    Finset.sum_congr rfl (fun i _ => hpre_eq m ρ c i q :
      ∀ i ∈ (Finset.univ : Finset (Fin 50000)), StatsVal.H (V1 m ρ) c (ix2 i q) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 i q))]
  have hC : (Pay.C : EReal) = (((50000 : ℕ) : ℝ) : EReal) := by
    show Ideal.ofBits .f32 0x47435000#32 = _
    rw [Laws.c50000]; norm_num
  have hC' : (RefRead.C : EReal) = (((50000 : ℕ) : ℝ) : EReal) := hC
  rw [hC, hC']
  exact Laws.var_identity 50000 (by norm_num) (fun i => val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 i q)) hreal

/-! ## The activations -/

theorem h_eq (c : Dev nD) (h0 : ∀ i, Laws.IsReal ((m ((c : Thread nD τ).loc main_arg0)) i)) (h2 : ∀ i, Laws.IsReal ((m ((c : Thread nD τ).loc main_arg2)) i))
    (h3 : ∀ i, Laws.IsReal ((m ((c : Thread nD τ).loc main_arg3)) i)) (h4 : ∀ i, Laws.IsReal ((m ((c : Thread nD τ).loc main_arg4)) i)) :
    W4 m ρ c main_v29 = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [show W4 m ρ c main_v29 = (Norm.dat (V3 m ρ) c).arrAt 5 cfg1.N from W4_arr m ρ c 5, NormVal.final]
  funext i
  obtain ⟨p, q, rfl⟩ : ∃ (p : Fin 50000) (q : Fin 128), i = ix2 p q := ⟨i 0, i 1, eq_ix2 i⟩
  rw [RefRead.h_apply]
  refine (norm_apply _ _ _ _ _ p q).trans ?_
  have e0 : (W3 m ρ c main_v26_0 : S50000x128.Idx → EReal) (ix2 p q) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 p q) :=
    (congrFun (W3_v26_0 m ρ c) (ix2 p q)).trans (hpre_eq m ρ c p q)
  have e1 : (W3 m ρ c main_v26_1 : S1x128.Idx → EReal) (ix2 (0 : Fin 1) q) = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix1 q) :=
    (congrFun (W3_v26_1 m ρ c) (ix2 (0 : Fin 1) q)).trans (mean_eq m ρ c q)
  have e2 : (W3 m ρ c main_v26_2 : S1x128.Idx → EReal) (ix2 (0 : Fin 1) q) = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix1 q) :=
    (congrFun (W3_v26_2 m ρ c) (ix2 (0 : Fin 1) q)).trans (var_eq m ρ c q (fun i => hpre_isReal m c h0 h2 h3 h4 i q))
  exact congrArg₂ max (congrArg₂ (· + ·) (congrArg₂ (· * ·) (congrArg₂ (· * ·) (congrArg₂ (· - ·) e0 e1)
    (congrArg (fun v => Ideal.rsqrt (v + Pay.eps)) e2)) (HostK.W3_v27 m ρ c q)) (HostK.W3_v28 m ρ c q)) rfl

/-! ## The logits -/

theorem logit_eq (c : Dev nD) (h0 : ∀ i, Laws.IsReal ((m ((c : Thread nD τ).loc main_arg0)) i)) (h2 : ∀ i, Laws.IsReal ((m ((c : Thread nD τ).loc main_arg2)) i))
    (h3 : ∀ i, Laws.IsReal ((m ((c : Thread nD τ).loc main_arg3)) i)) (h4 : ∀ i, Laws.IsReal ((m ((c : Thread nD τ).loc main_arg4)) i)) :
    W7 m ρ c main_v55 = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨p, q, rfl⟩ : ∃ (p : Fin 50000) (q : Fin 47), i = ix2 p q := ⟨i 0, i 1, eq_ix2 i⟩
  rw [HostK.W7_v55, show W6 m ρ c main_v54 = (Proj.dat (V5 m ρ) c).arrAt 5 cfg2.N from W6_arr m ρ c 5, ProjVal.final,
    RefRead.logit_apply, RefRead.v75_eq]
  refine (lin_apply _ _ _ _ _ p (⟨q.val, by omega⟩ : Fin 128)).trans ?_
  have eh : W4 m ρ c main_v29 = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := h_eq m ρ c h0 h2 h3 h4
  have e41 : W5 m ρ c main_v41 = RefRead.aggOf (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) :=
    (HostK.W5_v41 m ρ c).trans (congrArg (fun z => RefRead.aggOf z (m ((c : Thread nD τ).loc main_arg1))) eh)
  have e29 : W5 m ρ c main_v29 = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (W5_v29 m ρ c).trans eh
  refine (eadd (eadd
      (Finset.sum_congr rfl fun k _ => emul (congrFun e41 (ix2 p k)) (HostK.W5_v52 m ρ c k q))
      (Finset.sum_congr rfl fun k _ => emul (congrFun e29 (ix2 p k)) (HostK.W5_v53 m ρ c k q)))
      (HostK.W5_v51 m ρ c q)).trans ?_
  exact add_right_comm _ _ _

end Cert.KernelIdeal.Bridge

end
-- ==== Proof.PreReal.lean ====
import proofs.«120895_j33182917328949_1_alg».proof.Pre_finite_inputs
import proofs.«120895_j33182917328949_1_alg».proof.Proof.Laws
import Idealize.ShloMosaic.Lib.ReduceAll
import Idealize.ShloMosaic.Lib.ValueIdx
import Idealize.ShloMosaic.PureOps.Ideal.Laws

noncomputable section

namespace Cert.PreReal

open Cert.Pre_finite_inputs
open Idealize.ShloMosaic Idealize.ShloMosaic.ValueIdx

/-- An extended real whose absolute value is below +∞ is a real number. -/
theorem isReal_of_abs_lt_top (y : EReal) (h : max y (-y) < ⊤) : Laws.IsReal y := by
  have h1 : y < ⊤ := lt_of_le_of_lt (le_max_left _ _) h
  have h2 : -y < ⊤ := lt_of_le_of_lt (le_max_right _ _) h
  have hb : y ≠ ⊥ := fun e => by rw [e, EReal.neg_bot] at h2; exact lt_irrefl _ h2
  exact ⟨y.toReal, (EReal.coe_toReal (ne_of_lt h1) hb).symm⟩

/-- The word 0x7F800000 denotes +∞. -/
theorem inf_f32 : Ideal.ofBits .f32 0x7F800000#32 = ⊤ := by simp [Ideal.ofBits, Ideal.ieee]

/-- A compare "less than" that answered one: the left side is below the right. -/
theorem lt_of_cmp_olt (a b : EReal) (h : Ideal.cmp .olt a b = 1#1) : a < b := by
  have h' : BitVec.ofBool (decide (a < b)) = 1#1 := h
  by_contra hn
  rw [decide_eq_false hn] at h'
  exact absurd h' (by decide)

/-- The printed test "every entry's absolute value is below +∞", reduced by `and` over every axis into one word that
    is one: every entry of the array is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi (cmpf .olt (Host.absf x) (broadcastInDim s ![] hb (constant (F := Ideal) S_ .f32 0x7F800000#32)))
        init hr hu j = 1#1) :
    ∀ i, Laws.IsReal (x i) := by
  intro i
  haveI : Subsingleton S_.Idx := ⟨fun a b => funext fun d => d.elim0⟩
  have h1 := Host.reduce_andi_all _ init hr hu j e i
  have h2 : Ideal.cmp .olt (max (x i) (-(x i))) (Ideal.ofBits .f32 0x7F800000#32) = 1#1 := h1
  rw [inf_f32] at h2
  exact isReal_of_abs_lt_top (x i) (lt_of_cmp_olt _ _ h2)

/-- Under the precondition "every float input is finite" — the printed predicate all ones — every entry of the
    node features, of the first layer's two weight matrices and of its bias is a real number. (The other float
    inputs are finite too; the certificate's algebra needs only these four.) -/
theorem of_pre [Cert.Pre_finite_inputs.Facts] (x0 : FVec Ideal S50000x128 .f32) (x1 : IVec S2x800000 32) (x2 : FVec Ideal S128x128 .f32) (x3 : FVec Ideal S128 .f32)
    (x4 : FVec Ideal S128x128 .f32) (x5 x6 : FVec Ideal S128 .f32) (x7 : FVec Ideal S47x128 .f32) (x8 : FVec Ideal S47 .f32)
    (x9 : FVec Ideal S47x128 .f32)
    (h : Cert.Pre_finite_inputs.fn (F := Ideal) x0 x1 x2 x3 x4 x5 x6 x7 x8 x9 = (fun _ => 1#1)) :
    (∀ i, Laws.IsReal (x0 i)) ∧ (∀ i, Laws.IsReal (x2 i)) ∧ (∀ i, Laws.IsReal (x3 i)) ∧ (∀ i, Laws.IsReal (x4 i)) := by
  -- The predicate at its one index is the conjunction, left to right, of the ten inputs' tests.
  have h0 : IntOp.andi (IntOp.andi (IntOp.andi (IntOp.andi (IntOp.andi (IntOp.andi (IntOp.andi (IntOp.andi _ _) _) _) _) _) _) _) _ = 1#1 :=
    congrFun h ix0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all x0 _ _ _ _ _ e0, real_of_all x2 _ _ _ _ _ e2, real_of_all x3 _ _ _ _ _ e3, real_of_all x4 _ _ _ _ _ e4⟩

end Cert.PreReal

end
-- ==== Proof.lean ====
/- The five claims about the two-layer graph-convolution kernel program.

   The program aggregates node features along the edges (on the host), runs a first linear layer that also
   accumulates column sums and column sums of squares over ten row blocks (the first pallas_call), normalises with
   the resulting mean and variance and clamps at zero (the second), aggregates again and runs a second linear layer
   into 128 zero-padded columns of which the first 47 are kept (the third).

   FRAMES. Each pallas_call is run block by block against the pipeline's obligation: the second and third have one
   straight-line body; the first has three kinds of block (first, middle, last), and between blocks its two
   accumulators hold what the block before left. The whole program is then the chain of its host stretches and
   calls, every buffer's contents at each boundary a fold from the launch memory; no step writes an argument.
   The reference has no kernel: its frame is its run with the results dropped.

   THE VALUES AGREE over the extended reals: the aggregation is the same host computation on both sides; the linear
   layers add the same three terms in another order; the ten block sums are the sum over all rows; the kernel's
   variance, the mean of squares minus the squared mean, is the reference's mean of squared deviations because every
   pre-activation is a real number when the inputs are (finite sums, products, and quotients by an in-degree clamped
   below at one); the normalisation is then the same formula entry by entry; the zero padding of the second layer's
   weights does not reach the 47 columns that are kept. Nothing was rewritten by the idealisation, so `preserves`
   has nothing to state. -/
import proofs.«120895_j33182917328949_1_alg».proof.Defs
import proofs.«120895_j33182917328949_1_alg».proof.Proof.Gen.Kernel
import proofs.«120895_j33182917328949_1_alg».proof.Proof.Gen.KernelIdeal
import proofs.«120895_j33182917328949_1_alg».proof.Proof.Gen.ReferenceIdeal
import proofs.«120895_j33182917328949_1_alg».proof.Proof.Gen.Pre_finite_inputs
import proofs.«120895_j33182917328949_1_alg».proof.Proof.Gen.ReferenceIdeal.Run
import proofs.«120895_j33182917328949_1_alg».proof.Proof.Gen.ReferenceIdeal.Read
import proofs.«120895_j33182917328949_1_alg».proof.Proof.K.Whole
import proofs.«120895_j33182917328949_1_alg».proof.Proof.KI.Whole
import proofs.«120895_j33182917328949_1_alg».proof.Proof.KI.Bridge
import proofs.«120895_j33182917328949_1_alg».proof.Proof.PreReal
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Whole.frame m ρ
theorem frame_pi : Cert.frame_KernelIdeal := fun m ρ _ => Cert.KernelIdeal.Whole.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealisation rewrote nothing. -/
theorem preserves : Cert.preserves_Kernel_KernelIdeal := trivial

/-- From memories agreeing on the arguments both programs run to the end, and the logits and the activations they
    end with are equal as extended reals. -/
theorem algebraic : Cert.algebraic_KernelIdeal_ReferenceIdeal := by
  intro m ρ m' ρ' hpre hagree
  refine ⟨fun c => Cert.KernelIdeal.Whole.W7 m ρ c Cert.KernelIdeal.main_v55,
    fun c => Cert.KernelIdeal.Whole.W7 m ρ c Cert.KernelIdeal.main_v29, ?_, ?_⟩
  · exact (θ_run Cert.KernelIdeal.defs _ _).mono (fun r h c =>
      ⟨h c _ (Cert.KernelIdeal.Whole.mem_uc Cert.KernelIdeal.main_v55 (by decide)),
       h c _ (Cert.KernelIdeal.Whole.mem_uc Cert.KernelIdeal.main_v29 (by decide)),
      (h c _ (Cert.KernelIdeal.Whole.mem_uc Cert.KernelIdeal.main_arg0 (by decide))).trans (Cert.KernelIdeal.Whole.W7_main_arg0 m ρ c),
      (h c _ (Cert.KernelIdeal.Whole.mem_uc Cert.KernelIdeal.main_arg1 (by decide))).trans (Cert.KernelIdeal.Whole.W7_main_arg1 m ρ c),
      (h c _ (Cert.KernelIdeal.Whole.mem_uc Cert.KernelIdeal.main_arg2 (by decide))).trans (Cert.KernelIdeal.Whole.W7_main_arg2 m ρ c),
      (h c _ (Cert.KernelIdeal.Whole.mem_uc Cert.KernelIdeal.main_arg3 (by decide))).trans (Cert.KernelIdeal.Whole.W7_main_arg3 m ρ c),
      (h c _ (Cert.KernelIdeal.Whole.mem_uc Cert.KernelIdeal.main_arg4 (by decide))).trans (Cert.KernelIdeal.Whole.W7_main_arg4 m ρ c),
      (h c _ (Cert.KernelIdeal.Whole.mem_uc Cert.KernelIdeal.main_arg5 (by decide))).trans (Cert.KernelIdeal.Whole.W7_main_arg5 m ρ c),
      (h c _ (Cert.KernelIdeal.Whole.mem_uc Cert.KernelIdeal.main_arg6 (by decide))).trans (Cert.KernelIdeal.Whole.W7_main_arg6 m ρ c),
      (h c _ (Cert.KernelIdeal.Whole.mem_uc Cert.KernelIdeal.main_arg7 (by decide))).trans (Cert.KernelIdeal.Whole.W7_main_arg7 m ρ c),
      (h c _ (Cert.KernelIdeal.Whole.mem_uc Cert.KernelIdeal.main_arg8 (by decide))).trans (Cert.KernelIdeal.Whole.W7_main_arg8 m ρ c),
      (h c _ (Cert.KernelIdeal.Whole.mem_uc Cert.KernelIdeal.main_arg9 (by decide))).trans (Cert.KernelIdeal.Whole.W7_main_arg9 m ρ c)⟩) (Cert.KernelIdeal.Whole.run_all m ρ)
  · refine (θ_run Cert.ReferenceIdeal.defs _ _).mono (fun _ h c => ⟨?_, ?_, (h c).2.2⟩)
      (Cert.ReferenceIdeal.Value.run (F := Ideal) m' ρ')
    · obtain ⟨h0, h2, h3, h4⟩ := Cert.PreReal.of_pre _ _ _ _ _ _ _ _ _ _ (hpre c)
      rw [(h c).1, Cert.ReferenceIdeal.Read.val_main_v83_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact (Cert.KernelIdeal.Bridge.logit_eq m ρ c h0 h2 h3 h4).symm
    · obtain ⟨h0, h2, h3, h4⟩ := Cert.PreReal.of_pre _ _ _ _ _ _ _ _ _ _ (hpre c)
      rw [(h c).2.1, Cert.ReferenceIdeal.Read.val_main_v56_eq, (hagree c).1, (hagree c).2.1, (hagree c).2.2.1, (hagree c).2.2.2.1, (hagree c).2.2.2.2.1, (hagree c).2.2.2.2.2.1, (hagree c).2.2.2.2.2.2.1]
      exact ((Cert.KernelIdeal.Bridge.W7_v29 m ρ c).trans (Cert.KernelIdeal.Bridge.h_eq m ρ c h0 h2 h3 h4)).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
